-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x1 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg6
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x16384 .f32) (main_arg2 : FVec F S512x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S16384x512 : Shape := ⟨2, ![16384, 512]⟩
abbrev S16384x16384 : Shape := ⟨2, ![16384, 16384]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S16384x16 : Shape := ⟨2, ![16384, 16]⟩
abbrev S1x16 : Shape := ⟨2, ![1, 16]⟩
abbrev S1024x2048 : Shape := ⟨2, ![1024, 2048]⟩
abbrev S2048x16 : Shape := ⟨2, ![2048, 16]⟩
abbrev S1024x16 : Shape := ⟨2, ![1024, 16]⟩
abbrev S1024 : Shape := ⟨1, ![1024]⟩
abbrev S1024x1 : Shape := ⟨2, ![1024, 1]⟩
abbrev S16384x1 : Shape := ⟨2, ![16384, 1]⟩
abbrev S1x1 : Shape := ⟨2, ![1, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S16384x16, .f32⟩
  | .hbm, ⟨9, _⟩ => ⟨S1x16, .f32⟩
  | .hbm, ⟨10, _⟩ => ⟨S16384x16, .f32⟩
  | .hbm, ⟨11, _⟩ => ⟨S16384x16, .f32⟩
  | .hbm, ⟨12, _⟩ => ⟨S1x16, .f32⟩
  | .hbm, ⟨13, _⟩ => ⟨S16384x16, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S2048x16, .f32⟩
  | .local _ .vmem, ⟨4, _⟩ => ⟨S1x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x2048, .f32⟩
  | .local _ .vmem, ⟨9, _⟩ => ⟨S1024x2048, .f32⟩
  | .local _ .vmem, ⟨10, _⟩ => ⟨S2048x16, .f32⟩
  | .local _ .vmem, ⟨11, _⟩ => ⟨S2048x16, .f32⟩
  | .local _ .vmem, ⟨12, _⟩ => ⟨S1x16, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x512_S512x16_S16384x16_1_0_0_1_n_n_wf : DotDims.WF S16384x512 S512x16 S16384x16 [1] [0] [0] [1] [] []
  dot_S1024x2048_S2048x16_S1024x16_1_0_0_1_n_n_wf : DotDims.WF S1024x2048 S2048x16 S1024x16 [1] [0] [0] [1] [] []
  dot_S16384x16_S16x16_S16384x16_1_0_0_1_n_n_wf : DotDims.WF S16384x16 S16x16 S16384x16 [1] [0] [0] [1] [] []
  dot_S16384x16_S16x1_S16384x1_1_0_0_1_n_n_wf : DotDims.WF S16384x16 S16x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S16384x16.size a
  hwx0_3 : ∀ i : grid0.Coords, EltTy.bits .f32 = 32 ∨ (Rect.block (s := S16384x16) S1024x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S16384x16.size a
  hwx1_1 : ∀ i : grid1.Coords, EltTy.bits .f32 = 32 ∨ (Rect.block (s := S16384x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S16384x16.size a
  hwx1_3 : ∀ i : grid1.Coords, EltTy.bits .f32 = 32 ∨ (Rect.block (s := S16384x16) S1024x16.size (cc1_transform_3 i) (hinb1_3 i)).WholeWords (EltTy.packing .f32)

variable [Facts₀]

def dot_S16384x512_S512x16_S16384x16_1_0_0_1_n_n : DotDims S16384x512 S512x16 S16384x16 where
  lhsContracting := [1]
  rhsContracting := [0]
  lhsNonContracting := [0]
  rhsNonContracting := [1]
  lhsBatch := []
  rhsBatch := []
  wf := dot_S16384x512_S512x16_S16384x16_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S16384x16 : Shape := ⟨2, ![16384, 16]⟩
abbrev S1x16 : Shape := ⟨2, ![1, 16]⟩
abbrev S_ : Shape := ⟨0, ![]⟩
abbrev S16384 : Shape := ⟨1, ![16384]⟩
abbrev S16384x1 : Shape := ⟨2, ![16384, 1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S16384x16, .f32⟩
  | .hbm, ⟨9, _⟩ => ⟨S16384x16, .f32⟩
  | .hbm, ⟨10, _⟩ => ⟨S1x16, .f32⟩
  | .hbm, ⟨11, _⟩ => ⟨S16384x16, .f32⟩
  | .hbm, ⟨12, _⟩ => ⟨S16384x16, .f32⟩
  | .hbm, ⟨13, _⟩ => ⟨S_, .f32⟩
  | .hbm, ⟨14, _⟩ => ⟨S16384x16, .f32⟩
  | .hbm, ⟨15, _⟩ => ⟨S16384x16, .f32⟩
  | .hbm, ⟨16, _⟩ => ⟨S16384x16, .f32⟩
  | .hbm, ⟨17, _⟩ => ⟨S16384x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x16, .f32⟩
  | .hbm, ⟨28, _⟩ => ⟨S16384x16, .f32⟩
  | .hbm, ⟨29, _⟩ => ⟨S16384x16, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x16, .f32⟩
  | .hbm, ⟨34, _⟩ => ⟨S16384x16, .f32⟩
  | .hbm, ⟨35, _⟩ => ⟨S16384x1, .f32⟩
  | .hbm, ⟨36, _⟩ => ⟨S1x1, .f32⟩
  | .hbm, ⟨37, _⟩ => ⟨S16384x1, .f32⟩
  | .hbm, ⟨38, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x512_S512x16_S16384x16_1_0_0_1_n_n_wf : DotDims.WF S16384x512 S512x16 S16384x16 [1] [0] [0] [1] [] []
  dot_S16384x16384_S16384x16_S16384x16_1_0_0_1_n_n_wf : DotDims.WF S16384x16384 S16384x16 S16384x16 [1] [0] [0] [1] [] []
  dot_S16384x16_S16x16_S16384x16_1_0_0_1_n_n_wf : DotDims.WF S16384x16 S16x16 S16384x16 [1] [0] [0] [1] [] []
  dot_S16384x16_S16x1_S16384x1_1_0_0_1_n_n_wf : DotDims.WF S16384x16 S16x1 S16384x1 [1] [0] [0] [1] [] []

variable [Facts₀]

def dot_S16384x512_S512x16_S16384x16_1_0_0_1_n_n : DotDims S16384x512 S512x16 S16384x16 where
  lhsContracting := [1]
  rhsContracting := [0]
  lhsNonContracting := [0]
  rhsNonContracting := [1]
  lhsBatch := []
  rhsBatch := []
  wf := dot_S16384x512_S512x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.KB.Points.lean ====
/-
  The two propagation steps A·h of the graph convolution, each a grid of 16 × 8 points over [1024, 2048] blocks of A and
  [2048, 16] blocks of h: which points begin a row of blocks (the [1024, 16] accumulator is zeroed), which end it (bias
  and activation applied, the row block of the result written), what each window's block is, and which buffers the body
  is called with. Stated at any value type.
-/
import proofs.«141868_j58643483459879_1_alg».proof.Proof.Gen.Kernel.Launch
import proofs.«141868_j58643483459879_1_alg».proof.Proof.Gen.Kernel.Skeleton
import proofs.«141868_j58643483459879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Propagation step 1 (the program's pallas_call number 0): grid points, blocks and buffers -/

section
variable (V : (c : Dev nD) → (b : Ref sig .tc) → Buf (Elt F) ((c : Thread nD τ).loc b))

/-- The block of window `w` at grid point `t`, read off its array as the step finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body finds input window 0's block in its staging buffer at every point, fetched there or not: the blocks tile
    the array and the body never stores into the buffer. -/
theorem found0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body finds input window 1's block in its staging buffer at every point, fetched there or not: the blocks tile
    the array and the body never stores into the buffer. -/
theorem found0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body finds input window 2's block in its staging buffer at every point, fetched there or not: the blocks tile
    the array and the body never stores into the buffer. -/
theorem found0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## Which points start a row of blocks and which finish it -/

/-- The point is the first of its row of blocks (column block 0): the accumulator is set to zero there. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 8 = 0 :=
  (by decide +kernel : ∀ t : Fin grid0.N, isFirst0 (grid0.coords t) ↔ t.val % 8 = 0)

/-- The point is the last of its row of blocks (column block 7): the row block of the result is written there. -/
abbrev isLast0 (i : grid0.Coords) : Prop := k0_cond2 i = 1#1
theorem isLast0_iff : ∀ t : Fin cfg0.N, isLast0 (grid0.coords t) ↔ t.val % 8 = 7 :=
  (by decide +kernel : ∀ t : Fin grid0.N, isLast0 (grid0.coords t) ↔ t.val % 8 = 7)

/-- The three input windows are read at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last point of a row of blocks nothing is stored into the result window and nothing is written back. -/
theorem idle0_3 : ∀ t : Fin cfg0.N, ¬isLast0 (grid0.coords t) → cfg0.idle 3 (grid0.coords t) = true := by decide +kernel
theorem noFlush0_3 : ∀ t : Fin cfg0.N, ¬isLast0 (grid0.coords t) → (cfg0.win 3).flush t = false := by decide +kernel
/-- At the last point of a row of blocks the result window is stored. -/
theorem live0_3 : ∀ t : Fin cfg0.N, isLast0 (grid0.coords t) → cfg0.idle 3 (grid0.coords t) = false := by decide +kernel

/-! ## The buffers the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x16 .f32 := win0_3.stage (cfg0.slots t 3)
abbrev hs0_3 (t : Fin cfg0.N) : (ms0_3 t).IsWhole := hstage0_3 ((cfg0.slots t 3).cast nbuf0_3)
/-- The accumulator: a [1024, 16] scratch buffer of the step's own, kept from point to point. -/
abbrev scM0 : Memref sig .tc .vmem S1024x16 .f32 := Memref.whole cc0_scratch0
abbrev VS0 : View sig .tc .vmem S1024x16 .f32 := (scM0).view
/-- A view of the result window's shape, through which its contents are stated. -/
abbrev VO0 : View sig .tc .vmem S1024x16 .f32 := (Memref.whole cc0_stg3_0 : Memref sig .tc .vmem S1024x16 .f32).view

/-- The core's other scoped buffers (the other step's staging buffers and accumulator), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the step is handed besides its windows: the accumulator at some contents, the other scoped buffers and the
    generator register. -/
theorem handed0_split (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]; simp only [scM0, owns_whole]
  iintro ⟨⟨HA, HB⟩, Hg⟩
  isplitl [HA]; · iexact HA
  isplitl [HB]; · iexact HB
  iexact Hg

/-- And it takes the same back. -/
theorem handed0_join (c : Dev nD) :
    (iprop((∃ d, owns (c : Thread nD τ) scM0 fullShare d) ∗ others0 c ∗ (∃ r, prngReg c r)) : sProp 𝕄) ⊢ Pipeline.ΦA spec0 c := by
  unfold Pipeline.ΦA others0; rw [scopedRest0_eq]; simp only [scM0, owns_whole]
  iintro ⟨HA, HB, Hg⟩
  isplitl [HA HB]
  · isplitl [HA]; · iexact HA
    iexact HB
  iexact Hg

/-! # Propagation step 2 (the program's pallas_call number 1): grid points, blocks and buffers -/

section
variable (V : (c : Dev nD) → (b : Ref sig .tc) → Buf (Elt F) ((c : Thread nD τ).loc b))

/-- The block of window `w` at grid point `t`, read off its array as the step finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body finds input window 0's block in its staging buffer at every point, fetched there or not: the blocks tile
    the array and the body never stores into the buffer. -/
theorem found1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body finds input window 1's block in its staging buffer at every point, fetched there or not: the blocks tile
    the array and the body never stores into the buffer. -/
theorem found1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body finds input window 2's block in its staging buffer at every point, fetched there or not: the blocks tile
    the array and the body never stores into the buffer. -/
theorem found1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## Which points start a row of blocks and which finish it -/

/-- The point is the first of its row of blocks (column block 0): the accumulator is set to zero there. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- The point is the last of its row of blocks (column block 7): the row block of the result is written there. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-- The three input windows are read at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last point of a row of blocks nothing is stored into the result window and nothing is written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- At the last point of a row of blocks the result window is stored. -/
theorem live1_3 : ∀ t : Fin cfg1.N, isLast1 (grid1.coords t) → cfg1.idle 3 (grid1.coords t) = false := by decide +kernel

/-! ## The buffers the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
/-- The accumulator: a [1024, 16] scratch buffer of the step's own, kept from point to point. -/
abbrev scM1 : Memref sig .tc .vmem S1024x16 .f32 := Memref.whole cc1_scratch0
abbrev VS1 : View sig .tc .vmem S1024x16 .f32 := (scM1).view
/-- A view of the result window's shape, through which its contents are stated. -/
abbrev VO1 : View sig .tc .vmem S1024x16 .f32 := (Memref.whole cc1_stg3_0 : Memref sig .tc .vmem S1024x16 .f32).view

/-- The core's other scoped buffers (the other step's staging buffers and accumulator), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the step is handed besides its windows: the accumulator at some contents, the other scoped buffers and the
    generator register. -/
theorem handed1_split (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]; simp only [scM1, owns_whole]
  iintro ⟨⟨H1, H2, H3, H4, H5, H6, H7, H8, HA⟩, Hg⟩
  isplitl [HA]; · iexact HA
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And it takes the same back. -/
theorem handed1_join (c : Dev nD) :
    (iprop((∃ d, owns (c : Thread nD τ) scM1 fullShare d) ∗ others1 c ∗ (∃ r, prngReg c r)) : sProp 𝕄) ⊢ Pipeline.ΦA spec1 c := by
  unfold Pipeline.ΦA others1; rw [scopedRest1_eq]; simp only [scM1, owns_whole]
  iintro ⟨HA, ⟨H1, H2, H3, H4, H5, H6, H7, H8⟩, Hg⟩
  isplitl [HA H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HA
  iexact Hg

end Cert.Kernel.Fr

end
-- ==== Proof.KB.Run0A.lean ====
/-
  The body of propagation step 1 run at one kind of grid point (the first of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point of a row of blocks: the accumulator, whatever it held, is stored whole twice — first zero, then zero plus
    the product of the two blocks — and nothing else is written.
    The pieces the stores leave (last first) come with the proof that the body, on whole memrefs holding the blocks, runs to
    the end and leaves exactly those pieces written. -/
noncomputable def run0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ (∃ d, owns (c : Thread nD τ) arg6 fullShare d)
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KB.Run0B.lean ====
/-
  The body of propagation step 1 run at one kind of grid point (an inner one of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At an inner point of a row of blocks: the accumulator is stored whole once, what it held plus the product of the two
    blocks, and nothing else is written.
    The pieces the stores leave (last first) come with the proof that the body, on whole memrefs holding the blocks, runs to
    the end and leaves exactly those pieces written. -/
noncomputable def run0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg6 fullShare xs
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KB.Run0C.lean ====
/-
  The body of propagation step 1 run at one kind of grid point (the last of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point of a row of blocks: the accumulator is stored whole once (what it held plus the product of the two blocks),
    and the result window is stored whole once (the activation of the accumulator plus the bias row).
    The pieces the stores leave (last first) come with the proof that the body, on whole memrefs holding the blocks, runs to
    the end and leaves exactly those pieces written. -/
noncomputable def run0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) :
    Σ' (L3 : List (View.Piece (Elt F) S1024x16 .f32)), { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.KB.Step0.lean ====
/-
  Propagation step 1 point by point: what the accumulator and the result window hold after each grid point, the invariant
  that carries the accumulator from point to point, and the body's obligation at every point.
-/
import proofs.«141868_j58643483459879_1_alg».proof.Proof.KB.Run0A
import proofs.«141868_j58643483459879_1_alg».proof.Proof.KB.Run0B
import proofs.«141868_j58643483459879_1_alg».proof.Proof.KB.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves in the accumulator and in the result window -/

theorem accCover0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) (y : S1024x16.Idx) :
    ∃ pc ∈ (run0_A c i arg2 harg2 arg3 harg3 arg4 harg4 arg5 harg5 arg6 harg6 hc0 hc1 x0 x1).1, y ∈ pc.1.set :=
  View.cover_of_tiledL (run0_A c i arg2 harg2 arg3 harg3 arg4 harg4 arg5 harg5 arg6 harg6 hc0 hc1 x0 x1).1 S1024x16.size (by sl_kernel_rfl) y

/-- The accumulator after the first point of a row of blocks. -/
def acc0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) : Vec F S1024x16 .f32 :=
  VS0.read (Elt F) (VS0.writes (Elt F) VS0.junk (run0_A c i arg2 harg2 arg3 harg3 arg4 harg4 arg5 harg5 arg6 harg6 hc0 hc1 x0 x1).1)

theorem accCover0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) (y : S1024x16.Idx) :
    ∃ pc ∈ (run0_B c i arg2 harg2 arg3 harg3 arg4 harg4 arg5 harg5 arg6 harg6 hc0 hc1 x0 x1 xs).1, y ∈ pc.1.set :=
  View.cover_of_tiledL (run0_B c i arg2 harg2 arg3 harg3 arg4 harg4 arg5 harg5 arg6 harg6 hc0 hc1 x0 x1 xs).1 S1024x16.size (by sl_kernel_rfl) y

/-- The accumulator after an inner point, from what the point before left in it. -/
def acc0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) : Vec F S1024x16 .f32 :=
  VS0.read (Elt F) (VS0.writes (Elt F) VS0.junk (run0_B c i arg2 harg2 arg3 harg3 arg4 harg4 arg5 harg5 arg6 harg6 hc0 hc1 x0 x1 xs).1)

theorem accCover0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) (y : S1024x16.Idx) :
    ∃ pc ∈ (run0_C c i arg2 harg2 arg3 harg3 arg4 harg4 arg5 harg5 arg6 harg6 hc0 hc1 x0 x1 x2 xs).2.1, y ∈ pc.1.set :=
  View.cover_of_tiledL (run0_C c i arg2 harg2 arg3 harg3 arg4 harg4 arg5 harg5 arg6 harg6 hc0 hc1 x0 x1 x2 xs).2.1 S1024x16.size (by sl_kernel_rfl) y

/-- The accumulator after the last point of a row of blocks. -/
def acc0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) : Vec F S1024x16 .f32 :=
  VS0.read (Elt F) (VS0.writes (Elt F) VS0.junk (run0_C c i arg2 harg2 arg3 harg3 arg4 harg4 arg5 harg5 arg6 harg6 hc0 hc1 x0 x1 x2 xs).2.1)

theorem resCover0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) (y : S1024x16.Idx) :
    ∃ pc ∈ (run0_C c i arg2 harg2 arg3 harg3 arg4 harg4 arg5 harg5 arg6 harg6 hc0 hc1 x0 x1 x2 xs).1, y ∈ pc.1.set :=
  View.cover_of_tiledL (run0_C c i arg2 harg2 arg3 harg3 arg4 harg4 arg5 harg5 arg6 harg6 hc0 hc1 x0 x1 x2 xs).1 S1024x16.size (by sl_kernel_rfl) y

/-- The result window after the last point of a row of blocks. -/
def res0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) : Vec F S1024x16 .f32 :=
  VO0.read (Elt F) (VO0.writes (Elt F) VO0.junk (run0_C c i arg2 harg2 arg3 harg3 arg4 harg4 arg5 harg5 arg6 harg6 hc0 hc1 x0 x1 x2 xs).1)

/-! ## Point by point -/

section
variable (V : (c : Dev nD) → (b : Ref sig .tc) → Buf (Elt F) ((c : Thread nD τ).loc b))

/-- The accumulator after the body at position `n` of the grid: at the first point of a row of blocks it is started afresh,
    afterwards it is what the point before left plus this point's product of blocks. -/
def accAt0 (c : Dev nD) : (n : ℕ) → n < cfg0.N → Vec F S1024x16 .f32
  | 0, hn => acc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (fun h => (fun h => by (try dsimp only at h); omega) ((isLast0_iff ⟨0, hn⟩).mp h)) (iblk0 V c 0 ⟨0, hn⟩) (iblk0 V c 1 ⟨0, hn⟩)
  | n + 1, hn =>
    if h0 : (n + 1) % 8 = 0 then
      acc0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (fun h => (fun h => by (try dsimp only at h); omega) ((isLast0_iff ⟨n + 1, hn⟩).mp h)) (iblk0 V c 0 ⟨n + 1, hn⟩) (iblk0 V c 1 ⟨n + 1, hn⟩)
    else if h1 : (n + 1) % 8 = 7 then
      acc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((isFirst0_iff ⟨n + 1, hn⟩).mp h)) ((isLast0_iff ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      acc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((isFirst0_iff ⟨n + 1, hn⟩).mp h)) (fun h => h1 ((isLast0_iff ⟨n + 1, hn⟩).mp h)) (iblk0 V c 0 ⟨n + 1, hn⟩) (iblk0 V c 1 ⟨n + 1, hn⟩) (accAt0 c n (Nat.lt_of_succ_lt hn))

theorem accAt0_first (c : Dev nD) (t : Fin cfg0.N) (h0 : t.val % 8 = 0) (h1 : ¬t.val % 8 = 7) :
    accAt0 V c t.val t.isLt = acc0_A c (grid0.coords t) (ms0_0 t) (hs0_0 t) (ms0_1 t) (hs0_1 t) (ms0_2 t) (hs0_2 t) (ms0_3 t) (hs0_3 t) scM0 (Memref.isWhole_whole _) ((isFirst0_iff t).mpr h0) (fun h => h1 ((isLast0_iff t).mp h)) (iblk0 V c 0 t) (iblk0 V c 1 t) := by
  obtain ⟨n, hn⟩ := t
  cases n with
  | zero => exact rfl
  | succ n => exact (dif_pos h0).trans rfl

theorem accAt0_inner (c : Dev nD) (t : Fin cfg0.N) (h0 : ¬t.val % 8 = 0) (h1 : ¬t.val % 8 = 7) :
    accAt0 V c t.val t.isLt = acc0_B c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) (fun h => h1 ((isLast0_iff t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_last (c : Dev nD) (t : Fin cfg0.N) (h0 : ¬t.val % 8 = 0) (h1 : t.val % 8 = 7) :
    accAt0 V c t.val t.isLt = acc0_C c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window after the body at point `t`: at the last point of a row of blocks the row block of the result, from
    the accumulator the point before left; at any other point nothing the pipeline reads. -/
def resAt0 (c : Dev nD) (t : Fin cfg0.N) : Vec F S1024x16 .f32 :=
  if h1 : t.val % 8 = 7 then
    res0_C c (grid0.coords t) (ms0_0 t) (hs0_0 t) (ms0_1 t) (hs0_1 t) (ms0_2 t) (hs0_2 t) (ms0_3 t) (hs0_3 t) scM0 (Memref.isWhole_whole _) (fun h => (fun h => by omega) ((isFirst0_iff t).mp h)) ((isLast0_iff t).mpr h1) (iblk0 V c 0 t) (iblk0 V c 1 t) (iblk0 V c 2 t) (accAt0 V c (t.val - 1) (Nat.lt_of_le_of_lt (Nat.sub_le _ _) t.isLt))
  else VO0.read (Elt F) (VO0.writes (Elt F) VO0.junk [])

theorem resAt0_last (c : Dev nD) (t : Fin cfg0.N) (h0 : ¬t.val % 8 = 0) (h1 : t.val % 8 = 7) :
    resAt0 V c t = res0_C c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  unfold resAt0; exact dif_pos h1

/-- What the step holds besides its windows before position `n`: the accumulator — at anything before the first point, then at
    what the point before left —, the core's other scoped buffers and the generator register. -/
def inv0 (c : Dev nD) : (n : ℕ) → n ≤ cfg0.N → sProp 𝕄
  | 0, _ => iprop((∃ d, owns (c : Thread nD τ) scM0 fullShare d) ∗ others0 c ∗ (∃ r, prngReg c r))
  | n + 1, hn => iprop(owns (c : Thread nD τ) scM0 fullShare (accAt0 V c n hn) ∗ others0 c ∗ (∃ r, prngReg c r))

theorem inv0_zero (c : Dev nD) (n : ℕ) (h : n ≤ cfg0.N) (hz : n = 0) :
    inv0 V c n h = iprop((∃ d, owns (c : Thread nD τ) scM0 fullShare d) ∗ others0 c ∗ (∃ r, prngReg c r)) := by
  subst hz; rfl

theorem inv0_succ (c : Dev nD) (n : ℕ) (hn : n < cfg0.N) :
    inv0 V c (n + 1) hn = iprop(owns (c : Thread nD τ) scM0 fullShare (accAt0 V c n hn) ∗ others0 c ∗ (∃ r, prngReg c r)) := rfl

theorem inv0_pos (c : Dev nD) (n : ℕ) (h : n ≤ cfg0.N) (hz : n ≠ 0) :
    inv0 V c n h = iprop(owns (c : Thread nD τ) scM0 fullShare (accAt0 V c (n - 1) (by omega)) ∗ others0 c ∗ (∃ r, prngReg c r)) := by
  cases n with
  | zero => exact absurd rfl hz
  | succ n => rfl

/-! ## The proof data of the step -/

/-- The arrays as the step finds them; after the body each input window still at its block and the result window at
    `resAt0`; the accumulator carried in the invariant; nothing owed to other cores. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => resAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = resAt0 V c t := by dsimp only [dat0]

theorem found0_0 (c : Dev nD) (t : Fin cfg0.N) (d) : (dat0 V c).before 0 t d = iblk0 V c 0 t :=
  found0_0_of V (dat0 V c) (A_eq0 V c 0) (after0_0 V c) t d
theorem found0_1 (c : Dev nD) (t : Fin cfg0.N) (d) : (dat0 V c).before 1 t d = iblk0 V c 1 t :=
  found0_1_of V (dat0 V c) (A_eq0 V c 1) (after0_1 V c) t d
theorem found0_2 (c : Dev nD) (t : Fin cfg0.N) (d) : (dat0 V c).before 2 t d = iblk0 V c 2 t :=
  found0_2_of V (dat0 V c) (A_eq0 V c 2) (after0_2 V c) t d

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the input windows hold their blocks; the point's place in its row of blocks says which run applies;
    the invariant hands over the accumulator at what the point before left (at anything at the very first point) and takes it
    back at this point's contents; away from the last point of a row the result window is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast0_iff t).mpr h1)], after0_3]
    rw [accAt0_last V c t h0 h1, resAt0_last V c t h0 h1]
    unfold acc0_C res0_C; (try dsimp only)
    rw [inv0_castSucc V c t, inv0_pos V c _ _ hz]
    iintro ⟨⟨HS, Hoth, Hg⟩, Ho, ⟨%d0, H0⟩, ⟨%d1, H1⟩, ⟨%d2, H2⟩, ⟨%d3, H3⟩⟩
    iapply ((run0_C c (grid0.coords t) _ _ _ _ _ _ _ _ _ _ (fun h => h0 ((isFirst0_iff t).mp h)) ((isLast0_iff t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (accCover0_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (resCover0_C c _ _ _ _ _ _ _ _ _ _ _ _ _ _ _ _ _)
  · rw [Dat.leavesExact_idle (dat0 V c) 3 t (idle0_3 t (fun h => h1 ((isLast0_iff t).mp h))) (noFlush0_3 t (fun h => h1 ((isLast0_iff t).mp h)))]
    by_cases h0 : t.val % 8 = 0
    · rw [accAt0_first V c t h0 h1]
      unfold acc0_A; (try dsimp only)
      by_cases hz : t.val = 0
      · rw [inv0_castSucc V c t, inv0_zero V c _ _ hz]
        iintro ⟨⟨HS, Hoth, Hg⟩, Ho, ⟨%d0, H0⟩, ⟨%d1, H1⟩, ⟨%d2, H2⟩, ⟨%d3, H3⟩⟩
        iapply ((run0_A c (grid0.coords t) _ _ _ _ _ _ _ _ _ _ ((isFirst0_iff t).mpr h0) (fun h => h1 ((isLast0_iff t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover0_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨HS, Hoth, Hg⟩, Ho, ⟨%d0, H0⟩, ⟨%d1, H1⟩, ⟨%d2, H2⟩, ⟨%d3, H3⟩⟩
        iapply ((run0_A c (grid0.coords t) _ _ _ _ _ _ _ _ _ _ ((isFirst0_iff t).mpr h0) (fun h => h1 ((isLast0_iff t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover0_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
    · have hz : t.val ≠ 0 := by omega
      rw [accAt0_inner V c t h0 h1]
      unfold acc0_B; (try dsimp only)
      rw [inv0_castSucc V c t, inv0_pos V c _ _ hz]
      iintro ⟨⟨HS, Hoth, Hg⟩, Ho, ⟨%d0, H0⟩, ⟨%d1, H1⟩, ⟨%d2, H2⟩, ⟨%d3, H3⟩⟩
      iapply ((run0_B c (grid0.coords t) _ _ _ _ _ _ _ _ _ _ (fun h => h0 ((isFirst0_iff t).mp h)) (fun h => h1 ((isLast0_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS]
        · unfold owns; iexists _; isplitr
          swap; · iexact HS
          ipureintro; exact View.read_writes_of_cover _ _ _ _ _ (accCover0_B c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The step's body obligation, at every point. -/
theorem body_obligation0 (c : Dev nD) : BodyObligation (dat0 (F := F) V c) (defs₀ (F := F)) Variants.none () Set.univ := fun t => by
  rw [bigSep_W0, bigSep_W0]
  exact sound_body0 V c t

/-- What the step is handed is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  exact handed0_split c

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega)]
  iintro ⟨HS, Hoth, Hg⟩
  iapply (handed0_join c)
  isplitl [HS]; · iexists _; iexact HS
  isplitl [Hoth]; · iexact Hoth
  iexact Hg

end

end Cert.Kernel.Fr

end
-- ==== Proof.KB.Run1A.lean ====
/-
  The body of propagation step 2 run at one kind of grid point (the first of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the first point of a row of blocks: the accumulator, whatever it held, is stored whole twice — first zero, then zero plus
    the product of the two blocks — and nothing else is written.
    The pieces the stores leave (last first) come with the proof that the body, on whole memrefs holding the blocks, runs to
    the end and leaves exactly those pieces written. -/
noncomputable def run1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ (∃ d, owns (c : Thread nD τ) arg6 fullShare d)
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KB.Run1B.lean ====
/-
  The body of propagation step 2 run at one kind of grid point (an inner one of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At an inner point of a row of blocks: the accumulator is stored whole once, what it held plus the product of the two
    blocks, and nothing else is written.
    The pieces the stores leave (last first) come with the proof that the body, on whole memrefs holding the blocks, runs to
    the end and leaves exactly those pieces written. -/
noncomputable def run1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg6 fullShare xs
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Fr

end
-- ==== Proof.KB.Run1C.lean ====
/-
  The body of propagation step 2 run at one kind of grid point (the last of a row of blocks).
-/
import proofs.«141868_j58643483459879_1_alg».proof.Proof.KB.Points

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point of a row of blocks: the accumulator is stored whole once (what it held plus the product of the two blocks),
    and the result window is stored whole once (the activation of the accumulator plus the bias row).
    The pieces the stores leave (last first) come with the proof that the body, on whole memrefs holding the blocks, runs to
    the end and leaves exactly those pieces written. -/
noncomputable def run1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) :
    Σ' (L3 : List (View.Piece (Elt F) S1024x16 .f32)), { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Fr

end
-- ==== Proof.KB.Step1.lean ====
/-
  Propagation step 2 point by point: what the accumulator and the result window hold after each grid point, the invariant
  that carries the accumulator from point to point, and the body's obligation at every point.
-/
import proofs.«141868_j58643483459879_1_alg».proof.Proof.KB.Run1A
import proofs.«141868_j58643483459879_1_alg».proof.Proof.KB.Run1B
import proofs.«141868_j58643483459879_1_alg».proof.Proof.KB.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each kind of point leaves in the accumulator and in the result window -/

theorem accCover1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) (y : S1024x16.Idx) :
    ∃ pc ∈ (run1_A c i arg2 harg2 arg3 harg3 arg4 harg4 arg5 harg5 arg6 harg6 hc0 hc1 x0 x1).1, y ∈ pc.1.set :=
  View.cover_of_tiledL (run1_A c i arg2 harg2 arg3 harg3 arg4 harg4 arg5 harg5 arg6 harg6 hc0 hc1 x0 x1).1 S1024x16.size (by sl_kernel_rfl) y

/-- The accumulator after the first point of a row of blocks. -/
def acc1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) : Vec F S1024x16 .f32 :=
  VS1.read (Elt F) (VS1.writes (Elt F) VS1.junk (run1_A c i arg2 harg2 arg3 harg3 arg4 harg4 arg5 harg5 arg6 harg6 hc0 hc1 x0 x1).1)

theorem accCover1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) (y : S1024x16.Idx) :
    ∃ pc ∈ (run1_B c i arg2 harg2 arg3 harg3 arg4 harg4 arg5 harg5 arg6 harg6 hc0 hc1 x0 x1 xs).1, y ∈ pc.1.set :=
  View.cover_of_tiledL (run1_B c i arg2 harg2 arg3 harg3 arg4 harg4 arg5 harg5 arg6 harg6 hc0 hc1 x0 x1 xs).1 S1024x16.size (by sl_kernel_rfl) y

/-- The accumulator after an inner point, from what the point before left in it. -/
def acc1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) : Vec F S1024x16 .f32 :=
  VS1.read (Elt F) (VS1.writes (Elt F) VS1.junk (run1_B c i arg2 harg2 arg3 harg3 arg4 harg4 arg5 harg5 arg6 harg6 hc0 hc1 x0 x1 xs).1)

theorem accCover1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) (y : S1024x16.Idx) :
    ∃ pc ∈ (run1_C c i arg2 harg2 arg3 harg3 arg4 harg4 arg5 harg5 arg6 harg6 hc0 hc1 x0 x1 x2 xs).2.1, y ∈ pc.1.set :=
  View.cover_of_tiledL (run1_C c i arg2 harg2 arg3 harg3 arg4 harg4 arg5 harg5 arg6 harg6 hc0 hc1 x0 x1 x2 xs).2.1 S1024x16.size (by sl_kernel_rfl) y

/-- The accumulator after the last point of a row of blocks. -/
def acc1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) : Vec F S1024x16 .f32 :=
  VS1.read (Elt F) (VS1.writes (Elt F) VS1.junk (run1_C c i arg2 harg2 arg3 harg3 arg4 harg4 arg5 harg5 arg6 harg6 hc0 hc1 x0 x1 x2 xs).2.1)

theorem resCover1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) (y : S1024x16.Idx) :
    ∃ pc ∈ (run1_C c i arg2 harg2 arg3 harg3 arg4 harg4 arg5 harg5 arg6 harg6 hc0 hc1 x0 x1 x2 xs).1, y ∈ pc.1.set :=
  View.cover_of_tiledL (run1_C c i arg2 harg2 arg3 harg3 arg4 harg4 arg5 harg5 arg6 harg6 hc0 hc1 x0 x1 x2 xs).1 S1024x16.size (by sl_kernel_rfl) y

/-- The result window after the last point of a row of blocks. -/
def res1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) : Vec F S1024x16 .f32 :=
  VO1.read (Elt F) (VO1.writes (Elt F) VO1.junk (run1_C c i arg2 harg2 arg3 harg3 arg4 harg4 arg5 harg5 arg6 harg6 hc0 hc1 x0 x1 x2 xs).1)

/-! ## Point by point -/

section
variable (V : (c : Dev nD) → (b : Ref sig .tc) → Buf (Elt F) ((c : Thread nD τ).loc b))

/-- The accumulator after the body at position `n` of the grid: at the first point of a row of blocks it is started afresh,
    afterwards it is what the point before left plus this point's product of blocks. -/
def accAt1 (c : Dev nD) : (n : ℕ) → n < cfg1.N → Vec F S1024x16 .f32
  | 0, hn => acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩)
  | n + 1, hn =>
    if h0 : (n + 1) % 8 = 0 then
      acc1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (fun h => (fun h => by (try dsimp only at h); omega) ((isLast1_iff ⟨n + 1, hn⟩).mp h)) (iblk1 V c 0 ⟨n + 1, hn⟩) (iblk1 V c 1 ⟨n + 1, hn⟩)
    else if h1 : (n + 1) % 8 = 7 then
      acc1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) (h1 : ¬t.val % 8 = 7) :
    accAt1 V c t.val t.isLt = acc1_A c (grid1.coords t) (ms1_0 t) (hs1_0 t) (ms1_1 t) (hs1_1 t) (ms1_2 t) (hs1_2 t) (ms1_3 t) (hs1_3 t) scM1 (Memref.isWhole_whole _) ((isFirst1_iff t).mpr h0) (fun h => h1 ((isLast1_iff t).mp h)) (iblk1 V c 0 t) (iblk1 V c 1 t) := by
  obtain ⟨n, hn⟩ := t
  cases n with
  | zero => exact rfl
  | succ n => exact (dif_pos h0).trans rfl

theorem accAt1_inner (c : Dev nD) (t : Fin cfg1.N) (h0 : ¬t.val % 8 = 0) (h1 : ¬t.val % 8 = 7) :
    accAt1 V c t.val t.isLt = acc1_B c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) (fun h => h1 ((isLast1_iff t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_last (c : Dev nD) (t : Fin cfg1.N) (h0 : ¬t.val % 8 = 0) (h1 : t.val % 8 = 7) :
    accAt1 V c t.val t.isLt = acc1_C c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window after the body at point `t`: at the last point of a row of blocks the row block of the result, from
    the accumulator the point before left; at any other point nothing the pipeline reads. -/
def resAt1 (c : Dev nD) (t : Fin cfg1.N) : Vec F S1024x16 .f32 :=
  if h1 : t.val % 8 = 7 then
    res1_C c (grid1.coords t) (ms1_0 t) (hs1_0 t) (ms1_1 t) (hs1_1 t) (ms1_2 t) (hs1_2 t) (ms1_3 t) (hs1_3 t) scM1 (Memref.isWhole_whole _) (fun h => (fun h => by omega) ((isFirst1_iff t).mp h)) ((isLast1_iff t).mpr h1) (iblk1 V c 0 t) (iblk1 V c 1 t) (iblk1 V c 2 t) (accAt1 V c (t.val - 1) (Nat.lt_of_le_of_lt (Nat.sub_le _ _) t.isLt))
  else VO1.read (Elt F) (VO1.writes (Elt F) VO1.junk [])

theorem resAt1_last (c : Dev nD) (t : Fin cfg1.N) (h0 : ¬t.val % 8 = 0) (h1 : t.val % 8 = 7) :
    resAt1 V c t = res1_C c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  unfold resAt1; exact dif_pos h1

/-- What the step holds besides its windows before position `n`: the accumulator — at anything before the first point, then at
    what the point before left —, the core's other scoped buffers and the generator register. -/
def inv1 (c : Dev nD) : (n : ℕ) → n ≤ cfg1.N → sProp 𝕄
  | 0, _ => iprop((∃ d, owns (c : Thread nD τ) scM1 fullShare d) ∗ others1 c ∗ (∃ r, prngReg c r))
  | n + 1, hn => iprop(owns (c : Thread nD τ) scM1 fullShare (accAt1 V c n hn) ∗ others1 c ∗ (∃ r, prngReg c r))

theorem inv1_zero (c : Dev nD) (n : ℕ) (h : n ≤ cfg1.N) (hz : n = 0) :
    inv1 V c n h = iprop((∃ d, owns (c : Thread nD τ) scM1 fullShare d) ∗ others1 c ∗ (∃ r, prngReg c r)) := by
  subst hz; rfl

theorem inv1_succ (c : Dev nD) (n : ℕ) (hn : n < cfg1.N) :
    inv1 V c (n + 1) hn = iprop(owns (c : Thread nD τ) scM1 fullShare (accAt1 V c n hn) ∗ others1 c ∗ (∃ r, prngReg c r)) := rfl

theorem inv1_pos (c : Dev nD) (n : ℕ) (h : n ≤ cfg1.N) (hz : n ≠ 0) :
    inv1 V c n h = iprop(owns (c : Thread nD τ) scM1 fullShare (accAt1 V c (n - 1) (by omega)) ∗ others1 c ∗ (∃ r, prngReg c r)) := by
  cases n with
  | zero => exact absurd rfl hz
  | succ n => rfl

/-! ## The proof data of the step -/

/-- The arrays as the step finds them; after the body each input window still at its block and the result window at
    `resAt1`; the accumulator carried in the invariant; nothing owed to other cores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => resAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = resAt1 V c t := by dsimp only [dat1]

theorem found1_0 (c : Dev nD) (t : Fin cfg1.N) (d) : (dat1 V c).before 0 t d = iblk1 V c 0 t :=
  found1_0_of V (dat1 V c) (A_eq1 V c 0) (after1_0 V c) t d
theorem found1_1 (c : Dev nD) (t : Fin cfg1.N) (d) : (dat1 V c).before 1 t d = iblk1 V c 1 t :=
  found1_1_of V (dat1 V c) (A_eq1 V c 1) (after1_1 V c) t d
theorem found1_2 (c : Dev nD) (t : Fin cfg1.N) (d) : (dat1 V c).before 2 t d = iblk1 V c 2 t :=
  found1_2_of V (dat1 V c) (A_eq1 V c 2) (after1_2 V c) t d

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input windows hold their blocks; the point's place in its row of blocks says which run applies;
    the invariant hands over the accumulator at what the point before left (at anything at the very first point) and takes it
    back at this point's contents; away from the last point of a row the result window is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [live1_3 t ((isLast1_iff t).mpr h1)], after1_3]
    rw [accAt1_last V c t h0 h1, resAt1_last V c t h0 h1]
    unfold acc1_C res1_C; (try dsimp only)
    rw [inv1_castSucc V c t, inv1_pos V c _ _ hz]
    iintro ⟨⟨HS, Hoth, Hg⟩, Ho, ⟨%d0, H0⟩, ⟨%d1, H1⟩, ⟨%d2, H2⟩, ⟨%d3, H3⟩⟩
    iapply ((run1_C c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (accCover1_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (resCover1_C c _ _ _ _ _ _ _ _ _ _ _ _ _ _ _ _ _)
  · rw [Dat.leavesExact_idle (dat1 V c) 3 t (idle1_3 t (fun h => h1 ((isLast1_iff t).mp h))) (noFlush1_3 t (fun h => h1 ((isLast1_iff t).mp h)))]
    by_cases h0 : t.val % 8 = 0
    · rw [accAt1_first V c t h0 h1]
      unfold acc1_A; (try dsimp only)
      by_cases hz : t.val = 0
      · rw [inv1_castSucc V c t, inv1_zero V c _ _ hz]
        iintro ⟨⟨HS, Hoth, Hg⟩, Ho, ⟨%d0, H0⟩, ⟨%d1, H1⟩, ⟨%d2, H2⟩, ⟨%d3, H3⟩⟩
        iapply ((run1_A c (grid1.coords t) _ _ _ _ _ _ _ _ _ _ ((isFirst1_iff t).mpr h0) (fun h => h1 ((isLast1_iff t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover1_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [inv1_castSucc V c t, inv1_pos V c _ _ hz]
        iintro ⟨⟨HS, Hoth, Hg⟩, Ho, ⟨%d0, H0⟩, ⟨%d1, H1⟩, ⟨%d2, H2⟩, ⟨%d3, H3⟩⟩
        iapply ((run1_A c (grid1.coords t) _ _ _ _ _ _ _ _ _ _ ((isFirst1_iff t).mpr h0) (fun h => h1 ((isLast1_iff t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover1_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
    · have hz : t.val ≠ 0 := by omega
      rw [accAt1_inner V c t h0 h1]
      unfold acc1_B; (try dsimp only)
      rw [inv1_castSucc V c t, inv1_pos V c _ _ hz]
      iintro ⟨⟨HS, Hoth, Hg⟩, Ho, ⟨%d0, H0⟩, ⟨%d1, H1⟩, ⟨%d2, H2⟩, ⟨%d3, H3⟩⟩
      iapply ((run1_B c (grid1.coords t) _ _ _ _ _ _ _ _ _ _ (fun h => h0 ((isFirst1_iff t).mp h)) (fun h => h1 ((isLast1_iff t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS]
        · unfold owns; iexists _; isplitr
          swap; · iexact HS
          ipureintro; exact View.read_writes_of_cover _ _ _ _ _ (accCover1_B c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The step's body obligation, at every point. -/
theorem body_obligation1 (c : Dev nD) : BodyObligation (dat1 (F := F) V c) (defs₀ (F := F)) Variants.none () Set.univ := fun t => by
  rw [bigSep_W1, bigSep_W1]
  exact sound_body1 V c t

/-- What the step is handed is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  exact handed1_split c

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega)]
  iintro ⟨HS, Hoth, Hg⟩
  iapply (handed1_join c)
  isplitl [HS]; · iexists _; iexact HS
  isplitl [Hoth]; · iexact Hoth
  iexact Hg

end

end Cert.Kernel.Fr

end
-- ==== Proof.KB.Fold.lean ====
/-
  The contents of the core's buffers at each boundary of the program, as a fold from the launch memory: the host
  operations before the first propagation step, what that step's write-backs leave in its result array, the host
  operations between the steps, the second step, the host operations of the dense head. The argument arrays come out of
  the fold as they went in: no host operation writes one, and the steps only read them.
-/
import proofs.«141868_j58643483459879_1_alg».proof.Proof.KB.Step0
import proofs.«141868_j58643483459879_1_alg».proof.Proof.KB.Step1
import proofs.«141868_j58643483459879_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The buffers at launch. -/
abbrev W0 : Dev nD → Valuation τ sig (Elt F) := fun c b => m (c, b)
/-- After the host operations before the first step (x W1, the bias as a row). -/
abbrev W1 : Dev nD → Valuation τ sig (Elt F) := fun c => StableHlo.after hostOps0 (W0 m c)
/-- The same read at the core's references: what the first step is entered from. -/
abbrev E1 : (c : Dev nD) → (b : Ref sig .tc) → Buf (Elt F) ((c : Thread nD τ).loc b) := fun c b => W1 m c b
/-- After the first step: its arrays at what the write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem left0 (c : Dev nD) (w : Fin cfg0.W) : (dat0 (E1 m) c).arrAt w cfg0.N = E2 m c (Pipeline.arrRef spec0 w) :=
  (W2_arr m c w).symm
theorem rest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the host operations between the steps (h1 W2, the second bias as a row). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second step. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem left1 (c : Dev nD) (w : Fin cfg1.W) : (dat1 (E3 m) c).arrAt w cfg1.N = E4 m c (Pipeline.arrRef spec1 w) :=
  (W4_arr m c w).symm
theorem rest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the host operations of the dense head: the end of the program. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

theorem W5_main_arg1 (c : Dev nD) : W5 m c (Proc.devRef .tc main_arg1) = m ((c : Thread nD τ).loc main_arg1) :=
  (StableHlo.after_of_writes_sub hostOps2 _ hostOps2_writes (r := main_arg1) (by decide)).trans <|
  ((W4_arr m c 0).trans (((dat1 (E3 m) c).arrAt_in 0 rfl _).trans (A_eq1 (E3 m) c 0))).trans <|
  (StableHlo.after_of_writes_sub hostOps1 _ hostOps1_writes (r := main_arg1) (by decide)).trans <|
  ((W2_arr m c 0).trans (((dat0 (E1 m) c).arrAt_in 0 rfl _).trans (A_eq0 (E1 m) c 0))).trans <|
  (StableHlo.after_of_writes_sub hostOps0 _ hostOps0_writes (r := main_arg1) (by decide)).trans rfl

theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl

theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  (W2_of_ne m c main_arg3 (by decide)).trans <|
  (StableHlo.after_of_writes_sub hostOps0 _ hostOps0_writes (r := main_arg3) (by decide)).trans rfl

theorem W5_main_arg4 (c : Dev nD) : W5 m c (Proc.devRef .tc main_arg4) = m ((c : Thread nD τ).loc main_arg4) :=
  (StableHlo.after_of_writes_sub hostOps2 _ hostOps2_writes (r := main_arg4) (by decide)).trans <|
  (W4_of_ne m c main_arg4 (by decide)).trans <|
  (StableHlo.after_of_writes_sub hostOps1 _ hostOps1_writes (r := main_arg4) (by decide)).trans <|
  (W2_of_ne m c main_arg4 (by decide)).trans <|
  (StableHlo.after_of_writes_sub hostOps0 _ hostOps0_writes (r := main_arg4) (by decide)).trans rfl

theorem W5_main_arg5 (c : Dev nD) : W5 m c (Proc.devRef .tc main_arg5) = m ((c : Thread nD τ).loc main_arg5) :=
  (StableHlo.after_of_writes_sub hostOps2 _ hostOps2_writes (r := main_arg5) (by decide)).trans <|
  (W4_of_ne m c main_arg5 (by decide)).trans <|
  (StableHlo.after_of_writes_sub hostOps1 _ hostOps1_writes (r := main_arg5) (by decide)).trans <|
  (W2_of_ne m c main_arg5 (by decide)).trans <|
  (StableHlo.after_of_writes_sub hostOps0 _ hostOps0_writes (r := main_arg5) (by decide)).trans rfl

theorem W5_main_arg6 (c : Dev nD) : W5 m c (Proc.devRef .tc main_arg6) = m ((c : Thread nD τ).loc main_arg6) :=
  (StableHlo.after_of_writes_sub hostOps2 _ hostOps2_writes (r := main_arg6) (by decide)).trans <|
  (W4_of_ne m c main_arg6 (by decide)).trans <|
  (StableHlo.after_of_writes_sub hostOps1 _ hostOps1_writes (r := main_arg6) (by decide)).trans <|
  (W2_of_ne m c main_arg6 (by decide)).trans <|
  (StableHlo.after_of_writes_sub hostOps0 _ hostOps0_writes (r := main_arg6) (by decide)).trans rfl

theorem W5_main_arg7 (c : Dev nD) : W5 m c (Proc.devRef .tc main_arg7) = m ((c : Thread nD τ).loc main_arg7) :=
  (StableHlo.after_of_writes_sub hostOps2 _ hostOps2_writes (r := main_arg7) (by decide)).trans <|
  (W4_of_ne m c main_arg7 (by decide)).trans <|
  (StableHlo.after_of_writes_sub hostOps1 _ hostOps1_writes (r := main_arg7) (by decide)).trans <|
  (W2_of_ne m c main_arg7 (by decide)).trans <|
  (StableHlo.after_of_writes_sub hostOps0 _ hostOps0_writes (r := main_arg7) (by decide)).trans rfl

end Cert.Kernel.Fr

end
-- ==== Proof.KB.MainRun.lean ====
/-
  The whole program as five segments — host operations, propagation step 1, host operations, propagation step 2, the
  host operations of the dense head — launched from any memory with zero counters: every weakly fair execution terminates
  without a fault, and in the final memory every unscoped buffer of the core holds what the fold of Fold.lean computes.
-/
import proofs.«141868_j58643483459879_1_alg».proof.Proof.KB.Fold

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the two steps, each at the contents its step is entered from. -/
def stepData : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
/-- No core owes another anything: no pair of cores is assigned a level. -/
abbrev noPairs : GSem nD τ sig → Finset Unit := fun _ => ∅
abbrev noLevel : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- After its last point step 1 hands back the generator register and the core's scoped buffers it does not stage. -/
theorem exit0 (c : Dev nD) :
    (dat0 (E1 m) c).Φ (Fin.last cfg0.N)
      ⊢ (iprop((∃ r, prngReg c r) ∗ BI.emp ∗ Pipeline.scopedRest (Ix := Unit) (Name := ℕ) (U := UR sig nD τ) (Lvl := ℕ) (Val := Elt F) spec0 c) : sProp 𝕄) :=
  (leave0 (E1 m) c).trans (show (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) from by
    unfold Pipeline.ΦA
    iintro ⟨Hr, Hp⟩
    isplitl [Hp]; · iexact Hp
    isplitr; · iempintro
    iexact Hr)

/-- After its last point step 2 hands back the generator register and the core's scoped buffers it does not stage. -/
theorem exit1 (c : Dev nD) :
    (dat1 (E3 m) c).Φ (Fin.last cfg1.N)
      ⊢ (iprop((∃ r, prngReg c r) ∗ BI.emp ∗ Pipeline.scopedRest (Ix := Unit) (Name := ℕ) (U := UR sig nD τ) (Lvl := ℕ) (Val := Elt F) spec1 c) : sProp 𝕄) :=
  (leave1 (E3 m) c).trans (show (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) from by
    unfold Pipeline.ΦA
    iintro ⟨Hr, Hp⟩
    isplitl [Hp]; · iexact Hp
    isplitr; · iempintro
    iexact Hr)

-- the step's configuration is the program's own, written out: the two are equal by unfolding definitions
set_option backward.isDefEq.respectTransparency.types false in
/-- Propagation step 1 as a segment of the program: entered with every unscoped buffer at `W1`, left with them at `W2`.
    Its four arrays are split out of the unscoped buffers and put back at what the write-backs leave; the generator register
    goes into the invariant and comes back; the accumulator's last contents are forgotten at the exit; nothing is owed. -/
def step0Seg : Pipeline.RegionSeg (pcfgs (F := F)) adm (stepData m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (stepData m) launch0.win launch0.arr_whole c
      ((stepData m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepData m 0 c).Φ 0 = (dat0 (E1 m) c).Φ 0 from rfl]
    iintro ⟨Hp, -, Hr⟩
    iapply (enter0 (E1 m) c)
    unfold Pipeline.ΦA
    isplitl [Hr]; · iexact Hr
    iexact Hp
  hout c := by
    rw [Pipeline.ownSems0_none]
    exact exit0 m c
  hexit c := by
    have hjoin := Pipeline.unscopedBufs_of_arrays (p := 0) (pcfgs (F := F)) adm (Ix := Unit) (Name := ℕ) (U := UR sig nD τ) (Lvl := ℕ)
      launch0.win launch0.arr_whole c (stepData m) ((stepData m 0 c).share_full fun _ => rfl)
      (E1 m c) (E2 m c) ((stepData m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the step's configuration is the program's own, written out: the two are equal by unfolding definitions
set_option backward.isDefEq.respectTransparency.types false in
/-- Propagation step 2 as a segment of the program: entered with every unscoped buffer at `W3`, left with them at `W4`.
    Its four arrays are split out of the unscoped buffers and put back at what the write-backs leave; the generator register
    goes into the invariant and comes back; the accumulator's last contents are forgotten at the exit; nothing is owed. -/
def step1Seg : Pipeline.RegionSeg (pcfgs (F := F)) adm (stepData m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ riding c)
  post c := iprop(StableHlo.held (c : Thread nD τ) (Pipeline.ucRefs τ sig) (W4 m c) ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (stepData m) launch1.win launch1.arr_whole c
      ((stepData m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepData m 1 c).Φ 0 = (dat1 (E3 m) c).Φ 0 from rfl]
    iintro ⟨Hp, -, Hr⟩
    iapply (enter1 (E3 m) c)
    unfold Pipeline.ΦA
    isplitl [Hr]; · iexact Hr
    iexact Hp
  hout c := by
    rw [Pipeline.ownSems0_none]
    exact exit1 m c
  hexit c := by
    have hjoin := Pipeline.unscopedBufs_of_arrays (p := 1) (pcfgs (F := F)) adm (Ix := Unit) (Name := ℕ) (U := UR sig nD τ) (Lvl := ℕ)
      launch1.win launch1.arr_whole c (stepData m) ((stepData m 1 c).share_full fun _ => rfl)
      (E3 m c) (E4 m c) ((stepData m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev items : List (Pipeline.Seg (pcfgs (F := F)) adm (stepData m) () defs₀ Variants.none noPairs noLevel) :=
  [ .host (hostSeg hostOps0 hostOps0_sub hostOps0_fresh (W0 m)),
    .region (step0Seg m),
    .host (hostSeg hostOps1 hostOps1_sub hostOps1_fresh (W2 m)),
    .region (step1Seg m),
    .host (hostSeg hostOps2 hostOps2_sub hostOps2_fresh (W4 m)) ]

theorem main_items (c : Dev nD) : main (F := F) c = Pipeline.Seg.run (items m) := (main_chain c).trans (by chain_rfl)

-- each segment's configuration is the program's own, written out: equal by unfolding definitions
set_option backward.isDefEq.respectTransparency.types false in
/-- From any memory with zero counters every weakly fair execution of the program terminates, nothing faulting, and every
    unscoped buffer of every core ends at the fold's last contents `W5`. -/
theorem runs : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (stepData m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c =>
      show (iprop(StableHlo.held (c : Thread nD τ) (Pipeline.ucRefs τ sig) (W5 m c) ∗ (∃ r, prngReg c r) ∗ ∃ W, owes (c : Thread nD τ) (0 : CellTallies nD τ sig Unit) W) : sProp 𝕄)
        ⊢ iprop((StableHlo.held (c : Thread nD τ) (Pipeline.ucRefs τ sig) (W5 m c) ∗ ∃ r, prngReg c r) ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program runs to the end and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (runs m ρ)

/-- The same run with the result array named: it ends at the fold's last contents of `main_v9`. -/
theorem runs_result : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v9 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (runs m ρ)

end Cert.Kernel.Fr

end
-- ==== Proof.KI.Points.lean ====
/-
  The two propagation steps A·h of the graph convolution, each a grid of 16 × 8 points over [1024, 2048] blocks of A and
  [2048, 16] blocks of h: which points begin a row of blocks (the [1024, 16] accumulator is zeroed), which end it (bias
  and activation applied, the row block of the result written), what each window's block is, and which buffers the body
  is called with. Stated at any value type.
-/
import proofs.«141868_j58643483459879_1_alg».proof.Proof.Gen.KernelIdeal.Launch
import proofs.«141868_j58643483459879_1_alg».proof.Proof.Gen.KernelIdeal.Skeleton
import proofs.«141868_j58643483459879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Propagation step 1 (the program's pallas_call number 0): grid points, blocks and buffers -/

section
variable (V : (c : Dev nD) → (b : Ref sig .tc) → Buf (Elt F) ((c : Thread nD τ).loc b))

/-- The block of window `w` at grid point `t`, read off its array as the step finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body finds input window 0's block in its staging buffer at every point, fetched there or not: the blocks tile
    the array and the body never stores into the buffer. -/
theorem found0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The body finds input window 1's block in its staging buffer at every point, fetched there or not: the blocks tile
    the array and the body never stores into the buffer. -/
theorem found0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body finds input window 2's block in its staging buffer at every point, fetched there or not: the blocks tile
    the array and the body never stores into the buffer. -/
theorem found0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## Which points start a row of blocks and which finish it -/

/-- The point is the first of its row of blocks (column block 0): the accumulator is set to zero there. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 8 = 0 :=
  (by decide +kernel : ∀ t : Fin grid0.N, isFirst0 (grid0.coords t) ↔ t.val % 8 = 0)

/-- The point is the last of its row of blocks (column block 7): the row block of the result is written there. -/
abbrev isLast0 (i : grid0.Coords) : Prop := k0_cond2 i = 1#1
theorem isLast0_iff : ∀ t : Fin cfg0.N, isLast0 (grid0.coords t) ↔ t.val % 8 = 7 :=
  (by decide +kernel : ∀ t : Fin grid0.N, isLast0 (grid0.coords t) ↔ t.val % 8 = 7)

/-- The three input windows are read at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last point of a row of blocks nothing is stored into the result window and nothing is written back. -/
theorem idle0_3 : ∀ t : Fin cfg0.N, ¬isLast0 (grid0.coords t) → cfg0.idle 3 (grid0.coords t) = true := by decide +kernel
theorem noFlush0_3 : ∀ t : Fin cfg0.N, ¬isLast0 (grid0.coords t) → (cfg0.win 3).flush t = false := by decide +kernel
/-- At the last point of a row of blocks the result window is stored. -/
theorem live0_3 : ∀ t : Fin cfg0.N, isLast0 (grid0.coords t) → cfg0.idle 3 (grid0.coords t) = false := by decide +kernel

/-! ## The buffers the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x16 .f32 := win0_3.stage (cfg0.slots t 3)
abbrev hs0_3 (t : Fin cfg0.N) : (ms0_3 t).IsWhole := hstage0_3 ((cfg0.slots t 3).cast nbuf0_3)
/-- The accumulator: a [1024, 16] scratch buffer of the step's own, kept from point to point. -/
abbrev scM0 : Memref sig .tc .vmem S1024x16 .f32 := Memref.whole cc0_scratch0
abbrev VS0 : View sig .tc .vmem S1024x16 .f32 := (scM0).view
/-- A view of the result window's shape, through which its contents are stated. -/
abbrev VO0 : View sig .tc .vmem S1024x16 .f32 := (Memref.whole cc0_stg3_0 : Memref sig .tc .vmem S1024x16 .f32).view

/-- The core's other scoped buffers (the other step's staging buffers and accumulator), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the step is handed besides its windows: the accumulator at some contents, the other scoped buffers and the
    generator register. -/
theorem handed0_split (c : Dev nD) :
    (Pipeline.ΦA spec0 c : sProp 𝕄) ⊢ iprop((∃ d, owns (c : Thread nD τ) scM0 fullShare d) ∗ others0 c ∗ (∃ r, prngReg c r)) := by
  unfold Pipeline.ΦA others0; rw [scopedRest0_eq]; simp only [scM0, owns_whole]
  iintro ⟨⟨HA, HB⟩, Hg⟩
  isplitl [HA]; · iexact HA
  isplitl [HB]; · iexact HB
  iexact Hg

/-- And it takes the same back. -/
theorem handed0_join (c : Dev nD) :
    (iprop((∃ d, owns (c : Thread nD τ) scM0 fullShare d) ∗ others0 c ∗ (∃ r, prngReg c r)) : sProp 𝕄) ⊢ Pipeline.ΦA spec0 c := by
  unfold Pipeline.ΦA others0; rw [scopedRest0_eq]; simp only [scM0, owns_whole]
  iintro ⟨HA, HB, Hg⟩
  isplitl [HA HB]
  · isplitl [HA]; · iexact HA
    iexact HB
  iexact Hg

/-! # Propagation step 2 (the program's pallas_call number 1): grid points, blocks and buffers -/

section
variable (V : (c : Dev nD) → (b : Ref sig .tc) → Buf (Elt F) ((c : Thread nD τ).loc b))

/-- The block of window `w` at grid point `t`, read off its array as the step finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body finds input window 0's block in its staging buffer at every point, fetched there or not: the blocks tile
    the array and the body never stores into the buffer. -/
theorem found1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body finds input window 1's block in its staging buffer at every point, fetched there or not: the blocks tile
    the array and the body never stores into the buffer. -/
theorem found1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body finds input window 2's block in its staging buffer at every point, fetched there or not: the blocks tile
    the array and the body never stores into the buffer. -/
theorem found1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## Which points start a row of blocks and which finish it -/

/-- The point is the first of its row of blocks (column block 0): the accumulator is set to zero there. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 8 = 0 :=
  (by decide +kernel : ∀ t : Fin grid1.N, isFirst1 (grid1.coords t) ↔ t.val % 8 = 0)

/-- The point is the last of its row of blocks (column block 7): the row block of the result is written there. -/
abbrev isLast1 (i : grid1.Coords) : Prop := k1_cond2 i = 1#1
theorem isLast1_iff : ∀ t : Fin cfg1.N, isLast1 (grid1.coords t) ↔ t.val % 8 = 7 :=
  (by decide +kernel : ∀ t : Fin grid1.N, isLast1 (grid1.coords t) ↔ t.val % 8 = 7)

/-- The three input windows are read at every point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last point of a row of blocks nothing is stored into the result window and nothing is written back. -/
theorem idle1_3 : ∀ t : Fin cfg1.N, ¬isLast1 (grid1.coords t) → cfg1.idle 3 (grid1.coords t) = true := by decide +kernel
theorem noFlush1_3 : ∀ t : Fin cfg1.N, ¬isLast1 (grid1.coords t) → (cfg1.win 3).flush t = false := by decide +kernel
/-- At the last point of a row of blocks the result window is stored. -/
theorem live1_3 : ∀ t : Fin cfg1.N, isLast1 (grid1.coords t) → cfg1.idle 3 (grid1.coords t) = false := by decide +kernel

/-! ## The buffers the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x16 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
/-- The accumulator: a [1024, 16] scratch buffer of the step's own, kept from point to point. -/
abbrev scM1 : Memref sig .tc .vmem S1024x16 .f32 := Memref.whole cc1_scratch0
abbrev VS1 : View sig .tc .vmem S1024x16 .f32 := (scM1).view
/-- A view of the result window's shape, through which its contents are stated. -/
abbrev VO1 : View sig .tc .vmem S1024x16 .f32 := (Memref.whole cc1_stg3_0 : Memref sig .tc .vmem S1024x16 .f32).view

/-- The core's other scoped buffers (the other step's staging buffers and accumulator), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the step is handed besides its windows: the accumulator at some contents, the other scoped buffers and the
    generator register. -/
theorem handed1_split (c : Dev nD) :
    (Pipeline.ΦA spec1 c : sProp 𝕄) ⊢ iprop((∃ d, owns (c : Thread nD τ) scM1 fullShare d) ∗ others1 c ∗ (∃ r, prngReg c r)) := by
  unfold Pipeline.ΦA others1; rw [scopedRest1_eq]; simp only [scM1, owns_whole]
  iintro ⟨⟨H1, H2, H3, H4, H5, H6, H7, H8, HA⟩, Hg⟩
  isplitl [HA]; · iexact HA
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

/-- And it takes the same back. -/
theorem handed1_join (c : Dev nD) :
    (iprop((∃ d, owns (c : Thread nD τ) scM1 fullShare d) ∗ others1 c ∗ (∃ r, prngReg c r)) : sProp 𝕄) ⊢ Pipeline.ΦA spec1 c := by
  unfold Pipeline.ΦA others1; rw [scopedRest1_eq]; simp only [scM1, owns_whole]
  iintro ⟨HA, ⟨H1, H2, H3, H4, H5, H6, H7, H8⟩, Hg⟩
  isplitl [HA H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HA
  iexact Hg

end Cert.KernelIdeal.Fr

end
-- ==== Proof.KI.Run0A.lean ====
/-
  The body of propagation step 1 run at one kind of grid point (the first of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point of a row of blocks: the accumulator, whatever it held, is stored whole twice — first zero, then zero plus
    the product of the two blocks — and nothing else is written.
    The pieces the stores leave (last first) come with the proof that the body, on whole memrefs holding the blocks, runs to
    the end and leaves exactly those pieces written. -/
noncomputable def run0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ (∃ d, owns (c : Thread nD τ) arg6 fullShare d)
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KI.Run0B.lean ====
/-
  The body of propagation step 1 run at one kind of grid point (an inner one of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At an inner point of a row of blocks: the accumulator is stored whole once, what it held plus the product of the two
    blocks, and nothing else is written.
    The pieces the stores leave (last first) come with the proof that the body, on whole memrefs holding the blocks, runs to
    the end and leaves exactly those pieces written. -/
noncomputable def run0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg6 fullShare xs
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KI.Run0C.lean ====
/-
  The body of propagation step 1 run at one kind of grid point (the last of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point of a row of blocks: the accumulator is stored whole once (what it held plus the product of the two blocks),
    and the result window is stored whole once (the activation of the accumulator plus the bias row).
    The pieces the stores leave (last first) come with the proof that the body, on whole memrefs holding the blocks, runs to
    the end and leaves exactly those pieces written. -/
noncomputable def run0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) :
    Σ' (L3 : List (View.Piece (Elt F) S1024x16 .f32)), { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.KI.Step0.lean ====
/-
  Propagation step 1 point by point: what the accumulator and the result window hold after each grid point, the invariant
  that carries the accumulator from point to point, and the body's obligation at every point.
-/
import proofs.«141868_j58643483459879_1_alg».proof.Proof.KI.Run0A
import proofs.«141868_j58643483459879_1_alg».proof.Proof.KI.Run0B
import proofs.«141868_j58643483459879_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves in the accumulator and in the result window -/

theorem accCover0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) (y : S1024x16.Idx) :
    ∃ pc ∈ (run0_A c i arg2 harg2 arg3 harg3 arg4 harg4 arg5 harg5 arg6 harg6 hc0 hc1 x0 x1).1, y ∈ pc.1.set :=
  View.cover_of_tiledL (run0_A c i arg2 harg2 arg3 harg3 arg4 harg4 arg5 harg5 arg6 harg6 hc0 hc1 x0 x1).1 S1024x16.size (by sl_kernel_rfl) y

/-- The accumulator after the first point of a row of blocks. -/
def acc0_A (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) : Vec F S1024x16 .f32 :=
  VS0.read (Elt F) (VS0.writes (Elt F) VS0.junk (run0_A c i arg2 harg2 arg3 harg3 arg4 harg4 arg5 harg5 arg6 harg6 hc0 hc1 x0 x1).1)

theorem accCover0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) (y : S1024x16.Idx) :
    ∃ pc ∈ (run0_B c i arg2 harg2 arg3 harg3 arg4 harg4 arg5 harg5 arg6 harg6 hc0 hc1 x0 x1 xs).1, y ∈ pc.1.set :=
  View.cover_of_tiledL (run0_B c i arg2 harg2 arg3 harg3 arg4 harg4 arg5 harg5 arg6 harg6 hc0 hc1 x0 x1 xs).1 S1024x16.size (by sl_kernel_rfl) y

/-- The accumulator after an inner point, from what the point before left in it. -/
def acc0_B (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) : Vec F S1024x16 .f32 :=
  VS0.read (Elt F) (VS0.writes (Elt F) VS0.junk (run0_B c i arg2 harg2 arg3 harg3 arg4 harg4 arg5 harg5 arg6 harg6 hc0 hc1 x0 x1 xs).1)

theorem accCover0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) (y : S1024x16.Idx) :
    ∃ pc ∈ (run0_C c i arg2 harg2 arg3 harg3 arg4 harg4 arg5 harg5 arg6 harg6 hc0 hc1 x0 x1 x2 xs).2.1, y ∈ pc.1.set :=
  View.cover_of_tiledL (run0_C c i arg2 harg2 arg3 harg3 arg4 harg4 arg5 harg5 arg6 harg6 hc0 hc1 x0 x1 x2 xs).2.1 S1024x16.size (by sl_kernel_rfl) y

/-- The accumulator after the last point of a row of blocks. -/
def acc0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) : Vec F S1024x16 .f32 :=
  VS0.read (Elt F) (VS0.writes (Elt F) VS0.junk (run0_C c i arg2 harg2 arg3 harg3 arg4 harg4 arg5 harg5 arg6 harg6 hc0 hc1 x0 x1 x2 xs).2.1)

theorem resCover0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) (y : S1024x16.Idx) :
    ∃ pc ∈ (run0_C c i arg2 harg2 arg3 harg3 arg4 harg4 arg5 harg5 arg6 harg6 hc0 hc1 x0 x1 x2 xs).1, y ∈ pc.1.set :=
  View.cover_of_tiledL (run0_C c i arg2 harg2 arg3 harg3 arg4 harg4 arg5 harg5 arg6 harg6 hc0 hc1 x0 x1 x2 xs).1 S1024x16.size (by sl_kernel_rfl) y

/-- The result window after the last point of a row of blocks. -/
def res0_C (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) : Vec F S1024x16 .f32 :=
  VO0.read (Elt F) (VO0.writes (Elt F) VO0.junk (run0_C c i arg2 harg2 arg3 harg3 arg4 harg4 arg5 harg5 arg6 harg6 hc0 hc1 x0 x1 x2 xs).1)

/-! ## Point by point -/

section
variable (V : (c : Dev nD) → (b : Ref sig .tc) → Buf (Elt F) ((c : Thread nD τ).loc b))

/-- The accumulator after the body at position `n` of the grid: at the first point of a row of blocks it is started afresh,
    afterwards it is what the point before left plus this point's product of blocks. -/
def accAt0 (c : Dev nD) : (n : ℕ) → n < cfg0.N → Vec F S1024x16 .f32
  | 0, hn => acc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((isFirst0_iff ⟨0, hn⟩).mpr (Nat.zero_mod _)) (fun h => (fun h => by (try dsimp only at h); omega) ((isLast0_iff ⟨0, hn⟩).mp h)) (iblk0 V c 0 ⟨0, hn⟩) (iblk0 V c 1 ⟨0, hn⟩)
  | n + 1, hn =>
    if h0 : (n + 1) % 8 = 0 then
      acc0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((isFirst0_iff ⟨n + 1, hn⟩).mpr h0) (fun h => (fun h => by (try dsimp only at h); omega) ((isLast0_iff ⟨n + 1, hn⟩).mp h)) (iblk0 V c 0 ⟨n + 1, hn⟩) (iblk0 V c 1 ⟨n + 1, hn⟩)
    else if h1 : (n + 1) % 8 = 7 then
      acc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((isFirst0_iff ⟨n + 1, hn⟩).mp h)) ((isLast0_iff ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
    else
      acc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((isFirst0_iff ⟨n + 1, hn⟩).mp h)) (fun h => h1 ((isLast0_iff ⟨n + 1, hn⟩).mp h)) (iblk0 V c 0 ⟨n + 1, hn⟩) (iblk0 V c 1 ⟨n + 1, hn⟩) (accAt0 c n (Nat.lt_of_succ_lt hn))

theorem accAt0_first (c : Dev nD) (t : Fin cfg0.N) (h0 : t.val % 8 = 0) (h1 : ¬t.val % 8 = 7) :
    accAt0 V c t.val t.isLt = acc0_A c (grid0.coords t) (ms0_0 t) (hs0_0 t) (ms0_1 t) (hs0_1 t) (ms0_2 t) (hs0_2 t) (ms0_3 t) (hs0_3 t) scM0 (Memref.isWhole_whole _) ((isFirst0_iff t).mpr h0) (fun h => h1 ((isLast0_iff t).mp h)) (iblk0 V c 0 t) (iblk0 V c 1 t) := by
  obtain ⟨n, hn⟩ := t
  cases n with
  | zero => exact rfl
  | succ n => exact (dif_pos h0).trans rfl

theorem accAt0_inner (c : Dev nD) (t : Fin cfg0.N) (h0 : ¬t.val % 8 = 0) (h1 : ¬t.val % 8 = 7) :
    accAt0 V c t.val t.isLt = acc0_B c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) (fun h => h1 ((isLast0_iff t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_last (c : Dev nD) (t : Fin cfg0.N) (h0 : ¬t.val % 8 = 0) (h1 : t.val % 8 = 7) :
    accAt0 V c t.val t.isLt = acc0_C c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window after the body at point `t`: at the last point of a row of blocks the row block of the result, from
    the accumulator the point before left; at any other point nothing the pipeline reads. -/
def resAt0 (c : Dev nD) (t : Fin cfg0.N) : Vec F S1024x16 .f32 :=
  if h1 : t.val % 8 = 7 then
    res0_C c (grid0.coords t) (ms0_0 t) (hs0_0 t) (ms0_1 t) (hs0_1 t) (ms0_2 t) (hs0_2 t) (ms0_3 t) (hs0_3 t) scM0 (Memref.isWhole_whole _) (fun h => (fun h => by omega) ((isFirst0_iff t).mp h)) ((isLast0_iff t).mpr h1) (iblk0 V c 0 t) (iblk0 V c 1 t) (iblk0 V c 2 t) (accAt0 V c (t.val - 1) (Nat.lt_of_le_of_lt (Nat.sub_le _ _) t.isLt))
  else VO0.read (Elt F) (VO0.writes (Elt F) VO0.junk [])

theorem resAt0_last (c : Dev nD) (t : Fin cfg0.N) (h0 : ¬t.val % 8 = 0) (h1 : t.val % 8 = 7) :
    resAt0 V c t = res0_C c (grid0.coords t) (ms0_0 t) (hs0_0 t) (ms0_1 t) (hs0_1 t) (ms0_2 t) (hs0_2 t) (ms0_3 t) (hs0_3 t) scM0 (Memref.isWhole_whole _) (fun h => h0 ((isFirst0_iff t).mp h)) ((isLast0_iff t).mpr h1) (iblk0 V c 0 t) (iblk0 V c 1 t) (iblk0 V c 2 t) (accAt0 V c (t.val - 1) (Nat.lt_of_le_of_lt (Nat.sub_le _ _) t.isLt)) := by
  unfold resAt0; exact dif_pos h1

/-- What the step holds besides its windows before position `n`: the accumulator — at anything before the first point, then at
    what the point before left —, the core's other scoped buffers and the generator register. -/
def inv0 (c : Dev nD) : (n : ℕ) → n ≤ cfg0.N → sProp 𝕄
  | 0, _ => iprop((∃ d, owns (c : Thread nD τ) scM0 fullShare d) ∗ others0 c ∗ (∃ r, prngReg c r))
  | n + 1, hn => iprop(owns (c : Thread nD τ) scM0 fullShare (accAt0 V c n hn) ∗ others0 c ∗ (∃ r, prngReg c r))

theorem inv0_zero (c : Dev nD) (n : ℕ) (h : n ≤ cfg0.N) (hz : n = 0) :
    inv0 V c n h = iprop((∃ d, owns (c : Thread nD τ) scM0 fullShare d) ∗ others0 c ∗ (∃ r, prngReg c r)) := by
  subst hz; rfl

theorem inv0_succ (c : Dev nD) (n : ℕ) (hn : n < cfg0.N) :
    inv0 V c (n + 1) hn = iprop(owns (c : Thread nD τ) scM0 fullShare (accAt0 V c n hn) ∗ others0 c ∗ (∃ r, prngReg c r)) := rfl

theorem inv0_pos (c : Dev nD) (n : ℕ) (h : n ≤ cfg0.N) (hz : n ≠ 0) :
    inv0 V c n h = iprop(owns (c : Thread nD τ) scM0 fullShare (accAt0 V c (n - 1) (by omega)) ∗ others0 c ∗ (∃ r, prngReg c r)) := by
  cases n with
  | zero => exact absurd rfl hz
  | succ n => rfl

/-! ## The proof data of the step -/

/-- The arrays as the step finds them; after the body each input window still at its block and the result window at
    `resAt0`; the accumulator carried in the invariant; nothing owed to other cores. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => resAt0 V c t
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = resAt0 V c t := by dsimp only [dat0]

theorem found0_0 (c : Dev nD) (t : Fin cfg0.N) (d) : (dat0 V c).before 0 t d = iblk0 V c 0 t :=
  found0_0_of V (dat0 V c) (A_eq0 V c 0) (after0_0 V c) t d
theorem found0_1 (c : Dev nD) (t : Fin cfg0.N) (d) : (dat0 V c).before 1 t d = iblk0 V c 1 t :=
  found0_1_of V (dat0 V c) (A_eq0 V c 1) (after0_1 V c) t d
theorem found0_2 (c : Dev nD) (t : Fin cfg0.N) (d) : (dat0 V c).before 2 t d = iblk0 V c 2 t :=
  found0_2_of V (dat0 V c) (A_eq0 V c 2) (after0_2 V c) t d

/-! ## The body at a point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the input windows hold their blocks; the point's place in its row of blocks says which run applies;
    the invariant hands over the accumulator at what the point before left (at anything at the very first point) and takes it
    back at this point's contents; away from the last point of a row the result window is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [found0_0, found0_1, found0_2]
  rw [show (dat0 V c).owesAt () t.succ = (dat0 V c).owesAt () t.castSucc from rfl]
  rw [show (dat0 V c).Φ t.succ = inv0 V c (t.val + 1) t.isLt from rfl, inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 3 t = owns (c : Thread nD τ) (ms0_3 t) fullShare ((dat0 V c).after 3 t) from by
      unfold Dat.leavesExact; rw [live0_3 t ((isLast0_iff t).mpr h1)], after0_3]
    rw [accAt0_last V c t h0 h1, resAt0_last V c t h0 h1]
    unfold acc0_C res0_C; (try dsimp only)
    rw [inv0_castSucc V c t, inv0_pos V c _ _ hz]
    iintro ⟨⟨HS, Hoth, Hg⟩, Ho, ⟨%d0, H0⟩, ⟨%d1, H1⟩, ⟨%d2, H2⟩, ⟨%d3, H3⟩⟩
    iapply ((run0_C c (grid0.coords t) _ _ _ _ _ _ _ _ _ _ (fun h => h0 ((isFirst0_iff t).mp h)) ((isLast0_iff t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (accCover0_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (resCover0_C c _ _ _ _ _ _ _ _ _ _ _ _ _ _ _ _ _)
  · rw [Dat.leavesExact_idle (dat0 V c) 3 t (idle0_3 t (fun h => h1 ((isLast0_iff t).mp h))) (noFlush0_3 t (fun h => h1 ((isLast0_iff t).mp h)))]
    by_cases h0 : t.val % 8 = 0
    · rw [accAt0_first V c t h0 h1]
      unfold acc0_A; (try dsimp only)
      by_cases hz : t.val = 0
      · rw [inv0_castSucc V c t, inv0_zero V c _ _ hz]
        iintro ⟨⟨HS, Hoth, Hg⟩, Ho, ⟨%d0, H0⟩, ⟨%d1, H1⟩, ⟨%d2, H2⟩, ⟨%d3, H3⟩⟩
        iapply ((run0_A c (grid0.coords t) _ _ _ _ _ _ _ _ _ _ ((isFirst0_iff t).mpr h0) (fun h => h1 ((isLast0_iff t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover0_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [inv0_castSucc V c t, inv0_pos V c _ _ hz]
        iintro ⟨⟨HS, Hoth, Hg⟩, Ho, ⟨%d0, H0⟩, ⟨%d1, H1⟩, ⟨%d2, H2⟩, ⟨%d3, H3⟩⟩
        iapply ((run0_A c (grid0.coords t) _ _ _ _ _ _ _ _ _ _ ((isFirst0_iff t).mpr h0) (fun h => h1 ((isLast0_iff t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover0_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
    · have hz : t.val ≠ 0 := by omega
      rw [accAt0_inner V c t h0 h1]
      unfold acc0_B; (try dsimp only)
      rw [inv0_castSucc V c t, inv0_pos V c _ _ hz]
      iintro ⟨⟨HS, Hoth, Hg⟩, Ho, ⟨%d0, H0⟩, ⟨%d1, H1⟩, ⟨%d2, H2⟩, ⟨%d3, H3⟩⟩
      iapply ((run0_B c (grid0.coords t) _ _ _ _ _ _ _ _ _ _ (fun h => h0 ((isFirst0_iff t).mp h)) (fun h => h1 ((isLast0_iff t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS]
        · unfold owns; iexists _; isplitr
          swap; · iexact HS
          ipureintro; exact View.read_writes_of_cover _ _ _ _ _ (accCover0_B c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The step's body obligation, at every point. -/
theorem body_obligation0 (c : Dev nD) : BodyObligation (dat0 (F := F) V c) (defs₀ (F := F)) Variants.none () Set.univ := fun t => by
  rw [bigSep_W0, bigSep_W0]
  exact sound_body0 V c t

/-- What the step is handed is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  exact handed0_split c

/-- After the last point the invariant gives it back, the accumulator's contents forgotten. -/
theorem leave0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 128 := N_0; omega)]
  iintro ⟨HS, Hoth, Hg⟩
  iapply (handed0_join c)
  isplitl [HS]; · iexists _; iexact HS
  isplitl [Hoth]; · iexact Hoth
  iexact Hg

end

end Cert.KernelIdeal.Fr

end
-- ==== Proof.KI.Run1A.lean ====
/-
  The body of propagation step 2 run at one kind of grid point (the first of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first point of a row of blocks: the accumulator, whatever it held, is stored whole twice — first zero, then zero plus
    the product of the two blocks — and nothing else is written.
    The pieces the stores leave (last first) come with the proof that the body, on whole memrefs holding the blocks, runs to
    the end and leaves exactly those pieces written. -/
noncomputable def run1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ (∃ d, owns (c : Thread nD τ) arg6 fullShare d)
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KI.Run1B.lean ====
/-
  The body of propagation step 2 run at one kind of grid point (an inner one of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At an inner point of a row of blocks: the accumulator is stored whole once, what it held plus the product of the two
    blocks, and nothing else is written.
    The pieces the stores leave (last first) come with the proof that the body, on whole memrefs holding the blocks, runs to
    the end and leaves exactly those pieces written. -/
noncomputable def run1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) :
    { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg6 fullShare xs
            ∗ (iprop(owns (c : Thread nD τ) arg2 fullShare x0
                ∗ owns (c : Thread nD τ) arg3 fullShare x1
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun E K => ?run⟩
  case run =>
    simp only [cc1__gcn_kernel_eq_skeleton]; unfold cc1__gcn_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Fr

end
-- ==== Proof.KI.Run1C.lean ====
/-
  The body of propagation step 2 run at one kind of grid point (the last of a row of blocks).
-/
import proofs.«141868_j58643483459879_1_alg».proof.Proof.KI.Points

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point of a row of blocks: the accumulator is stored whole once (what it held plus the product of the two blocks),
    and the result window is stored whole once (the activation of the accumulator plus the bias row).
    The pieces the stores leave (last first) come with the proof that the body, on whole memrefs holding the blocks, runs to
    the end and leaves exactly those pieces written. -/
noncomputable def run1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) :
    Σ' (L3 : List (View.Piece (Elt F) S1024x16 .f32)), { LS : List (View.Piece (Elt F) S1024x16 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Fr

end
-- ==== Proof.KI.Step1.lean ====
/-
  Propagation step 2 point by point: what the accumulator and the result window hold after each grid point, the invariant
  that carries the accumulator from point to point, and the body's obligation at every point.
-/
import proofs.«141868_j58643483459879_1_alg».proof.Proof.KI.Run1A
import proofs.«141868_j58643483459879_1_alg».proof.Proof.KI.Run1B
import proofs.«141868_j58643483459879_1_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each kind of point leaves in the accumulator and in the result window -/

theorem accCover1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) (y : S1024x16.Idx) :
    ∃ pc ∈ (run1_A c i arg2 harg2 arg3 harg3 arg4 harg4 arg5 harg5 arg6 harg6 hc0 hc1 x0 x1).1, y ∈ pc.1.set :=
  View.cover_of_tiledL (run1_A c i arg2 harg2 arg3 harg3 arg4 harg4 arg5 harg5 arg6 harg6 hc0 hc1 x0 x1).1 S1024x16.size (by sl_kernel_rfl) y

/-- The accumulator after the first point of a row of blocks. -/
def acc1_A (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) : Vec F S1024x16 .f32 :=
  VS1.read (Elt F) (VS1.writes (Elt F) VS1.junk (run1_A c i arg2 harg2 arg3 harg3 arg4 harg4 arg5 harg5 arg6 harg6 hc0 hc1 x0 x1).1)

theorem accCover1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) (y : S1024x16.Idx) :
    ∃ pc ∈ (run1_B c i arg2 harg2 arg3 harg3 arg4 harg4 arg5 harg5 arg6 harg6 hc0 hc1 x0 x1 xs).1, y ∈ pc.1.set :=
  View.cover_of_tiledL (run1_B c i arg2 harg2 arg3 harg3 arg4 harg4 arg5 harg5 arg6 harg6 hc0 hc1 x0 x1 xs).1 S1024x16.size (by sl_kernel_rfl) y

/-- The accumulator after an inner point, from what the point before left in it. -/
def acc1_B (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) : Vec F S1024x16 .f32 :=
  VS1.read (Elt F) (VS1.writes (Elt F) VS1.junk (run1_B c i arg2 harg2 arg3 harg3 arg4 harg4 arg5 harg5 arg6 harg6 hc0 hc1 x0 x1 xs).1)

theorem accCover1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) (y : S1024x16.Idx) :
    ∃ pc ∈ (run1_C c i arg2 harg2 arg3 harg3 arg4 harg4 arg5 harg5 arg6 harg6 hc0 hc1 x0 x1 x2 xs).2.1, y ∈ pc.1.set :=
  View.cover_of_tiledL (run1_C c i arg2 harg2 arg3 harg3 arg4 harg4 arg5 harg5 arg6 harg6 hc0 hc1 x0 x1 x2 xs).2.1 S1024x16.size (by sl_kernel_rfl) y

/-- The accumulator after the last point of a row of blocks. -/
def acc1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) : Vec F S1024x16 .f32 :=
  VS1.read (Elt F) (VS1.writes (Elt F) VS1.junk (run1_C c i arg2 harg2 arg3 harg3 arg4 harg4 arg5 harg5 arg6 harg6 hc0 hc1 x0 x1 x2 xs).2.1)

theorem resCover1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) (y : S1024x16.Idx) :
    ∃ pc ∈ (run1_C c i arg2 harg2 arg3 harg3 arg4 harg4 arg5 harg5 arg6 harg6 hc0 hc1 x0 x1 x2 xs).1, y ∈ pc.1.set :=
  View.cover_of_tiledL (run1_C c i arg2 harg2 arg3 harg3 arg4 harg4 arg5 harg5 arg6 harg6 hc0 hc1 x0 x1 x2 xs).1 S1024x16.size (by sl_kernel_rfl) y

/-- The result window after the last point of a row of blocks. -/
def res1_C (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) : Vec F S1024x16 .f32 :=
  VO1.read (Elt F) (VO1.writes (Elt F) VO1.junk (run1_C c i arg2 harg2 arg3 harg3 arg4 harg4 arg5 harg5 arg6 harg6 hc0 hc1 x0 x1 x2 xs).1)

/-! ## Point by point -/

section
variable (V : (c : Dev nD) → (b : Ref sig .tc) → Buf (Elt F) ((c : Thread nD τ).loc b))

/-- The accumulator after the body at position `n` of the grid: at the first point of a row of blocks it is started afresh,
    afterwards it is what the point before left plus this point's product of blocks. -/
def accAt1 (c : Dev nD) : (n : ℕ) → n < cfg1.N → Vec F S1024x16 .f32
  | 0, hn => acc1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((isFirst1_iff ⟨0, hn⟩).mpr (Nat.zero_mod _)) (fun h => (fun h => by (try dsimp only at h); omega) ((isLast1_iff ⟨0, hn⟩).mp h)) (iblk1 V c 0 ⟨0, hn⟩) (iblk1 V c 1 ⟨0, hn⟩)
  | n + 1, hn =>
    if h0 : (n + 1) % 8 = 0 then
      acc1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((isFirst1_iff ⟨n + 1, hn⟩).mpr h0) (fun h => (fun h => by (try dsimp only at h); omega) ((isLast1_iff ⟨n + 1, hn⟩).mp h)) (iblk1 V c 0 ⟨n + 1, hn⟩) (iblk1 V c 1 ⟨n + 1, hn⟩)
    else if h1 : (n + 1) % 8 = 7 then
      acc1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((isFirst1_iff ⟨n + 1, hn⟩).mp h)) ((isLast1_iff ⟨n + 1, hn⟩).mpr h1) (iblk1 V c 0 ⟨n + 1, hn⟩) (iblk1 V c 1 ⟨n + 1, hn⟩) (iblk1 V c 2 ⟨n + 1, hn⟩) (accAt1 c n (Nat.lt_of_succ_lt hn))
    else
      acc1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((isFirst1_iff ⟨n + 1, hn⟩).mp h)) (fun h => h1 ((isLast1_iff ⟨n + 1, hn⟩).mp h)) (iblk1 V c 0 ⟨n + 1, hn⟩) (iblk1 V c 1 ⟨n + 1, hn⟩) (accAt1 c n (Nat.lt_of_succ_lt hn))

theorem accAt1_first (c : Dev nD) (t : Fin cfg1.N) (h0 : t.val % 8 = 0) (h1 : ¬t.val % 8 = 7) :
    accAt1 V c t.val t.isLt = acc1_A c (grid1.coords t) (ms1_0 t) (hs1_0 t) (ms1_1 t) (hs1_1 t) (ms1_2 t) (hs1_2 t) (ms1_3 t) (hs1_3 t) scM1 (Memref.isWhole_whole _) ((isFirst1_iff t).mpr h0) (fun h => h1 ((isLast1_iff t).mp h)) (iblk1 V c 0 t) (iblk1 V c 1 t) := by
  obtain ⟨n, hn⟩ := t
  cases n with
  | zero => exact rfl
  | succ n => exact (dif_pos h0).trans rfl

theorem accAt1_inner (c : Dev nD) (t : Fin cfg1.N) (h0 : ¬t.val % 8 = 0) (h1 : ¬t.val % 8 = 7) :
    accAt1 V c t.val t.isLt = acc1_B c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) (fun h => h1 ((isLast1_iff t).mp h)) (iblk1 V c 0 t) (iblk1 V c 1 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt1_last (c : Dev nD) (t : Fin cfg1.N) (h0 : ¬t.val % 8 = 0) (h1 : t.val % 8 = 7) :
    accAt1 V c t.val t.isLt = acc1_C c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window after the body at point `t`: at the last point of a row of blocks the row block of the result, from
    the accumulator the point before left; at any other point nothing the pipeline reads. -/
def resAt1 (c : Dev nD) (t : Fin cfg1.N) : Vec F S1024x16 .f32 :=
  if h1 : t.val % 8 = 7 then
    res1_C c (grid1.coords t) (ms1_0 t) (hs1_0 t) (ms1_1 t) (hs1_1 t) (ms1_2 t) (hs1_2 t) (ms1_3 t) (hs1_3 t) scM1 (Memref.isWhole_whole _) (fun h => (fun h => by omega) ((isFirst1_iff t).mp h)) ((isLast1_iff t).mpr h1) (iblk1 V c 0 t) (iblk1 V c 1 t) (iblk1 V c 2 t) (accAt1 V c (t.val - 1) (Nat.lt_of_le_of_lt (Nat.sub_le _ _) t.isLt))
  else VO1.read (Elt F) (VO1.writes (Elt F) VO1.junk [])

theorem resAt1_last (c : Dev nD) (t : Fin cfg1.N) (h0 : ¬t.val % 8 = 0) (h1 : t.val % 8 = 7) :
    resAt1 V c t = res1_C c (grid1.coords t) (ms1_0 t) (hs1_0 t) (ms1_1 t) (hs1_1 t) (ms1_2 t) (hs1_2 t) (ms1_3 t) (hs1_3 t) scM1 (Memref.isWhole_whole _) (fun h => h0 ((isFirst1_iff t).mp h)) ((isLast1_iff t).mpr h1) (iblk1 V c 0 t) (iblk1 V c 1 t) (iblk1 V c 2 t) (accAt1 V c (t.val - 1) (Nat.lt_of_le_of_lt (Nat.sub_le _ _) t.isLt)) := by
  unfold resAt1; exact dif_pos h1

/-- What the step holds besides its windows before position `n`: the accumulator — at anything before the first point, then at
    what the point before left —, the core's other scoped buffers and the generator register. -/
def inv1 (c : Dev nD) : (n : ℕ) → n ≤ cfg1.N → sProp 𝕄
  | 0, _ => iprop((∃ d, owns (c : Thread nD τ) scM1 fullShare d) ∗ others1 c ∗ (∃ r, prngReg c r))
  | n + 1, hn => iprop(owns (c : Thread nD τ) scM1 fullShare (accAt1 V c n hn) ∗ others1 c ∗ (∃ r, prngReg c r))

theorem inv1_zero (c : Dev nD) (n : ℕ) (h : n ≤ cfg1.N) (hz : n = 0) :
    inv1 V c n h = iprop((∃ d, owns (c : Thread nD τ) scM1 fullShare d) ∗ others1 c ∗ (∃ r, prngReg c r)) := by
  subst hz; rfl

theorem inv1_succ (c : Dev nD) (n : ℕ) (hn : n < cfg1.N) :
    inv1 V c (n + 1) hn = iprop(owns (c : Thread nD τ) scM1 fullShare (accAt1 V c n hn) ∗ others1 c ∗ (∃ r, prngReg c r)) := rfl

theorem inv1_pos (c : Dev nD) (n : ℕ) (h : n ≤ cfg1.N) (hz : n ≠ 0) :
    inv1 V c n h = iprop(owns (c : Thread nD τ) scM1 fullShare (accAt1 V c (n - 1) (by omega)) ∗ others1 c ∗ (∃ r, prngReg c r)) := by
  cases n with
  | zero => exact absurd rfl hz
  | succ n => rfl

/-! ## The proof data of the step -/

/-- The arrays as the step finds them; after the body each input window still at its block and the result window at
    `resAt1`; the accumulator carried in the invariant; nothing owed to other cores. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => resAt1 V c t
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = resAt1 V c t := by dsimp only [dat1]

theorem found1_0 (c : Dev nD) (t : Fin cfg1.N) (d) : (dat1 V c).before 0 t d = iblk1 V c 0 t :=
  found1_0_of V (dat1 V c) (A_eq1 V c 0) (after1_0 V c) t d
theorem found1_1 (c : Dev nD) (t : Fin cfg1.N) (d) : (dat1 V c).before 1 t d = iblk1 V c 1 t :=
  found1_1_of V (dat1 V c) (A_eq1 V c 1) (after1_1 V c) t d
theorem found1_2 (c : Dev nD) (t : Fin cfg1.N) (d) : (dat1 V c).before 2 t d = iblk1 V c 2 t :=
  found1_2_of V (dat1 V c) (A_eq1 V c 2) (after1_2 V c) t d

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input windows hold their blocks; the point's place in its row of blocks says which run applies;
    the invariant hands over the accumulator at what the point before left (at anything at the very first point) and takes it
    back at this point's contents; away from the last point of a row the result window is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [found1_0, found1_1, found1_2]
  rw [show (dat1 V c).owesAt () t.succ = (dat1 V c).owesAt () t.castSucc from rfl]
  rw [show (dat1 V c).Φ t.succ = inv1 V c (t.val + 1) t.isLt from rfl, inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 3 t = owns (c : Thread nD τ) (ms1_3 t) fullShare ((dat1 V c).after 3 t) from by
      unfold Dat.leavesExact; rw [live1_3 t ((isLast1_iff t).mpr h1)], after1_3]
    rw [accAt1_last V c t h0 h1, resAt1_last V c t h0 h1]
    unfold acc1_C res1_C; (try dsimp only)
    rw [inv1_castSucc V c t, inv1_pos V c _ _ hz]
    iintro ⟨⟨HS, Hoth, Hg⟩, Ho, ⟨%d0, H0⟩, ⟨%d1, H1⟩, ⟨%d2, H2⟩, ⟨%d3, H3⟩⟩
    iapply ((run1_C c (grid1.coords t) _ _ _ _ _ _ _ _ _ _ (fun h => h0 ((isFirst1_iff t).mp h)) ((isLast1_iff t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (accCover1_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (resCover1_C c _ _ _ _ _ _ _ _ _ _ _ _ _ _ _ _ _)
  · rw [Dat.leavesExact_idle (dat1 V c) 3 t (idle1_3 t (fun h => h1 ((isLast1_iff t).mp h))) (noFlush1_3 t (fun h => h1 ((isLast1_iff t).mp h)))]
    by_cases h0 : t.val % 8 = 0
    · rw [accAt1_first V c t h0 h1]
      unfold acc1_A; (try dsimp only)
      by_cases hz : t.val = 0
      · rw [inv1_castSucc V c t, inv1_zero V c _ _ hz]
        iintro ⟨⟨HS, Hoth, Hg⟩, Ho, ⟨%d0, H0⟩, ⟨%d1, H1⟩, ⟨%d2, H2⟩, ⟨%d3, H3⟩⟩
        iapply ((run1_A c (grid1.coords t) _ _ _ _ _ _ _ _ _ _ ((isFirst1_iff t).mpr h0) (fun h => h1 ((isLast1_iff t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover1_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [inv1_castSucc V c t, inv1_pos V c _ _ hz]
        iintro ⟨⟨HS, Hoth, Hg⟩, Ho, ⟨%d0, H0⟩, ⟨%d1, H1⟩, ⟨%d2, H2⟩, ⟨%d3, H3⟩⟩
        iapply ((run1_A c (grid1.coords t) _ _ _ _ _ _ _ _ _ _ ((isFirst1_iff t).mpr h0) (fun h => h1 ((isLast1_iff t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS]
          · unfold owns; iexists _; isplitr
            swap; · iexact HS
            ipureintro; exact View.read_writes_of_cover _ _ _ _ _ (accCover1_A c _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
    · have hz : t.val ≠ 0 := by omega
      rw [accAt1_inner V c t h0 h1]
      unfold acc1_B; (try dsimp only)
      rw [inv1_castSucc V c t, inv1_pos V c _ _ hz]
      iintro ⟨⟨HS, Hoth, Hg⟩, Ho, ⟨%d0, H0⟩, ⟨%d1, H1⟩, ⟨%d2, H2⟩, ⟨%d3, H3⟩⟩
      iapply ((run1_B c (grid1.coords t) _ _ _ _ _ _ _ _ _ _ (fun h => h0 ((isFirst1_iff t).mp h)) (fun h => h1 ((isLast1_iff t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS]
        · unfold owns; iexists _; isplitr
          swap; · iexact HS
          ipureintro; exact View.read_writes_of_cover _ _ _ _ _ (accCover1_B c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The step's body obligation, at every point. -/
theorem body_obligation1 (c : Dev nD) : BodyObligation (dat1 (F := F) V c) (defs₀ (F := F)) Variants.none () Set.univ := fun t => by
  rw [bigSep_W1, bigSep_W1]
  exact sound_body1 V c t

/-- What the step is handed is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  exact handed1_split c

/-- After the last point the invariant gives it back, the accumulator's contents forgotten. -/
theorem leave1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 128 := N_1; omega)]
  iintro ⟨HS, Hoth, Hg⟩
  iapply (handed1_join c)
  isplitl [HS]; · iexists _; iexact HS
  isplitl [Hoth]; · iexact Hoth
  iexact Hg

end

end Cert.KernelIdeal.Fr

end
-- ==== Proof.KI.Fold.lean ====
/-
  The contents of the core's buffers at each boundary of the program, as a fold from the launch memory: the host
  operations before the first propagation step, what that step's write-backs leave in its result array, the host
  operations between the steps, the second step, the host operations of the dense head. The argument arrays come out of
  the fold as they went in: no host operation writes one, and the steps only read them.
-/
import proofs.«141868_j58643483459879_1_alg».proof.Proof.KI.Step0
import proofs.«141868_j58643483459879_1_alg».proof.Proof.KI.Step1
import proofs.«141868_j58643483459879_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers at launch. -/
abbrev W0 : Dev nD → Valuation τ sig (Elt F) := fun c b => m (c, b)
/-- After the host operations before the first step (x W1, the bias as a row). -/
abbrev W1 : Dev nD → Valuation τ sig (Elt F) := fun c => StableHlo.after hostOps0 (W0 m c)
/-- The same read at the core's references: what the first step is entered from. -/
abbrev E1 : (c : Dev nD) → (b : Ref sig .tc) → Buf (Elt F) ((c : Thread nD τ).loc b) := fun c b => W1 m c b
/-- After the first step: its arrays at what the write-backs leave, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem left0 (c : Dev nD) (w : Fin cfg0.W) : (dat0 (E1 m) c).arrAt w cfg0.N = E2 m c (Pipeline.arrRef spec0 w) :=
  (W2_arr m c w).symm
theorem rest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the host operations between the steps (h1 W2, the second bias as a row). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second step. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem left1 (c : Dev nD) (w : Fin cfg1.W) : (dat1 (E3 m) c).arrAt w cfg1.N = E4 m c (Pipeline.arrRef spec1 w) :=
  (W4_arr m c w).symm
theorem rest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the host operations of the dense head: the end of the program. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

theorem W5_main_arg1 (c : Dev nD) : W5 m c (Proc.devRef .tc main_arg1) = m ((c : Thread nD τ).loc main_arg1) :=
  (StableHlo.after_of_writes_sub hostOps2 _ hostOps2_writes (r := main_arg1) (by decide)).trans <|
  ((W4_arr m c 0).trans (((dat1 (E3 m) c).arrAt_in 0 rfl _).trans (A_eq1 (E3 m) c 0))).trans <|
  (StableHlo.after_of_writes_sub hostOps1 _ hostOps1_writes (r := main_arg1) (by decide)).trans <|
  ((W2_arr m c 0).trans (((dat0 (E1 m) c).arrAt_in 0 rfl _).trans (A_eq0 (E1 m) c 0))).trans <|
  (StableHlo.after_of_writes_sub hostOps0 _ hostOps0_writes (r := main_arg1) (by decide)).trans rfl

theorem W5_main_arg2 (c : Dev nD) : W5 m c (Proc.devRef .tc main_arg2) = m ((c : Thread nD τ).loc main_arg2) :=
  (StableHlo.after_of_writes_sub hostOps2 _ hostOps2_writes (r := main_arg2) (by decide)).trans <|
  (W4_of_ne m c main_arg2 (by decide)).trans <|
  (StableHlo.after_of_writes_sub hostOps1 _ hostOps1_writes (r := main_arg2) (by decide)).trans <|
  (W2_of_ne m c main_arg2 (by decide)).trans <|
  (StableHlo.after_of_writes_sub hostOps0 _ hostOps0_writes (r := main_arg2) (by decide)).trans rfl

theorem W5_main_arg3 (c : Dev nD) : W5 m c (Proc.devRef .tc main_arg3) = m ((c : Thread nD τ).loc main_arg3) :=
  (StableHlo.after_of_writes_sub hostOps2 _ hostOps2_writes (r := main_arg3) (by decide)).trans <|
  (W4_of_ne m c main_arg3 (by decide)).trans <|
  (StableHlo.after_of_writes_sub hostOps1 _ hostOps1_writes (r := main_arg3) (by decide)).trans <|
  (W2_of_ne m c main_arg3 (by decide)).trans <|
  (StableHlo.after_of_writes_sub hostOps0 _ hostOps0_writes (r := main_arg3) (by decide)).trans rfl

theorem W5_main_arg4 (c : Dev nD) : W5 m c (Proc.devRef .tc main_arg4) = m ((c : Thread nD τ).loc main_arg4) :=
  (StableHlo.after_of_writes_sub hostOps2 _ hostOps2_writes (r := main_arg4) (by decide)).trans <|
  (W4_of_ne m c main_arg4 (by decide)).trans <|
  (StableHlo.after_of_writes_sub hostOps1 _ hostOps1_writes (r := main_arg4) (by decide)).trans <|
  (W2_of_ne m c main_arg4 (by decide)).trans <|
  (StableHlo.after_of_writes_sub hostOps0 _ hostOps0_writes (r := main_arg4) (by decide)).trans rfl

theorem W5_main_arg5 (c : Dev nD) : W5 m c (Proc.devRef .tc main_arg5) = m ((c : Thread nD τ).loc main_arg5) :=
  (StableHlo.after_of_writes_sub hostOps2 _ hostOps2_writes (r := main_arg5) (by decide)).trans <|
  (W4_of_ne m c main_arg5 (by decide)).trans <|
  (StableHlo.after_of_writes_sub hostOps1 _ hostOps1_writes (r := main_arg5) (by decide)).trans <|
  (W2_of_ne m c main_arg5 (by decide)).trans <|
  (StableHlo.after_of_writes_sub hostOps0 _ hostOps0_writes (r := main_arg5) (by decide)).trans rfl

theorem W5_main_arg6 (c : Dev nD) : W5 m c (Proc.devRef .tc main_arg6) = m ((c : Thread nD τ).loc main_arg6) :=
  (StableHlo.after_of_writes_sub hostOps2 _ hostOps2_writes (r := main_arg6) (by decide)).trans <|
  (W4_of_ne m c main_arg6 (by decide)).trans <|
  (StableHlo.after_of_writes_sub hostOps1 _ hostOps1_writes (r := main_arg6) (by decide)).trans <|
  (W2_of_ne m c main_arg6 (by decide)).trans <|
  (StableHlo.after_of_writes_sub hostOps0 _ hostOps0_writes (r := main_arg6) (by decide)).trans rfl

theorem W5_main_arg7 (c : Dev nD) : W5 m c (Proc.devRef .tc main_arg7) = m ((c : Thread nD τ).loc main_arg7) :=
  (StableHlo.after_of_writes_sub hostOps2 _ hostOps2_writes (r := main_arg7) (by decide)).trans <|
  (W4_of_ne m c main_arg7 (by decide)).trans <|
  (StableHlo.after_of_writes_sub hostOps1 _ hostOps1_writes (r := main_arg7) (by decide)).trans <|
  (W2_of_ne m c main_arg7 (by decide)).trans <|
  (StableHlo.after_of_writes_sub hostOps0 _ hostOps0_writes (r := main_arg7) (by decide)).trans rfl

end Cert.KernelIdeal.Fr

end
-- ==== Proof.KI.MainRun.lean ====
/-
  The whole program as five segments — host operations, propagation step 1, host operations, propagation step 2, the
  host operations of the dense head — launched from any memory with zero counters: every weakly fair execution terminates
  without a fault, and in the final memory every unscoped buffer of the core holds what the fold of Fold.lean computes.
-/
import proofs.«141868_j58643483459879_1_alg».proof.Proof.KI.Fold

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the two steps, each at the contents its step is entered from. -/
def stepData : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
/-- No core owes another anything: no pair of cores is assigned a level. -/
abbrev noPairs : GSem nD τ sig → Finset Unit := fun _ => ∅
abbrev noLevel : GSem nD τ sig → Unit → ℕ := fun _ _ => 0
/-- What rides beside the buffers through every segment: the generator register at some state, and nothing owed. -/
abbrev riding (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-- After its last point step 1 hands back the generator register and the core's scoped buffers it does not stage. -/
theorem exit0 (c : Dev nD) :
    (dat0 (E1 m) c).Φ (Fin.last cfg0.N)
      ⊢ (iprop((∃ r, prngReg c r) ∗ BI.emp ∗ Pipeline.scopedRest (Ix := Unit) (Name := ℕ) (U := UR sig nD τ) (Lvl := ℕ) (Val := Elt F) spec0 c) : sProp 𝕄) :=
  (leave0 (E1 m) c).trans (show (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) from by
    unfold Pipeline.ΦA
    iintro ⟨Hr, Hp⟩
    isplitl [Hp]; · iexact Hp
    isplitr; · iempintro
    iexact Hr)

/-- After its last point step 2 hands back the generator register and the core's scoped buffers it does not stage. -/
theorem exit1 (c : Dev nD) :
    (dat1 (E3 m) c).Φ (Fin.last cfg1.N)
      ⊢ (iprop((∃ r, prngReg c r) ∗ BI.emp ∗ Pipeline.scopedRest (Ix := Unit) (Name := ℕ) (U := UR sig nD τ) (Lvl := ℕ) (Val := Elt F) spec1 c) : sProp 𝕄) :=
  (leave1 (E3 m) c).trans (show (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) from by
    unfold Pipeline.ΦA
    iintro ⟨Hr, Hp⟩
    isplitl [Hp]; · iexact Hp
    isplitr; · iempintro
    iexact Hr)

-- the step's configuration is the program's own, written out: the two are equal by unfolding definitions
set_option backward.isDefEq.respectTransparency.types false in
/-- Propagation step 1 as a segment of the program: entered with every unscoped buffer at `W1`, left with them at `W2`.
    Its four arrays are split out of the unscoped buffers and put back at what the write-backs leave; the generator register
    goes into the invariant and comes back; the accumulator's last contents are forgotten at the exit; nothing is owed. -/
def step0Seg : Pipeline.RegionSeg (pcfgs (F := F)) adm (stepData m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun _ _ => rfl
  pre c := iprop(StableHlo.held (c : Thread nD τ) (Pipeline.ucRefs τ sig) (W1 m c) ∗ riding c)
  post c := iprop(StableHlo.held (c : Thread nD τ) (Pipeline.ucRefs τ sig) (W2 m c) ∗ riding c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (stepData m) launch0.win launch0.arr_whole c
      ((stepData m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepData m 0 c).Φ 0 = (dat0 (E1 m) c).Φ 0 from rfl]
    iintro ⟨Hp, -, Hr⟩
    iapply (enter0 (E1 m) c)
    unfold Pipeline.ΦA
    isplitl [Hr]; · iexact Hr
    iexact Hp
  hout c := by
    rw [Pipeline.ownSems0_none]
    exact exit0 m c
  hexit c := by
    have hjoin := Pipeline.unscopedBufs_of_arrays (p := 0) (pcfgs (F := F)) adm (Ix := Unit) (Name := ℕ) (U := UR sig nD τ) (Lvl := ℕ)
      launch0.win launch0.arr_whole c (stepData m) ((stepData m 0 c).share_full fun _ => rfl)
      (E1 m c) (E2 m c) ((stepData m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the step's configuration is the program's own, written out: the two are equal by unfolding definitions
set_option backward.isDefEq.respectTransparency.types false in
/-- Propagation step 2 as a segment of the program: entered with every unscoped buffer at `W3`, left with them at `W4`.
    Its four arrays are split out of the unscoped buffers and put back at what the write-backs leave; the generator register
    goes into the invariant and comes back; the accumulator's last contents are forgotten at the exit; nothing is owed. -/
def step1Seg : Pipeline.RegionSeg (pcfgs (F := F)) adm (stepData m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ riding c)
  post c := iprop(StableHlo.held (c : Thread nD τ) (Pipeline.ucRefs τ sig) (W4 m c) ∗ riding c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (stepData m) launch1.win launch1.arr_whole c
      ((stepData m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (stepData m 1 c).Φ 0 = (dat1 (E3 m) c).Φ 0 from rfl]
    iintro ⟨Hp, -, Hr⟩
    iapply (enter1 (E3 m) c)
    unfold Pipeline.ΦA
    isplitl [Hr]; · iexact Hr
    iexact Hp
  hout c := by
    rw [Pipeline.ownSems0_none]
    exact exit1 m c
  hexit c := by
    have hjoin := Pipeline.unscopedBufs_of_arrays (p := 1) (pcfgs (F := F)) adm (Ix := Unit) (Name := ℕ) (U := UR sig nD τ) (Lvl := ℕ)
      launch1.win launch1.arr_whole c (stepData m) ((stepData m 1 c).share_full fun _ => rfl)
      (E3 m c) (E4 m c) ((stepData m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev items : List (Pipeline.Seg (pcfgs (F := F)) adm (stepData m) () defs₀ Variants.none noPairs noLevel) :=
  [ .host (hostSeg hostOps0 hostOps0_sub hostOps0_fresh (W0 m)),
    .region (step0Seg m),
    .host (hostSeg hostOps1 hostOps1_sub hostOps1_fresh (W2 m)),
    .region (step1Seg m),
    .host (hostSeg hostOps2 hostOps2_sub hostOps2_fresh (W4 m)) ]

theorem main_items (c : Dev nD) : main (F := F) c = Pipeline.Seg.run (items m) := (main_chain c).trans (by chain_rfl)

-- each segment's configuration is the program's own, written out: equal by unfolding definitions
set_option backward.isDefEq.respectTransparency.types false in
/-- From any memory with zero counters every weakly fair execution of the program terminates, nothing faulting, and every
    unscoped buffer of every core ends at the fold's last contents `W5`. -/
theorem runs : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (stepData m) () cellOf_inj emb₁ defs₀ Variants.none noPairs noLevel m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ riding c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c =>
      show (iprop(StableHlo.held (c : Thread nD τ) (Pipeline.ucRefs τ sig) (W5 m c) ∗ (∃ r, prngReg c r) ∗ ∃ W, owes (c : Thread nD τ) (0 : CellTallies nD τ sig Unit) W) : sProp 𝕄)
        ⊢ iprop((StableHlo.held (c : Thread nD τ) (Pipeline.ucRefs τ sig) (W5 m c) ∗ ∃ r, prngReg c r) ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped reference of the core is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program runs to the end and leaves its eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (runs m ρ)

/-- The same run with the result array named: it ends at the fold's last contents of `main_v9`. -/
theorem runs_result : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨h c _ (mem_uc main_v9 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c),
     (h c _ (mem_uc main_arg7 (by decide))).trans (W5_main_arg7 m c)⟩) (runs m ρ)

end Cert.KernelIdeal.Fr

end
-- ==== Proof.KI.Reads0.lean ====
/-
  The blocks of propagation step 1 read at an index.

  At grid point t (row block t / 8, column block t % 8) the block of the adjacency matrix holds at (p, d) the matrix's
  entry (1024 (t / 8) + p, 2048 (t % 8) + d); the block of the table holds at (d, f) the table's entry
  (2048 (t % 8) + d, f); the bias block is the whole [1, 16] bias row. An entry of a block sits in its array, on each
  axis, at the block's index times the block's size plus the entry's own coordinate.
-/
import proofs.«141868_j58643483459879_1_alg».proof.Proof.KI.Points
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable {F : FTy → Type} [FloatOps F]
variable (V : (c : Dev nD) → (b : Ref sig .tc) → Buf (Elt F) ((c : Thread nD τ).loc b))

/-- The block indices of the four windows at point t: the matrix's block is (t / 8, t % 8), the table's (t % 8, 0), the
    bias row's (0, 0), the result's (t / 8, 0). -/
theorem index0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The matrix's block at point t, at (p, d). -/
theorem iblk0_0_apply (c : Dev nD) (t : Fin cfg0.N) (p : Fin 1024) (d : Fin 2048) (r k : Fin 16384)
    (hr : r.val = 1024 * (t.val / 8) + p.val) (hk : k.val = 2048 * (t.val % 8) + d.val) :
    iblk0 V c 0 t (ix2 p d) = (V c main_arg1 : FVec F S16384x16384 .f32) (ix2 r k) := by
  obtain ⟨e0, e1, -⟩ := index0 t
  unfold iblk0
  rw [View.read_apply]
  show V c main_arg1 _ = V c main_arg1 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 2048 + 1 * d.val = k.val; rw [e1, hk]; omega

/-- The table's block at point t, at (d, f). -/
theorem iblk0_1_apply (c : Dev nD) (t : Fin cfg0.N) (d : Fin 2048) (f : Fin 16) (k : Fin 16384)
    (hk : k.val = 2048 * (t.val % 8) + d.val) :
    iblk0 V c 1 t (ix2 d f) = (V c main_v0 : FVec F S16384x16 .f32) (ix2 k f) := by
  obtain ⟨-, -, e0, e1, -⟩ := index0 t
  unfold iblk0
  rw [View.read_apply]
  show V c main_v0 _ = V c main_v0 _
  congr 1
  funext a
  apply Fin.ext
  match a with
  | ⟨0, _⟩ => show win0_1.index t (0 : Fin 2) * 2048 + 1 * d.val = k.val; rw [e0, hk]; omega
  | ⟨1, _⟩ => show win0_1.index t (1 : Fin 2) * 16 + 1 * f.val = f.val; rw [e1]; omega

/-- The bias block at point t is the bias row. -/
theorem iblk0_2_apply (c : Dev nD) (t : Fin cfg0.N) (f : Fin 16) :
    iblk0 V c 2 t (ix2 (0 : Fin 1) f) = (V c main_v1 : FVec F S1x16 .f32) (ix2 (0 : Fin 1) f) := by
  obtain ⟨-, -, -, -, e0, e1, -⟩ := index0 t
  unfold iblk0
  rw [View.read_apply]
  show V c main_v1 _ = V c main_v1 _
  congr 1
  funext a
  apply Fin.ext
  match a with
  | ⟨0, _⟩ => show win0_2.index t (0 : Fin 2) * 1 + 1 * 0 = 0; rw [e0]
  | ⟨1, _⟩ => show win0_2.index t (1 : Fin 2) * 16 + 1 * f.val = f.val; rw [e1]; omega

end Cert.KernelIdeal.Val

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«141868_j58643483459879_1_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«141868_j58643483459879_1_alg».proof.Proof.LibInnerProducts
import proofs.«141868_j58643483459879_1_alg».proof.Proof.LibInDimRow
import proofs.«141868_j58643483459879_1_alg».proof.Proof.LibKeepdims
import proofs.«141868_j58643483459879_1_alg».proof.Proof.LibInDimLayout
import proofs.«141868_j58643483459879_1_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.GcnSpec.lean ====
/-
  The two-layer graph convolution with a dense head, stated entry by entry on the extended reals.

  With A the [16384, 16384] adjacency matrix, x the [16384, 512] features and the weights W1 [512, 16], W2 [16, 16],
  Wd [16, 1] and biases b1, b2 [16], bd [1]:

    h0 = x W1;   h1 = max (A h0 + b1) 0;   g = h1 W2;   h2 = softmax over each row of (A g + b2);   out = h2 Wd + bd.

  Every entry is written as a finite sum over a plain `Fin` index; no order or grouping of the sums is part of the
  statement. The row softmax is `Cert.DenseRows.softmax`: exp (l q − M) divided by the sum of exp (l k − M), with M the
  row supremum joined once more with −∞.
-/
import Idealize.ShloMosaic.PureOps.Ideal
import Idealize.ShloMosaic.Lib.ValueIdx
import proofs.«141868_j58643483459879_1_alg».proof.Proof.LibDenseRows

noncomputable section

namespace Cert.Gcn

open Idealize.ShloMosaic Idealize.ShloMosaic.ValueIdx
open scoped BigOperators

/-- Entry (r, f) of a product of an [m, k] array with a [k, n] array. -/
def prod {m k n : ℕ} (a : FVec Ideal ⟨2, ![m, k]⟩ .f32) (w : FVec Ideal ⟨2, ![k, n]⟩ .f32) (r : Fin m) (f : Fin n) : EReal :=
  ∑ d : Fin k, a (ix2 r d) * w (ix2 d f)

/-- Entry (r, f) of one propagation step before its activation: row r of A against column f of the [16384, 16] table h,
    plus entry f of the bias. The table and the bias are given as functions of plain indices. -/
def step (A : FVec Ideal ⟨2, ![16384, 16384]⟩ .f32) (h : Fin 16384 → Fin 16 → EReal) (b : Fin 16 → EReal)
    (r : Fin 16384) (f : Fin 16) : EReal :=
  (∑ k : Fin 16384, A (ix2 r k) * h k f) + b f

/-- The first layer: the propagation step of h0 = x W1 with bias b1, rectified. -/
def layer1 (x : FVec Ideal ⟨2, ![16384, 512]⟩ .f32) (A : FVec Ideal ⟨2, ![16384, 16384]⟩ .f32)
    (W1 : FVec Ideal ⟨2, ![512, 16]⟩ .f32) (b1 : FVec Ideal ⟨1, ![16]⟩ .f32) (r : Fin 16384) (f : Fin 16) : EReal :=
  max (step A (prod x W1) (fun f => b1 (ix1 f)) r f) 0

/-- The second layer: the propagation step of g = h1 W2 with bias b2, then the softmax of each row. -/
def layer2 (h1 : Fin 16384 → Fin 16 → EReal) (A : FVec Ideal ⟨2, ![16384, 16384]⟩ .f32)
    (W2 : FVec Ideal ⟨2, ![16, 16]⟩ .f32) (b2 : FVec Ideal ⟨1, ![16]⟩ .f32) (r : Fin 16384) (f : Fin 16) : EReal :=
  Cert.DenseRows.softmax (fun q => step A (fun k q => ∑ d : Fin 16, h1 k d * W2 (ix2 d q)) (fun q => b2 (ix1 q)) r q) f

/-- The result: entry r of h2 Wd + bd. -/
def out (x : FVec Ideal ⟨2, ![16384, 512]⟩ .f32) (A : FVec Ideal ⟨2, ![16384, 16384]⟩ .f32)
    (W1 : FVec Ideal ⟨2, ![512, 16]⟩ .f32) (b1 : FVec Ideal ⟨1, ![16]⟩ .f32) (W2 : FVec Ideal ⟨2, ![16, 16]⟩ .f32)
    (b2 : FVec Ideal ⟨1, ![16]⟩ .f32) (Wd : FVec Ideal ⟨2, ![16, 1]⟩ .f32) (bd : FVec Ideal ⟨1, ![1]⟩ .f32)
    (r : Fin 16384) : EReal :=
  (∑ d : Fin 16, layer2 (layer1 x A W1 b1) A W2 b2 r d * Wd (ix2 d 0)) + bd (ix1 0)

/-- The result as an array of shape [16384, 1]. -/
def outArr (x : FVec Ideal ⟨2, ![16384, 512]⟩ .f32) (A : FVec Ideal ⟨2, ![16384, 16384]⟩ .f32)
    (W1 : FVec Ideal ⟨2, ![512, 16]⟩ .f32) (b1 : FVec Ideal ⟨1, ![16]⟩ .f32) (W2 : FVec Ideal ⟨2, ![16, 16]⟩ .f32)
    (b2 : FVec Ideal ⟨1, ![16]⟩ .f32) (Wd : FVec Ideal ⟨2, ![16, 1]⟩ .f32) (bd : FVec Ideal ⟨1, ![1]⟩ .f32) :
    FVec Ideal ⟨2, ![16384, 1]⟩ .f32 :=
  fun j => out x A W1 b1 W2 b2 Wd bd (j 0)

end Cert.Gcn

end
-- ==== Proof.LibRowSoftmax.lean ====
/-
  A row-wise softmax, read one row at a time on the extended reals.

  The maximum of row p is the supremum of its entries; taking it once more against −∞ changes nothing and is kept as
  written.  The shifted row is exponentiated, summed along the row, and each exponential divided by that sum.  A kernel
  writes this on an [M, n] block with lane reductions, a cast of the [M] results to a column [M, 1] and a broadcast back
  to [M, n]; the host writes it on an [M, n] array with reduce, two broadcasts and divide.  At (p, q) both are the
  softmax of row p at q.
-/
import Idealize.ShloMosaic.PureOps.Ideal.Laws
import Idealize.ShloMosaic.Lib.ValueIdx
import Idealize.ShloMosaic.Lib.Pipeline.Value
import proofs.«141868_j58643483459879_1_alg».proof.Proof.LibKeepdims
import proofs.«141868_j58643483459879_1_alg».proof.Proof.LibInDimLayout
import proofs.«141868_j58643483459879_1_alg».proof.Proof.LibExtremeReduce
import proofs.«141868_j58643483459879_1_alg».proof.Proof.LibDenseRows

noncomputable section

namespace Cert.DenseRows

open Idealize.ShloMosaic Idealize.ShloMosaic.ValueIdx
open scoped BigOperators

/-- Putting coordinate k back on the last axis of the row index p gives (p, k). -/
theorem lift_ix1 {M n : ℕ} (h : (⟨2, ![M, n]⟩ : Shape).Reduces [1] ⟨1, ![M]⟩) (p : Fin M) (k : Fin n) :
    h.lift (ix1 p) k = ix2 p k := by
  funext c
  apply Fin.ext
  match c with
  | ⟨0, _⟩ => rfl
  | ⟨1, _⟩ => rfl

/-- A scalar spread over a vector reads the scalar everywhere. -/
theorem inDim_scalar_apply {M : ℕ} {α : Type} (v : (⟨0, ![]⟩ : Shape).Idx → α)
    (h : (⟨0, ![]⟩ : Shape).BroadcastsInDim ⟨1, ![M]⟩ ![]) (j : (⟨1, ![M]⟩ : Shape).Idx) :
    broadcastInDim ⟨1, ![M]⟩ ![] h v j = v ix0 :=
  broadcastInDim_apply _ h v j ix0 fun a => a.elim0

/-- The kernel's softmax of an [M, n] block at (p, q). -/
theorem softmax_kernel_apply {M n : ℕ} (src : FVec Ideal ⟨2, ![M, n]⟩ .f32)
    (h : (⟨2, ![M, n]⟩ : Shape).Reduces [1] ⟨1, ![M]⟩) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, n]⟩)
    (p : Fin M) (q : Fin n) :
    divf (exp (subf src (broadcastTo ⟨2, ![M, n]⟩ (shapeCast ⟨2, ![M, 1]⟩
            (maximumf (broadcast ⟨1, ![M]⟩ (Scalar.ofBits (F := Ideal) .f32 0xFF800000#32))
              (multiReduction .maximumf [1] ⟨1, ![M]⟩ src 0xFF800000#32 h hφ hmax)) hc) hb)))
        (broadcastTo ⟨2, ![M, n]⟩ (shapeCast ⟨2, ![M, 1]⟩
          (multiReduction .add [1] ⟨1, ![M]⟩
            (exp (subf src (broadcastTo ⟨2, ![M, n]⟩ (shapeCast ⟨2, ![M, 1]⟩
              (maximumf (broadcast ⟨1, ![M]⟩ (Scalar.ofBits (F := Ideal) .f32 0xFF800000#32))
                (multiReduction .maximumf [1] ⟨1, ![M]⟩ src 0xFF800000#32 h hφ hmax)) hc) hb)))
            0x00000000#32 h hφ hadd) hc) hb) (ix2 p q)
      = softmax (fun k => src (ix2 p k)) q := by
  -- the row maximum, spread back over the row, read at any entry of row p
  have hm : ∀ k : Fin n, broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb (ix2 p k)
        = max ⊥ (⨆ j : Fin n, src (ix2 p j)) := by
    intro k
    rw [Cert.LibKeepdims.broadcastTo_a1_ab_apply _ hb p k, Cert.LibKeepdims.shapeCast_a_a1_apply _ hc p 0]
    show max (Ideal.ofBits .f32 0xFF800000#32) (multiReduction .maximumf [1] ⟨1, ![M]⟩ src 0xFF800000#32 h hφ hmax (ix1 p)) = _
    rw [ExtremeReduce.ofBits_negInf, ExtremeReduce.multiReduction_max_single src h hφ hmax (ix1 p)]
    show max ⊥ (⨆ j : Fin n, src (h.lift (ix1 p) j)) = _
    simp only [lift_ix1]
  -- the exponential of the shifted row, at any entry of row p
  have he : ∀ k : Fin n, exp (subf src (broadcastTo ⟨2, ![M, n]⟩ (shapeCast ⟨2, ![M, 1]⟩
        (maximumf (broadcast ⟨1, ![M]⟩ (Scalar.ofBits (F := Ideal) .f32 0xFF800000#32))
          (multiReduction .maximumf [1] ⟨1, ![M]⟩ src 0xFF800000#32 h hφ hmax)) hc) hb)) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibKeepdims.broadcastTo_a1_ab_apply _ hb p q, Cert.LibKeepdims.shapeCast_a_a1_apply _ hc p 0,
    Ideal.multiReduction_add_single _ _ h hφ hadd (ix1 p)]
  unfold softmax
  refine congrArg (Ideal.div _) ?_
  show ∑ k : Fin n, _ = _
  refine Finset.sum_congr rfl fun k _ => ?_
  rw [lift_ix1 h p k, he k]

/-- The host's softmax of an [M, n] array at (p, q). -/
theorem softmax_host_apply {M n : ℕ} (src : FVec Ideal ⟨2, ![M, n]⟩ .f32)
    (h' : (⟨2, ![M, n]⟩ : Shape).ReducesTo [1] ⟨1, ![M]⟩) (h : (⟨2, ![M, n]⟩ : Shape).Reduces [1] ⟨1, ![M]⟩)
    (hu : 0 < (⟨0, ![]⟩ : Shape).numel) (hs : (⟨0, ![]⟩ : Shape).BroadcastsInDim ⟨1, ![M]⟩ ![])
    (h1 : (⟨1, ![M]⟩ : Shape).BroadcastsInDim ⟨2, ![M, 1]⟩ ![0]) (h2 : (⟨2, ![M, 1]⟩ : Shape).BroadcastsInDim ⟨2, ![M, n]⟩ ![0, 1])
    (p : Fin M) (q : Fin n) :
    Host.divf (Host.exp (subf src (broadcastInDim ⟨2, ![M, n]⟩ ![0, 1] h2 (broadcastInDim ⟨2, ![M, 1]⟩ ![0] h1
            (maximumf (broadcastInDim ⟨1, ![M]⟩ ![] hs (constant (F := Ideal) ⟨0, ![]⟩ .f32 0xFF800000#32))
              (Host.reduce FloatOps.maximumf src (constant (F := Ideal) ⟨0, ![]⟩ .f32 0xFF800000#32) h' hu))))))
        (broadcastInDim ⟨2, ![M, n]⟩ ![0, 1] h2 (broadcastInDim ⟨2, ![M, 1]⟩ ![0] h1
          (Host.reduceAdd
            (Host.exp (subf src (broadcastInDim ⟨2, ![M, n]⟩ ![0, 1] h2 (broadcastInDim ⟨2, ![M, 1]⟩ ![0] h1
              (maximumf (broadcastInDim ⟨1, ![M]⟩ ![] hs (constant (F := Ideal) ⟨0, ![]⟩ .f32 0xFF800000#32))
                (Host.reduce FloatOps.maximumf src (constant (F := Ideal) ⟨0, ![]⟩ .f32 0xFF800000#32) h' hu))))))
            (constant (F := Ideal) ⟨0, ![]⟩ .f32 0x00000000#32) h' hu))) (ix2 p q)
      = softmax (fun k => src (ix2 p k)) q := by
  have hm : ∀ k : Fin n, broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))) (ix2 p k)
        = max ⊥ (⨆ j : Fin n, src (ix2 p j)) := by
    intro k
    rw [Cert.LibInDimLayout.inDim_a1_ab_apply _ h2 p k, Cert.LibInDimLayout.inDim_a_a1_apply _ h1 p 0]
    show max (broadcastInDim ⟨1, ![M]⟩ ![] hs (constant (F := Ideal) ⟨0, ![]⟩ .f32 0xFF800000#32) (ix1 p))
      (Host.reduce FloatOps.maximumf src (constant (F := Ideal) ⟨0, ![]⟩ .f32 0xFF800000#32) h' hu (ix1 p)) = _
    rw [inDim_scalar_apply _ hs (ix1 p), ExtremeReduce.hostReduce_max_single src h' h hu (ix1 p)]
    show max (Ideal.ofBits .f32 0xFF800000#32) (⨆ j : Fin n, src (h.lift (ix1 p) j)) = _
    rw [ExtremeReduce.ofBits_negInf]
    simp only [lift_ix1]
  have he : ∀ k : Fin n, Host.exp (subf src (broadcastInDim ⟨2, ![M, n]⟩ ![0, 1] h2 (broadcastInDim ⟨2, ![M, 1]⟩ ![0] h1
        (maximumf (broadcastInDim ⟨1, ![M]⟩ ![] hs (constant (F := Ideal) ⟨0, ![]⟩ .f32 0xFF800000#32))
          (Host.reduce FloatOps.maximumf src (constant (F := Ideal) ⟨0, ![]⟩ .f32 0xFF800000#32) h' hu))))) (ix2 p k)
        = Ideal.exp (src (ix2 p k) - max ⊥ (⨆ j : Fin n, src (ix2 p j))) := by
    intro k
    show Ideal.exp (src (ix2 p k) - _) = _
    rw [hm k]
  show Ideal.div _ _ = _
  rw [he q, Cert.LibInDimLayout.inDim_a1_ab_apply _ h2 p q, Cert.LibInDimLayout.inDim_a_a1_apply _ h1 p 0]
  unfold softmax
  refine congrArg (Ideal.div _) ?_
  show Ideal.hostReduceAdd h' _ (Ideal.ofBits .f32 0x00000000#32) (ix1 p) = _
  rw [Ideal.hostReduceAdd_single h' h _ _ (ix1 p), Ideal.ofBits_zero_f32, zero_add]
  show ∑ k : Fin n, _ = _
  refine Finset.sum_congr rfl fun k _ => ?_
  rw [lift_ix1 h p k, he k]

end Cert.DenseRows

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.KernelPayloads.lean ====
/-
  The arithmetic of the two propagation kernels' bodies, read at an index on the extended reals.

  Each kernel visits a (16, 8) grid of blocks. At a point (i, k) its body holds a [1024, 2048] block a of the adjacency
  matrix, a [2048, 16] block h of the table being propagated, the [1, 16] bias row b and a [1024, 16] accumulator acc.
  Three values are written:

    * at k = 0 the accumulator is filled with zeros;
    * at every k the accumulator becomes acc + a h: entry (p, f) gains the inner product of row p of a with column f
      of h (the change of float format before the product is the identity on the extended reals);
    * at k = 7 the output block is, in the first kernel, max (acc + b) 0 entry by entry, and in the second kernel the
      softmax of each row of acc + b.

  The last section is the bookkeeping of the accumulation: the sum of the first n blocks of 2048 consecutive terms
  starts at 0, grows by one block at a time, and after 8 blocks is the sum of all 16384 terms.
-/
import proofs.«141868_j58643483459879_1_alg».proof.Proof.Gen.KernelIdeal.Skeleton
import proofs.«141868_j58643483459879_1_alg».proof.Proof.GcnSpec
import proofs.«141868_j58643483459879_1_alg».proof.Proof.LibInnerProducts
import proofs.«141868_j58643483459879_1_alg».proof.Proof.LibDenseRows
import proofs.«141868_j58643483459879_1_alg».proof.Proof.LibRowSoftmax
import proofs.«141868_j58643483459879_1_alg».proof.Proof.LibBlockedSum

noncomputable section

namespace Cert.KernelIdeal.Pay

open Idealize.ShloMosaic Idealize.ShloMosaic.ValueIdx Cert.KernelIdeal Cert.KernelIdeal.Gen
open scoped BigOperators

/-! ## The block product's dimension numbers -/

/-- The block product contracts the columns of the left block with the rows of the right block and has no batch
    axis: its dimension numbers are the plain ones of a [1024, 2048] by [2048, 16] product. -/
theorem dot_plain : dot_S1024x2048_S2048x16_S1024x16_1_0_0_1_n_n = DotDims.plain 1024 2048 16 := rfl

/-! ## The fill at the first column block -/

/-- The first kernel's fill value is 0 at every entry. -/
theorem k0_pay1_apply (p : Fin 1024) (f : Fin 16) : k0_pay1 (F := Ideal) (ix2 p f) = 0 :=
  (congrFun (shapeCast_self (broadcast S1024x16 (Scalar.ofBits (F := Ideal) .f32 0x00000000#32))
    shapeCasts_S1024x16_S1024x16) (ix2 p f)).trans Ideal.ofBits_zero_f32

/-- The second kernel's fill value is 0 at every entry. -/
theorem k1_pay1_apply (p : Fin 1024) (f : Fin 16) : k1_pay1 (F := Ideal) (ix2 p f) = 0 :=
  (congrFun (shapeCast_self (broadcast S1024x16 (Scalar.ofBits (F := Ideal) .f32 0x00000000#32))
    shapeCasts_S1024x16_S1024x16) (ix2 p f)).trans Ideal.ofBits_zero_f32

/-! ## One accumulation step -/

/-- acc + a h at (p, f), the product written with the kernels' operations: the accumulator's entry plus the inner
    product of row p of a with column f of h. -/
theorem accumulate_apply (a : FVec Ideal S1024x2048 .f32) (h : FVec Ideal S2048x16 .f32) (acc : FVec Ideal S1024x16 .f32)
    (p : Fin 1024) (f : Fin 16) :
    shapeCast S1024x16 (addf acc (matmul dot_S1024x2048_S2048x16_S1024x16_1_0_0_1_n_n none
        (truncf .bf16 a bitsLt_bf16_f32) (truncf .bf16 (shapeCast S2048x16 h shapeCasts_S2048x16_S2048x16) bitsLt_bf16_f32)
        (constant (F := Ideal) S1024x16 .f32 0x00000000#32))) shapeCasts_S1024x16_S1024x16 (ix2 p f)
      = acc (ix2 p f) + ∑ d : Fin 2048, a (ix2 p d) * h (ix2 d f) := by
  rw [shapeCast_self _ shapeCasts_S1024x16_S1024x16, shapeCast_self h shapeCasts_S2048x16_S2048x16]
  show acc (ix2 p f) + _ = _
  refine congrArg (acc (ix2 p f) + ·) ?_
  exact (InnerProducts.matmul_zero_apply dot_S1024x2048_S2048x16_S1024x16_1_0_0_1_n_n dot_plain none
    (truncf .bf16 a bitsLt_bf16_f32) (truncf .bf16 h bitsLt_bf16_f32) p f).trans
    (Finset.sum_congr rfl fun d _ => rfl)

/-- The first kernel's accumulation step at (p, f). -/
theorem k0_pay2_apply (a : FVec Ideal S1024x2048 .f32) (h : FVec Ideal S2048x16 .f32) (acc : FVec Ideal S1024x16 .f32)
    (p : Fin 1024) (f : Fin 16) :
    k0_pay2 (F := Ideal) a h acc (ix2 p f) = acc (ix2 p f) + ∑ d : Fin 2048, a (ix2 p d) * h (ix2 d f) :=
  accumulate_apply a h acc p f

/-- The second kernel's accumulation step at (p, f). -/
theorem k1_pay2_apply (a : FVec Ideal S1024x2048 .f32) (h : FVec Ideal S2048x16 .f32) (acc : FVec Ideal S1024x16 .f32)
    (p : Fin 1024) (f : Fin 16) :
    k1_pay2 (F := Ideal) a h acc (ix2 p f) = acc (ix2 p f) + ∑ d : Fin 2048, a (ix2 p d) * h (ix2 d f) :=
  accumulate_apply a h acc p f

/-! ## The finish at the last column block -/

/-- The accumulator plus the bias row spread over the 1024 rows, at (p, q). -/
theorem biased_apply (acc : FVec Ideal S1024x16 .f32) (b : FVec Ideal S1x16 .f32) (p : Fin 1024) (q : Fin 16) :
    addf acc (broadcastTo S1024x16 (shapeCast S1x16 b shapeCasts_S1x16_S1x16) broadcasts_S1x16_S1024x16) (ix2 p q)
      = acc (ix2 p q) + b (ix2 (0 : Fin 1) q) := by
  rw [shapeCast_self b shapeCasts_S1x16_S1x16]
  show acc (ix2 p q) + _ = _
  rw [broadcastTo_1b_ab_apply b broadcasts_S1x16_S1024x16 p q]

/-- The first kernel's output block at (p, f): the biased accumulator, rectified. -/
theorem k0_pay3_apply (acc : FVec Ideal S1024x16 .f32) (b : FVec Ideal S1x16 .f32) (p : Fin 1024) (f : Fin 16) :
    k0_pay3 (F := Ideal) acc b (ix2 p f) = max (acc (ix2 p f) + b (ix2 (0 : Fin 1) f)) 0 := by
  show max (addf acc (broadcastTo S1024x16 (shapeCast S1x16 b shapeCasts_S1x16_S1x16) broadcasts_S1x16_S1024x16) (ix2 p f))
    (Ideal.ofBits .f32 0x00000000#32) = _
  rw [biased_apply acc b p f, Ideal.ofBits_zero_f32]

/-- The second kernel's output block at (p, f): the softmax of row p of the biased accumulator. -/
theorem k1_pay3_apply (acc : FVec Ideal S1024x16 .f32) (b : FVec Ideal S1x16 .f32) (p : Fin 1024) (f : Fin 16) :
    k1_pay3 (F := Ideal) acc b (ix2 p f)
      = Cert.DenseRows.softmax (fun q => acc (ix2 p q) + b (ix2 (0 : Fin 1) q)) f := by
  refine (Cert.DenseRows.softmax_kernel_apply
    (addf acc (broadcastTo S1024x16 (shapeCast S1x16 b shapeCasts_S1x16_S1x16) broadcasts_S1x16_S1024x16))
    reduces_S1024x16_S1024 (.inl rfl) rfl rfl shapeCasts_S1024_S1024x1 broadcasts_S1024x1_S1024x16 p f).trans ?_
  exact congrArg (fun l => Cert.DenseRows.softmax l f) (funext fun q => biased_apply acc b p q)

/-! ## The accumulation over the eight column blocks -/

section Accumulation
variable {β : Type*} [AddCommMonoid β]

/-- The sum of the first n blocks of 2048 consecutive terms of g. -/
def part (g : ℕ → β) (n : ℕ) : β := ∑ s ∈ Finset.range n, ∑ d : Fin 2048, g (2048 * s + d.val)

/-- No block: the sum is 0. -/
theorem part_zero (g : ℕ → β) : part g 0 = 0 := Finset.sum_range_zero _

/-- One more block adds its 2048 terms. -/
theorem part_succ (g : ℕ → β) (n : ℕ) : part g (n + 1) = part g n + ∑ d : Fin 2048, g (2048 * n + d.val) :=
  Finset.sum_range_succ _ n

/-- Eight blocks of 2048 terms are all 16384 terms. -/
theorem part_eight (g : ℕ → β) : part g 8 = ∑ k : Fin 16384, g k.val :=
  Cert.LibBlockedSum.sum_range_blocks 8 2048 g

end Accumulation

end Cert.KernelIdeal.Pay

end
-- ==== Proof.RowAccumulation.lean ====
/-
  A row of the adjacency matrix against a column of a table, accumulated over eight column blocks.

  Row r of the [16384, 16384] matrix A lies in row block r / 1024 at place r % 1024; its 16384 entries are visited in
  eight column blocks of 2048. Visiting the 128 points of the (16, 8) grid in order, point n works on row block n / 8
  and column block n % 8: it holds the block a n of A and the block h n of the table H, and leaves in the accumulator
  S n either 0 + a n · h n (when n % 8 = 0) or S (n − 1) + a n · h n. So after point n the accumulator's entry (p, f)
  is the sum of the first n % 8 + 1 blocks of the terms A (r, k) · H (k, f), r the row at place p of row block n / 8;
  at n % 8 = 7 that is the whole sum over k, and adding the bias gives the propagation step of the specification.
  Only the laws of a commutative monoid are used on the sums.
-/
import proofs.«141868_j58643483459879_1_alg».proof.Proof.GcnSpec
import proofs.«141868_j58643483459879_1_alg».proof.Proof.KernelPayloads

noncomputable section

namespace Cert.KernelIdeal.Pay

open Idealize.ShloMosaic Idealize.ShloMosaic.ValueIdx
open scoped BigOperators

/-- Term k of row r of A against column f of the table H, as a function of a natural k (0 beyond the table). -/
def term (A : FVec Ideal ⟨2, ![16384, 16384]⟩ .f32) (H : Fin 16384 → Fin 16 → EReal) (r : Fin 16384) (f : Fin 16)
    (k : ℕ) : EReal :=
  if hk : k < 16384 then A (ix2 r ⟨k, hk⟩) * H ⟨k, hk⟩ f else 0

/-- All eight blocks of the terms of row r are the inner product of row r of A with column f of H. -/
theorem part_eight_term (A : FVec Ideal ⟨2, ![16384, 16384]⟩ .f32) (H : Fin 16384 → Fin 16 → EReal) (r : Fin 16384)
    (f : Fin 16) : part (term A H r f) 8 = ∑ k : Fin 16384, A (ix2 r k) * H k f := by
  rw [part_eight]
  refine Finset.sum_congr rfl fun k _ => ?_
  rw [term, dif_pos k.isLt]

/-- All eight blocks plus the bias are the propagation step of the specification. -/
theorem part_eight_step (A : FVec Ideal ⟨2, ![16384, 16384]⟩ .f32) (H : Fin 16384 → Fin 16 → EReal) (b : Fin 16 → EReal)
    (r : Fin 16384) (f : Fin 16) : part (term A H r f) 8 + b f = Cert.Gcn.step A H b r f := by
  rw [part_eight_term]
  rfl

/-- The accumulator after each point of the grid, entry by entry: the sum of the blocks visited so far in the point's
    row of blocks. The blocks a n, h n are given by where their entries sit in A and H; the accumulator S by its
    recurrence over the points. -/
theorem scratch_closed (A : FVec Ideal ⟨2, ![16384, 16384]⟩ .f32) (H : Fin 16384 → Fin 16 → EReal)
    (S : ℕ → Fin 1024 → Fin 16 → EReal) (a : ℕ → Fin 1024 → Fin 2048 → EReal) (h : ℕ → Fin 2048 → Fin 16 → EReal)
    (ha : ∀ n, n < 128 → ∀ (p : Fin 1024) (d : Fin 2048) (r k : Fin 16384), r.val = 1024 * (n / 8) + p.val →
      k.val = 2048 * (n % 8) + d.val → a n p d = A (ix2 r k))
    (hh : ∀ n, n < 128 → ∀ (d : Fin 2048) (f : Fin 16) (k : Fin 16384), k.val = 2048 * (n % 8) + d.val → h n d f = H k f)
    (h0 : ∀ n, n < 128 → n % 8 = 0 → ∀ (p : Fin 1024) (f : Fin 16), S n p f = 0 + ∑ d : Fin 2048, a n p d * h n d f)
    (hs : ∀ n, n < 128 → n % 8 ≠ 0 → ∀ (p : Fin 1024) (f : Fin 16),
      S n p f = S (n - 1) p f + ∑ d : Fin 2048, a n p d * h n d f) :
    ∀ n, n < 128 → ∀ (p : Fin 1024) (f : Fin 16) (r : Fin 16384), r.val = 1024 * (n / 8) + p.val →
      S n p f = part (term A H r f) (n % 8 + 1) := by
  -- one block's inner product is one block of the terms
  have blk : ∀ n, n < 128 → ∀ (p : Fin 1024) (f : Fin 16) (r : Fin 16384), r.val = 1024 * (n / 8) + p.val →
      ∑ d : Fin 2048, a n p d * h n d f = ∑ d : Fin 2048, term A H r f (2048 * (n % 8) + d.val) := by
    intro n hn p f r hr
    refine Finset.sum_congr rfl fun d _ => ?_
    have hd := d.isLt
    have hk : 2048 * (n % 8) + d.val < 16384 := by omega
    rw [term, dif_pos hk, ha n hn p d r ⟨_, hk⟩ hr rfl, hh n hn d f ⟨_, hk⟩ rfl]
  intro n
  induction n using Nat.strong_induction_on with
  | _ n ih =>
    intro hn p f r hr
    by_cases hm : n % 8 = 0
    · rw [h0 n hn hm p f, blk n hn p f r hr, hm, part_succ, part_zero]
    · obtain ⟨m, rfl⟩ : ∃ m, n = m + 1 := ⟨n - 1, by omega⟩
      have hr' : r.val = 1024 * (m / 8) + p.val := by omega
      have e : (m + 1) % 8 = m % 8 + 1 := by omega
      rw [hs (m + 1) hn hm p f, Nat.add_sub_cancel, ih m (Nat.lt_succ_self m) (by omega) p f r hr',
        blk (m + 1) hn p f r hr, e]
      exact (part_succ _ _).symm

/-- At the last column block of a row of blocks the accumulator plus the bias is the propagation step. -/
theorem scratch_last (A : FVec Ideal ⟨2, ![16384, 16384]⟩ .f32) (H : Fin 16384 → Fin 16 → EReal) (b : Fin 16 → EReal)
    (S : ℕ → Fin 1024 → Fin 16 → EReal) (a : ℕ → Fin 1024 → Fin 2048 → EReal) (h : ℕ → Fin 2048 → Fin 16 → EReal)
    (ha : ∀ n, n < 128 → ∀ (p : Fin 1024) (d : Fin 2048) (r k : Fin 16384), r.val = 1024 * (n / 8) + p.val →
      k.val = 2048 * (n % 8) + d.val → a n p d = A (ix2 r k))
    (hh : ∀ n, n < 128 → ∀ (d : Fin 2048) (f : Fin 16) (k : Fin 16384), k.val = 2048 * (n % 8) + d.val → h n d f = H k f)
    (h0 : ∀ n, n < 128 → n % 8 = 0 → ∀ (p : Fin 1024) (f : Fin 16), S n p f = 0 + ∑ d : Fin 2048, a n p d * h n d f)
    (hs : ∀ n, n < 128 → n % 8 ≠ 0 → ∀ (p : Fin 1024) (f : Fin 16),
      S n p f = S (n - 1) p f + ∑ d : Fin 2048, a n p d * h n d f)
    (n : ℕ) (hn : n < 128) (h7 : n % 8 = 7) (p : Fin 1024) (f : Fin 16) (r : Fin 16384)
    (hr : r.val = 1024 * (n / 8) + p.val) : S n p f + b f = Cert.Gcn.step A H b r f := by
  rw [scratch_closed A H S a h ha hh h0 hs n hn p f r hr, h7]
  exact part_eight_step A H b r f

/-! ## The two kernels' accumulators and output blocks

The same statements for the blocks as the kernels hold them: S n, a n, h n are [1024, 16], [1024, 2048], [2048, 16]
blocks, the accumulator's recurrence is written with the kernels' fill and accumulation values, and the output block at
the last column block of a row of blocks is the kernel's finish applied to the accumulator and the [1, 16] bias row. -/

open Cert.KernelIdeal Cert.KernelIdeal.Gen

/-- First kernel: the accumulator after each point, entry by entry, is the sum of the blocks visited so far in the
    point's row of blocks. -/
theorem k0_scratch_closed (A : FVec Ideal ⟨2, ![16384, 16384]⟩ .f32) (H : Fin 16384 → Fin 16 → EReal)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k0_pay2 (F := Ideal) (a n) (h n) (k0_pay1 (F := Ideal)))
    (hs : ∀ n, n < 128 → n % 8 ≠ 0 → S n = k0_pay2 (F := Ideal) (a n) (h n) (S (n - 1)))
    (n : ℕ) (hn : n < 128) (p : Fin 1024) (f : Fin 16) (r : Fin 16384)
    (hr : r.val = 1024 * (n / 8) + p.val) : S n (ix2 p f) = part (term A H r f) (n % 8 + 1) :=
  scratch_closed A H (fun n p f => S n (ix2 p f)) (fun n p d => a n (ix2 p d)) (fun n d f => h n (ix2 d f)) ha hh
    (fun n hn hm p f => by
      show S n (ix2 p f) = _
      rw [h0 n hn hm, k0_pay2_apply, k0_pay1_apply])
    (fun n hn hm p f => by
      show S n (ix2 p f) = _
      rw [hs n hn hm, k0_pay2_apply])
    n hn p f r hr

/-- First kernel: the accumulator plus the bias at the last column block of a row of blocks is the propagation step. -/
theorem k0_scratch_last (A : FVec Ideal ⟨2, ![16384, 16384]⟩ .f32) (H : Fin 16384 → Fin 16 → EReal) (b : Fin 16 → EReal)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k0_pay2 (F := Ideal) (a n) (h n) (k0_pay1 (F := Ideal)))
    (hs : ∀ n, n < 128 → n % 8 ≠ 0 → S n = k0_pay2 (F := Ideal) (a n) (h n) (S (n - 1)))
    (n : ℕ) (hn : n < 128) (h7 : n % 8 = 7) (p : Fin 1024) (f : Fin 16) (r : Fin 16384)
    (hr : r.val = 1024 * (n / 8) + p.val) : S n (ix2 p f) + b f = Cert.Gcn.step A H b r f :=
  scratch_last A H b (fun n p f => S n (ix2 p f)) (fun n p d => a n (ix2 p d)) (fun n d f => h n (ix2 d f)) ha hh
    (fun n hn hm p f => by
      show S n (ix2 p f) = _
      rw [h0 n hn hm, k0_pay2_apply, k0_pay1_apply])
    (fun n hn hm p f => by
      show S n (ix2 p f) = _
      rw [hs n hn hm, k0_pay2_apply])
    n hn h7 p f r hr

/-- First kernel: its output block at the last column block of a row of blocks is the first layer's entries. -/
theorem k0_block (A : FVec Ideal ⟨2, ![16384, 16384]⟩ .f32) (H : Fin 16384 → Fin 16 → EReal)
    (bias : FVec Ideal S1x16 .f32)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k0_pay2 (F := Ideal) (a n) (h n) (k0_pay1 (F := Ideal)))
    (hs : ∀ n, n < 128 → n % 8 ≠ 0 → S n = k0_pay2 (F := Ideal) (a n) (h n) (S (n - 1)))
    (n : ℕ) (hn : n < 128) (h7 : n % 8 = 7) (p : Fin 1024) (f : Fin 16) (r : Fin 16384)
    (hr : r.val = 1024 * (n / 8) + p.val) :
    k0_pay3 (F := Ideal) (S n) bias (ix2 p f)
      = max (Cert.Gcn.step A H (fun q => bias (ix2 (0 : Fin 1) q)) r f) 0 := by
  rw [k0_pay3_apply]
  exact congrArg (max · 0)
    (k0_scratch_last A H (fun q => bias (ix2 (0 : Fin 1) q)) S a h ha hh h0 hs n hn h7 p f r hr)

/-- Second kernel: the accumulator after each point, entry by entry, is the sum of the blocks visited so far in the
    point's row of blocks. -/
theorem k1_scratch_closed (A : FVec Ideal ⟨2, ![16384, 16384]⟩ .f32) (H : Fin 16384 → Fin 16 → EReal)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k1_pay2 (F := Ideal) (a n) (h n) (k1_pay1 (F := Ideal)))
    (hs : ∀ n, n < 128 → n % 8 ≠ 0 → S n = k1_pay2 (F := Ideal) (a n) (h n) (S (n - 1)))
    (n : ℕ) (hn : n < 128) (p : Fin 1024) (f : Fin 16) (r : Fin 16384)
    (hr : r.val = 1024 * (n / 8) + p.val) : S n (ix2 p f) = part (term A H r f) (n % 8 + 1) :=
  scratch_closed A H (fun n p f => S n (ix2 p f)) (fun n p d => a n (ix2 p d)) (fun n d f => h n (ix2 d f)) ha hh
    (fun n hn hm p f => by
      show S n (ix2 p f) = _
      rw [h0 n hn hm, k1_pay2_apply, k1_pay1_apply])
    (fun n hn hm p f => by
      show S n (ix2 p f) = _
      rw [hs n hn hm, k1_pay2_apply])
    n hn p f r hr

/-- Second kernel: the accumulator plus the bias at the last column block of a row of blocks is the propagation step. -/
theorem k1_scratch_last (A : FVec Ideal ⟨2, ![16384, 16384]⟩ .f32) (H : Fin 16384 → Fin 16 → EReal) (b : Fin 16 → EReal)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k1_pay2 (F := Ideal) (a n) (h n) (k1_pay1 (F := Ideal)))
    (hs : ∀ n, n < 128 → n % 8 ≠ 0 → S n = k1_pay2 (F := Ideal) (a n) (h n) (S (n - 1)))
    (n : ℕ) (hn : n < 128) (h7 : n % 8 = 7) (p : Fin 1024) (f : Fin 16) (r : Fin 16384)
    (hr : r.val = 1024 * (n / 8) + p.val) : S n (ix2 p f) + b f = Cert.Gcn.step A H b r f :=
  scratch_last A H b (fun n p f => S n (ix2 p f)) (fun n p d => a n (ix2 p d)) (fun n d f => h n (ix2 d f)) ha hh
    (fun n hn hm p f => by
      show S n (ix2 p f) = _
      rw [h0 n hn hm, k1_pay2_apply, k1_pay1_apply])
    (fun n hn hm p f => by
      show S n (ix2 p f) = _
      rw [hs n hn hm, k1_pay2_apply])
    n hn h7 p f r hr

/-- Second kernel: its output block at the last column block of a row of blocks is the row softmax of the
    propagation step. -/
theorem k1_block (A : FVec Ideal ⟨2, ![16384, 16384]⟩ .f32) (H : Fin 16384 → Fin 16 → EReal)
    (bias : FVec Ideal S1x16 .f32)
    (S : ℕ → FVec Ideal S1024x16 .f32) (a : ℕ → FVec Ideal S1024x2048 .f32) (h : ℕ → FVec Ideal S2048x16 .f32)
    (ha : ∀ n, n < 128 → ∀ (p : Fin 1024) (d : Fin 2048) (r k : Fin 16384), r.val = 1024 * (n / 8) + p.val →
      k.val = 2048 * (n % 8) + d.val → a n (ix2 p d) = A (ix2 r k))
    (hh : ∀ n, n < 128 → ∀ (d : Fin 2048) (f : Fin 16) (k : Fin 16384), k.val = 2048 * (n % 8) + d.val →
      h n (ix2 d f) = H k f)
    (h0 : ∀ n, n < 128 → n % 8 = 0 → S n = k1_pay2 (F := Ideal) (a n) (h n) (k1_pay1 (F := Ideal)))
    (hs : ∀ n, n < 128 → n % 8 ≠ 0 → S n = k1_pay2 (F := Ideal) (a n) (h n) (S (n - 1)))
    (n : ℕ) (hn : n < 128) (h7 : n % 8 = 7) (p : Fin 1024) (f : Fin 16) (r : Fin 16384)
    (hr : r.val = 1024 * (n / 8) + p.val) :
    k1_pay3 (F := Ideal) (S n) bias (ix2 p f)
      = Cert.DenseRows.softmax (fun q => Cert.Gcn.step A H (fun q => bias (ix2 (0 : Fin 1) q)) r q) f := by
  rw [k1_pay3_apply]
  exact congrArg (fun l => Cert.DenseRows.softmax l f) (funext fun q =>
    k1_scratch_last A H (fun q => bias (ix2 (0 : Fin 1) q)) S a h ha hh h0 hs n hn h7 p q r hr)

end Cert.KernelIdeal.Pay

end
-- ==== Proof.KI.Value0.lean ====
/-
  Propagation step 1 read as values: what its result array holds after the step.

  Each kind of grid point leaves in the accumulator the accumulation value of the point's two blocks and of what the
  accumulator held (zero at the first point of a row of blocks), and the last point of a row of blocks leaves in the
  result window the finish of that accumulator with the bias row. Read at the extended reals, the accumulator after
  point t holds at (p, f) the sum of the first t % 8 + 1 blocks of the terms A (r, k) · h (k, f) of row
  r = 1024 (t / 8) + p; at t % 8 = 7 that is the whole inner product, so the block written back there is the block of
  rows 1024 (t / 8) … 1024 (t / 8) + 1023 of max (A h + b) 0. The sixteen blocks written back tile the [16384, 16] result
  array: row r is in the block of the last point of row block r / 1024.
-/
import proofs.«141868_j58643483459879_1_alg».proof.Proof.KI.Step0
import proofs.«141868_j58643483459879_1_alg».proof.Proof.KI.Reads0
import proofs.«141868_j58643483459879_1_alg».proof.Proof.KernelPayloads
import proofs.«141868_j58643483459879_1_alg».proof.Proof.RowAccumulation
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr Cert.KernelIdeal.Pay

/-! ## What each kind of point leaves, as the body's values -/

section Pieces
variable {F : FTy → Type} [FloatOps F]

theorem zeros0 : (![0, 0] : Fin 2 → Nat) = fun _ => 0 := funext fun a => by fin_cases a <;> rfl

/-- The first point of a row of blocks leaves in the accumulator zero plus the product of its two blocks. -/
theorem acc0_A_eq (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst0 i) (hc1 : ¬isLast0 i)
    (x0 : Vec F S1024x2048 .f32) (x1 : Vec F S2048x16 .f32) :
    acc0_A c i arg2 harg2 arg3 harg3 arg4 harg4 arg5 harg5 arg6 harg6 hc0 hc1 x0 x1 = k0_pay2 x0 x1 (k0_pay1 (F := F)) := by
  unfold acc0_A
  rw [View.read_writes_junk_eq_canon]
  unfold run0_A
  dsimp only
  sl_unfold_words
  rw [View.canon_cons_unit_zero (S := S1024x16) zeros0, View.readCov_unit_zero (S := S1024x16) _ zeros0]
  simp only [View.readAt_eq_ld, harg2.read_unread, harg3.read_unread, View.ld_unit_zero (S := S1024x2048) zeros0,
    View.ld_unit_zero (S := S2048x16) zeros0]

/-- An inner point leaves in the accumulator what it held plus the product of the point's two blocks. -/
theorem acc0_B_eq (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : ¬isLast0 i)
    (x0 : Vec F S1024x2048 .f32) (x1 : Vec F S2048x16 .f32) (xs : Vec F S1024x16 .f32) :
    acc0_B c i arg2 harg2 arg3 harg3 arg4 harg4 arg5 harg5 arg6 harg6 hc0 hc1 x0 x1 xs = k0_pay2 x0 x1 xs := by
  unfold acc0_B
  rw [View.read_writes_junk_eq_canon]
  unfold run0_B
  dsimp only
  sl_unfold_words
  rw [View.canon_unit_zero (S := S1024x16) zeros0]
  simp only [View.readAt_eq_ld, harg2.read_unread, harg3.read_unread, harg6.read_unread,
    View.ld_unit_zero (S := S1024x2048) zeros0, View.ld_unit_zero (S := S2048x16) zeros0,
    View.ld_unit_zero (S := S1024x16) zeros0]

/-- The last point of a row of blocks leaves in the accumulator what it held plus the product of the point's two blocks, -/
theorem acc0_C_eq (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) :
    acc0_C c i arg2 harg2 arg3 harg3 arg4 harg4 arg5 harg5 arg6 harg6 hc0 hc1 x0 x1 x2 xs = k0_pay2 x0 x1 xs := by
  unfold acc0_C
  rw [View.read_writes_junk_eq_canon]
  unfold run0_C
  dsimp only
  sl_unfold_words
  rw [View.canon_unit_zero (S := S1024x16) zeros0]
  simp only [View.readAt_eq_ld, harg2.read_unread, harg3.read_unread, harg6.read_unread,
    View.ld_unit_zero (S := S1024x2048) zeros0, View.ld_unit_zero (S := S2048x16) zeros0,
    View.ld_unit_zero (S := S1024x16) zeros0]

/-- and in the result window the finish of that accumulator with the bias row. -/
theorem res0_C_eq (c : Dev nD) (i : grid0.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst0 i) (hc1 : isLast0 i)
    (x0 : Vec F S1024x2048 .f32) (x1 : Vec F S2048x16 .f32) (x2 : Vec F S1x16 .f32) (xs : Vec F S1024x16 .f32) :
    res0_C c i arg2 harg2 arg3 harg3 arg4 harg4 arg5 harg5 arg6 harg6 hc0 hc1 x0 x1 x2 xs = k0_pay3 (k0_pay2 x0 x1 xs) x2 := by
  unfold res0_C
  rw [View.read_writes_junk_eq_canon]
  unfold run0_C
  dsimp only
  sl_unfold_words
  rw [View.canon_unit_zero (S := S1024x16) zeros0, View.readCov_unit_zero (S := S1024x16) _ zeros0]
  simp only [View.readAt_eq_ld, harg2.read_unread, harg3.read_unread, harg4.read_unread, harg6.read_unread,
    View.ld_unit_zero (S := S1024x2048) zeros0, View.ld_unit_zero (S := S2048x16) zeros0,
    View.ld_unit_zero (S := S1x16) zeros0, View.ld_unit_zero (S := S1024x16) zeros0]

end Pieces

/-! ## The accumulator and the result window after each point, on the extended reals -/

section Values
variable (V : (c : Dev nD) → (b : Ref sig .tc) → Buf (Elt Ideal) ((c : Thread nD τ).loc b))

theorem N0 : cfg0.N = 128 := N_0

/-- The accumulator after position n of the grid (anything past the grid). -/
def accN0 (c : Dev nD) (n : ℕ) : FVec Ideal S1024x16 .f32 :=
  if hn : n < cfg0.N then accAt0 V c n hn else fun _ => 0
/-- The matrix's block at position n of the grid (anything past the grid). -/
def aN0 (c : Dev nD) (n : ℕ) : FVec Ideal S1024x2048 .f32 :=
  if hn : n < cfg0.N then iblk0 V c 0 ⟨n, hn⟩ else fun _ => 0
/-- The table's block at position n of the grid (anything past the grid). -/
def hN0 (c : Dev nD) (n : ℕ) : FVec Ideal S2048x16 .f32 :=
  if hn : n < cfg0.N then iblk0 V c 1 ⟨n, hn⟩ else fun _ => 0

theorem aN0_apply (c : Dev nD) (n : ℕ) (hn : n < 128) (p : Fin 1024) (d : Fin 2048) (r k : Fin 16384)
    (hr : r.val = 1024 * (n / 8) + p.val) (hk : k.val = 2048 * (n % 8) + d.val) :
    aN0 V c n (ix2 p d) = (V c main_arg1 : FVec Ideal S16384x16384 .f32) (ix2 r k) := by
  have hn' : n < cfg0.N := lt_of_lt_of_eq hn N0.symm
  unfold aN0
  rw [dif_pos hn']
  exact iblk0_0_apply V c ⟨n, hn'⟩ p d r k hr hk

theorem hN0_apply (c : Dev nD) (n : ℕ) (hn : n < 128) (d : Fin 2048) (f : Fin 16) (k : Fin 16384)
    (hk : k.val = 2048 * (n % 8) + d.val) :
    hN0 V c n (ix2 d f) = (V c main_v0 : FVec Ideal S16384x16 .f32) (ix2 k f) := by
  have hn' : n < cfg0.N := lt_of_lt_of_eq hn N0.symm
  unfold hN0
  rw [dif_pos hn']
  exact iblk0_1_apply V c ⟨n, hn'⟩ d f k hk

/-- At the first point of a row of blocks the accumulator is started from zero. -/
theorem accN0_first (c : Dev nD) (n : ℕ) (hn : n < 128) (h0 : n % 8 = 0) :
    accN0 V c n = k0_pay2 (F := Ideal) (aN0 V c n) (hN0 V c n) (k0_pay1 (F := Ideal)) := by
  have hn' : n < cfg0.N := lt_of_lt_of_eq hn N0.symm
  have h1 : ¬n % 8 = 7 := by omega
  unfold accN0 aN0 hN0
  rw [dif_pos hn', dif_pos hn', dif_pos hn']
  exact (accAt0_first V c ⟨n, hn'⟩ h0 h1).trans (acc0_A_eq ..)

/-- At every other point it is what the point before left plus the product of the point's blocks. -/
theorem accN0_step (c : Dev nD) (n : ℕ) (hn : n < 128) (h0 : n % 8 ≠ 0) :
    accN0 V c n = k0_pay2 (F := Ideal) (aN0 V c n) (hN0 V c n) (accN0 V c (n - 1)) := by
  have hn' : n < cfg0.N := lt_of_lt_of_eq hn N0.symm
  have hp : n - 1 < cfg0.N := Nat.lt_of_le_of_lt (Nat.sub_le _ _) hn'
  unfold accN0 aN0 hN0
  rw [dif_pos hn', dif_pos hn', dif_pos hn', dif_pos hp]
  by_cases h1 : n % 8 = 7
  · exact (accAt0_last V c ⟨n, hn'⟩ h0 h1).trans (acc0_C_eq ..)
  · exact (accAt0_inner V c ⟨n, hn'⟩ h0 h1).trans (acc0_B_eq ..)

/-- The accumulator after point t at (p, f): the sum of the blocks of row r = 1024 (t / 8) + p visited so far. -/
theorem accAt0_apply (c : Dev nD) (t : Fin cfg0.N) (p : Fin 1024) (f : Fin 16) (r : Fin 16384)
    (hr : r.val = 1024 * (t.val / 8) + p.val) :
    accAt0 V c t.val t.isLt (ix2 p f)
      = part (term (V c main_arg1 : FVec Ideal S16384x16384 .f32)
          (fun k q => (V c main_v0 : FVec Ideal S16384x16 .f32) (ix2 k q)) r f) (t.val % 8 + 1) := by
  have hn : t.val < 128 := lt_of_lt_of_eq t.isLt N0
  have e := k0_scratch_closed (V c main_arg1 : FVec Ideal S16384x16384 .f32)
    (fun k q => (V c main_v0 : FVec Ideal S16384x16 .f32) (ix2 k q)) (accN0 V c) (aN0 V c) (hN0 V c)
    (fun n hn p d r k hr hk => aN0_apply V c n hn p d r k hr hk)
    (fun n hn d f k hk => hN0_apply V c n hn d f k hk)
    (fun n hn h0 => accN0_first V c n hn h0) (fun n hn h0 => accN0_step V c n hn h0) t.val hn p f r hr
  rw [← e]
  unfold accN0
  rw [dif_pos t.isLt]

/-- The result window after the last point t of a row of blocks at (p, f): entry (r, f) of max (A h + b) 0,
    r = 1024 (t / 8) + p. -/
theorem resAt0_apply (c : Dev nD) (t : Fin cfg0.N) (h7 : t.val % 8 = 7) (p : Fin 1024) (f : Fin 16) (r : Fin 16384)
    (hr : r.val = 1024 * (t.val / 8) + p.val) :
    resAt0 V c t (ix2 p f)
      = max (Cert.Gcn.step (V c main_arg1 : FVec Ideal S16384x16384 .f32)
          (fun k q => (V c main_v0 : FVec Ideal S16384x16 .f32) (ix2 k q))
          (fun q => (V c main_v1 : FVec Ideal S1x16 .f32) (ix2 (0 : Fin 1) q)) r f) 0 := by
  have hn : t.val < 128 := lt_of_lt_of_eq t.isLt N0
  have h0 : ¬t.val % 8 = 0 := by omega
  have hp : t.val - 1 < cfg0.N := Nat.lt_of_le_of_lt (Nat.sub_le _ _) t.isLt
  have eS : accN0 V c t.val = k0_pay2 (F := Ideal) (iblk0 V c 0 t) (iblk0 V c 1 t) (accAt0 V c (t.val - 1) hp) := by
    unfold accN0
    rw [dif_pos t.isLt]
    exact (accAt0_last V c t h0 h7).trans (acc0_C_eq ..)
  rw [resAt0_last V c t h0 h7, res0_C_eq, ← eS]
  have e := k0_block (V c main_arg1 : FVec Ideal S16384x16384 .f32)
    (fun k q => (V c main_v0 : FVec Ideal S16384x16 .f32) (ix2 k q)) (iblk0 V c 2 t) (accN0 V c) (aN0 V c) (hN0 V c)
    (fun n hn p d r k hr hk => aN0_apply V c n hn p d r k hr hk)
    (fun n hn d f k hk => hN0_apply V c n hn d f k hk)
    (fun n hn h0 => accN0_first V c n hn h0) (fun n hn h0 => accN0_step V c n hn h0) t.val hn h7 p f r hr
  refine e.trans ?_
  refine congrArg (fun b => max (Cert.Gcn.step _ _ b r f) 0) (funext fun q => ?_)
  exact iblk0_2_apply V c t q

/-! ## The result array after the step -/

/-- Entry (r, f) of max (A h + b) 0, as contents of the result array. -/
def layer0 (c : Dev nD) : FVec Ideal S16384x16 .f32 := fun i =>
  max (Cert.Gcn.step (V c main_arg1 : FVec Ideal S16384x16384 .f32)
    (fun k q => (V c main_v0 : FVec Ideal S16384x16 .f32) (ix2 k q))
    (fun q => (V c main_v1 : FVec Ideal S1x16 .f32) (ix2 (0 : Fin 1) q)) (i 0) (i 1)) 0

/-- An index of the result array is in point t's block iff each coordinate is in the block's range on its axis. -/
theorem mem_blk0_3 (t : Fin cfg0.N) (i : S16384x16.Idx) :
    i ∈ ((cfg0.win 3).blk t).view.set ↔ ∀ a : Fin 2, win0_3.index t a * S1024x16.size a ≤ (i a).val
      ∧ (i a).val < win0_3.index t a * S1024x16.size a + S1024x16.size a := by
  show i ∈ ((View.whole main_v2).slice (win0_3.rect t)).set ↔ _
  rw [View.set_slice_whole, Rect.mem_set_unit]
  exact Iff.rfl

/-- What a point that writes back writes is its block of max (A h + b) 0. -/
theorem flushed0_3 (c : Dev nD) (t : Fin cfg0.N) (hf : (cfg0.win 3).flush t = true) :
    (dat0 V c).flushed 3 t = ((cfg0.win 3).blk t).view.read (Elt Ideal) (layer0 V c) := by
  have h7 : t.val % 8 = 7 := (flush0_3 t).mp hf
  have hn : t.val < 128 := lt_of_lt_of_eq t.isLt N0
  obtain ⟨-, -, -, -, -, -, e0, e1⟩ := index0 t
  show (cfg0.win 3).cut (grid0.coords t) ((dat0 V c).after 3 t) = _
  rw [after0_3]
  funext y
  obtain ⟨p, f, rfl⟩ : ∃ (p : Fin 1024) (f : Fin 16), y = ix2 p f := ⟨y 0, y 1, eq_ix2 y⟩
  rw [View.read_apply]
  show resAt0 V c t (ix2 p f) = layer0 V c (((cfg0.win 3).blk t).view.emb (ix2 p f))
  have hp := p.isLt
  rw [resAt0_apply V c t h7 p f ⟨1024 * (t.val / 8) + p.val, by omega⟩ rfl]
  unfold layer0
  have ei : ((cfg0.win 3).blk t).view.emb (ix2 p f) = (ix2 (⟨1024 * (t.val / 8) + p.val, by omega⟩ : Fin 16384) f : S16384x16.Idx) := by
    funext a
    apply Fin.ext
    match a with
    | ⟨0, _⟩ => show win0_3.index t (0 : Fin 2) * 1024 + 1 * p.val = 1024 * (t.val / 8) + p.val; rw [e0]; omega
    | ⟨1, _⟩ => show win0_3.index t (1 : Fin 2) * 16 + 1 * f.val = f.val; rw [e1]; omega
  rw [ei]

/-- Every row of the result array is in the block of the last point of its row of blocks. -/
theorem cover0_3 (i : S16384x16.Idx) :
    ∃ t : Fin cfg0.N, (cfg0.win 3).flush t = true ∧ i ∈ ((cfg0.win 3).blk t).view.set := by
  have h0 : (i 0).val < 16384 := (i 0).isLt
  have h1 : (i 1).val < 16 := (i 1).isLt
  have hN : cfg0.N = 128 := N0
  let t : Fin cfg0.N := ⟨8 * ((i 0).val / 1024) + 7, by omega⟩
  have ht : t.val = 8 * ((i 0).val / 1024) + 7 := rfl
  obtain ⟨-, -, -, -, -, -, e0, e1⟩ := index0 t
  refine ⟨t, (flush0_3 t).mpr (by omega), ?_⟩
  rw [mem_blk0_3]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 16 ≤ (i 1).val ∧ (i 1).val < win0_3.index t (1 : Fin 2) * 16 + 16
    rw [e1]; omega

/-- The result array after the step holds max (A h + b) 0. -/
theorem final0_3 (c : Dev nD) : (dat0 V c).arrAt 3 cfg0.N = layer0 V c :=
  (dat0 V c).arrAt_eq_of_cover 3 (layer0 V c) (fun t hf => flushed0_3 V c t hf) cover0_3

/-- The result array after the step, entry by entry: the first layer of the specification over the arrays the step is
    entered with. -/
theorem step1_array (c : Dev nD) (r : Fin 16384) (f : Fin 16) :
    (dat0 V c).arrAt 3 cfg0.N (ix2 r f)
      = max (Cert.Gcn.step (V c main_arg1) (fun k q => V c main_v0 (ix2 k q)) (fun q => V c main_v1 (ix2 0 q)) r f) 0 :=
  congrFun (final0_3 V c) (ix2 r f)

end Values

end Cert.KernelIdeal.Val

end
-- ==== Proof.KI.Reads1.lean ====
/-
  The blocks of propagation step 2 read at an index.

  At grid point t (row block t / 8, column block t % 8) the block of the adjacency matrix holds at (p, d) the matrix's
  entry (1024 (t / 8) + p, 2048 (t % 8) + d); the block of the table holds at (d, f) the table's entry
  (2048 (t % 8) + d, f); the bias block is the whole [1, 16] bias row. An entry of a block sits in its array, on each
  axis, at the block's index times the block's size plus the entry's own coordinate.
-/
import proofs.«141868_j58643483459879_1_alg».proof.Proof.KI.Points
import Idealize.ShloMosaic.Lib.ValueIdx
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL.Sem
open Cert.KernelIdeal Cert.KernelIdeal.Gen Cert.KernelIdeal.Fr

variable {F : FTy → Type} [FloatOps F]
variable (V : (c : Dev nD) → (b : Ref sig .tc) → Buf (Elt F) ((c : Thread nD τ).loc b))

/-- The block indices of the four windows at point t: the matrix's block is (t / 8, t % 8), the table's (t % 8, 0), the
    bias row's (0, 0), the result's (t / 8, 0). -/
theorem index1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The matrix's block at point t, at (p, d). -/
theorem iblk1_0_apply (c : Dev nD) (t : Fin cfg1.N) (p : Fin 1024) (d : Fin 2048) (r k : Fin 16384)
    (hr : r.val = 1024 * (t.val / 8) + p.val) (hk : k.val = 2048 * (t.val % 8) + d.val) :
    iblk1 V c 0 t (ix2 p d) = (V c main_arg1 : FVec F S16384x16384 .f32) (ix2 r k) := by
  obtain ⟨e0, e1, -⟩ := index1 t
  unfold iblk1
  rw [View.read_apply]
  show V c main_arg1 _ = V c main_arg1 _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 2048 + 1 * d.val = k.val; rw [e1, hk]; omega

/-- The table's block at point t, at (d, f). -/
theorem iblk1_1_apply (c : Dev nD) (t : Fin cfg1.N) (d : Fin 2048) (f : Fin 16) (k : Fin 16384)
    (hk : k.val = 2048 * (t.val % 8) + d.val) :
    iblk1 V c 1 t (ix2 d f) = (V c main_v3 : FVec F S16384x16 .f32) (ix2 k f) := by
  obtain ⟨-, -, e0, e1, -⟩ := index1 t
  unfold iblk1
  rw [View.read_apply]
  show V c main_v3 _ = V c main_v3 _
  congr 1
  funext a
  apply Fin.ext
  match a with
  | ⟨0, _⟩ => show win1_1.index t (0 : Fin 2) * 2048 + 1 * d.val = k.val; rw [e0, hk]; omega
  | ⟨1, _⟩ => show win1_1.index t (1 : Fin 2) * 16 + 1 * f.val = f.val; rw [e1]; omega

/-- The bias block at point t is the bias row. -/
theorem iblk1_2_apply (c : Dev nD) (t : Fin cfg1.N) (f : Fin 16) :
    iblk1 V c 2 t (ix2 (0 : Fin 1) f) = (V c main_v4 : FVec F S1x16 .f32) (ix2 (0 : Fin 1) f) := by
  obtain ⟨-, -, -, -, e0, e1, -⟩ := index1 t
  unfold iblk1
  rw [View.read_apply]
  show V c main_v4 _ = V c main_v4 _
  congr 1
  funext a
  apply Fin.ext
  match a with
  | ⟨0, _⟩ => show win1_2.index t (0 : Fin 2) * 1 + 1 * 0 = 0; rw [e0]
  | ⟨1, _⟩ => show win1_2.index t (1 : Fin 2) * 16 + 1 * f.val = f.val; rw [e1]; omega

end Cert.KernelIdeal.Val

end
-- ==== Proof.KI.Value1.lean ====
/-
  Propagation step 2 read as values: what its result array holds after the step.

  Each kind of grid point leaves in the accumulator the accumulation value of the point's two blocks and of what the
  accumulator held (zero at the first point of a row of blocks), and the last point of a row of blocks leaves in the
  result window the finish of that accumulator with the bias row. Read at the extended reals, the accumulator after
  point t holds at (p, f) the sum of the first t % 8 + 1 blocks of the terms A (r, k) · h (k, f) of row
  r = 1024 (t / 8) + p; at t % 8 = 7 that is the whole inner product, so the block written back there is the block of
  rows 1024 (t / 8) … 1024 (t / 8) + 1023 of the row softmax of A h + b. The sixteen blocks written back tile the [16384, 16] result
  array: row r is in the block of the last point of row block r / 1024.
-/
import proofs.«141868_j58643483459879_1_alg».proof.Proof.KI.Step1
import proofs.«141868_j58643483459879_1_alg».proof.Proof.KI.Reads1
import proofs.«141868_j58643483459879_1_alg».proof.Proof.KernelPayloads
import proofs.«141868_j58643483459879_1_alg».proof.Proof.RowAccumulation
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr Cert.KernelIdeal.Pay

/-! ## What each kind of point leaves, as the body's values -/

section Pieces
variable {F : FTy → Type} [FloatOps F]

theorem zeros1 : (![0, 0] : Fin 2 → Nat) = fun _ => 0 := funext fun a => by fin_cases a <;> rfl

/-- The first point of a row of blocks leaves in the accumulator zero plus the product of its two blocks. -/
theorem acc1_A_eq (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : isFirst1 i) (hc1 : ¬isLast1 i)
    (x0 : Vec F S1024x2048 .f32) (x1 : Vec F S2048x16 .f32) :
    acc1_A c i arg2 harg2 arg3 harg3 arg4 harg4 arg5 harg5 arg6 harg6 hc0 hc1 x0 x1 = k1_pay2 x0 x1 (k1_pay1 (F := F)) := by
  unfold acc1_A
  rw [View.read_writes_junk_eq_canon]
  unfold run1_A
  dsimp only
  sl_unfold_words
  rw [View.canon_cons_unit_zero (S := S1024x16) zeros1, View.readCov_unit_zero (S := S1024x16) _ zeros1]
  simp only [View.readAt_eq_ld, harg2.read_unread, harg3.read_unread, View.ld_unit_zero (S := S1024x2048) zeros1,
    View.ld_unit_zero (S := S2048x16) zeros1]

/-- An inner point leaves in the accumulator what it held plus the product of the point's two blocks. -/
theorem acc1_B_eq (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : ¬isLast1 i)
    (x0 : Vec F S1024x2048 .f32) (x1 : Vec F S2048x16 .f32) (xs : Vec F S1024x16 .f32) :
    acc1_B c i arg2 harg2 arg3 harg3 arg4 harg4 arg5 harg5 arg6 harg6 hc0 hc1 x0 x1 xs = k1_pay2 x0 x1 xs := by
  unfold acc1_B
  rw [View.read_writes_junk_eq_canon]
  unfold run1_B
  dsimp only
  sl_unfold_words
  rw [View.canon_unit_zero (S := S1024x16) zeros1]
  simp only [View.readAt_eq_ld, harg2.read_unread, harg3.read_unread, harg6.read_unread,
    View.ld_unit_zero (S := S1024x2048) zeros1, View.ld_unit_zero (S := S2048x16) zeros1,
    View.ld_unit_zero (S := S1024x16) zeros1]

/-- The last point of a row of blocks leaves in the accumulator what it held plus the product of the point's two blocks, -/
theorem acc1_C_eq (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) :
    acc1_C c i arg2 harg2 arg3 harg3 arg4 harg4 arg5 harg5 arg6 harg6 hc0 hc1 x0 x1 x2 xs = k1_pay2 x0 x1 xs := by
  unfold acc1_C
  rw [View.read_writes_junk_eq_canon]
  unfold run1_C
  dsimp only
  sl_unfold_words
  rw [View.canon_unit_zero (S := S1024x16) zeros1]
  simp only [View.readAt_eq_ld, harg2.read_unread, harg3.read_unread, harg6.read_unread,
    View.ld_unit_zero (S := S1024x2048) zeros1, View.ld_unit_zero (S := S2048x16) zeros1,
    View.ld_unit_zero (S := S1024x16) zeros1]

/-- and in the result window the finish of that accumulator with the bias row. -/
theorem res1_C_eq (c : Dev nD) (i : grid1.Coords) (arg2 : Memref sig .tc .vmem S1024x2048 .f32) (harg2 : arg2.IsWhole) (arg3 : Memref sig .tc .vmem S2048x16 .f32) (harg3 : arg3.IsWhole) (arg4 : Memref sig .tc .vmem S1x16 .f32) (harg4 : arg4.IsWhole) (arg5 : Memref sig .tc .vmem S1024x16 .f32) (harg5 : arg5.IsWhole) (arg6 : Memref sig .tc .vmem S1024x16 .f32) (harg6 : arg6.IsWhole) (hc0 : ¬isFirst1 i) (hc1 : isLast1 i)
    (x0 : Vec F S1024x2048 .f32) (x1 : Vec F S2048x16 .f32) (x2 : Vec F S1x16 .f32) (xs : Vec F S1024x16 .f32) :
    res1_C c i arg2 harg2 arg3 harg3 arg4 harg4 arg5 harg5 arg6 harg6 hc0 hc1 x0 x1 x2 xs = k1_pay3 (k1_pay2 x0 x1 xs) x2 := by
  unfold res1_C
  rw [View.read_writes_junk_eq_canon]
  unfold run1_C
  dsimp only
  sl_unfold_words
  rw [View.canon_unit_zero (S := S1024x16) zeros1, View.readCov_unit_zero (S := S1024x16) _ zeros1]
  simp only [View.readAt_eq_ld, harg2.read_unread, harg3.read_unread, harg4.read_unread, harg6.read_unread,
    View.ld_unit_zero (S := S1024x2048) zeros1, View.ld_unit_zero (S := S2048x16) zeros1,
    View.ld_unit_zero (S := S1x16) zeros1, View.ld_unit_zero (S := S1024x16) zeros1]

end Pieces

/-! ## The accumulator and the result window after each point, on the extended reals -/

section Values
variable (V : (c : Dev nD) → (b : Ref sig .tc) → Buf (Elt Ideal) ((c : Thread nD τ).loc b))

theorem N1 : cfg1.N = 128 := N_1

/-- The accumulator after position n of the grid (anything past the grid). -/
def accN1 (c : Dev nD) (n : ℕ) : FVec Ideal S1024x16 .f32 :=
  if hn : n < cfg1.N then accAt1 V c n hn else fun _ => 0
/-- The matrix's block at position n of the grid (anything past the grid). -/
def aN1 (c : Dev nD) (n : ℕ) : FVec Ideal S1024x2048 .f32 :=
  if hn : n < cfg1.N then iblk1 V c 0 ⟨n, hn⟩ else fun _ => 0
/-- The table's block at position n of the grid (anything past the grid). -/
def hN1 (c : Dev nD) (n : ℕ) : FVec Ideal S2048x16 .f32 :=
  if hn : n < cfg1.N then iblk1 V c 1 ⟨n, hn⟩ else fun _ => 0

theorem aN1_apply (c : Dev nD) (n : ℕ) (hn : n < 128) (p : Fin 1024) (d : Fin 2048) (r k : Fin 16384)
    (hr : r.val = 1024 * (n / 8) + p.val) (hk : k.val = 2048 * (n % 8) + d.val) :
    aN1 V c n (ix2 p d) = (V c main_arg1 : FVec Ideal S16384x16384 .f32) (ix2 r k) := by
  have hn' : n < cfg1.N := lt_of_lt_of_eq hn N1.symm
  unfold aN1
  rw [dif_pos hn']
  exact iblk1_0_apply V c ⟨n, hn'⟩ p d r k hr hk

theorem hN1_apply (c : Dev nD) (n : ℕ) (hn : n < 128) (d : Fin 2048) (f : Fin 16) (k : Fin 16384)
    (hk : k.val = 2048 * (n % 8) + d.val) :
    hN1 V c n (ix2 d f) = (V c main_v3 : FVec Ideal S16384x16 .f32) (ix2 k f) := by
  have hn' : n < cfg1.N := lt_of_lt_of_eq hn N1.symm
  unfold hN1
  rw [dif_pos hn']
  exact iblk1_1_apply V c ⟨n, hn'⟩ d f k hk

/-- At the first point of a row of blocks the accumulator is started from zero. -/
theorem accN1_first (c : Dev nD) (n : ℕ) (hn : n < 128) (h0 : n % 8 = 0) :
    accN1 V c n = k1_pay2 (F := Ideal) (aN1 V c n) (hN1 V c n) (k1_pay1 (F := Ideal)) := by
  have hn' : n < cfg1.N := lt_of_lt_of_eq hn N1.symm
  have h1 : ¬n % 8 = 7 := by omega
  unfold accN1 aN1 hN1
  rw [dif_pos hn', dif_pos hn', dif_pos hn']
  exact (accAt1_first V c ⟨n, hn'⟩ h0 h1).trans (acc1_A_eq ..)

/-- At every other point it is what the point before left plus the product of the point's blocks. -/
theorem accN1_step (c : Dev nD) (n : ℕ) (hn : n < 128) (h0 : n % 8 ≠ 0) :
    accN1 V c n = k1_pay2 (F := Ideal) (aN1 V c n) (hN1 V c n) (accN1 V c (n - 1)) := by
  have hn' : n < cfg1.N := lt_of_lt_of_eq hn N1.symm
  have hp : n - 1 < cfg1.N := Nat.lt_of_le_of_lt (Nat.sub_le _ _) hn'
  unfold accN1 aN1 hN1
  rw [dif_pos hn', dif_pos hn', dif_pos hn', dif_pos hp]
  by_cases h1 : n % 8 = 7
  · exact (accAt1_last V c ⟨n, hn'⟩ h0 h1).trans (acc1_C_eq ..)
  · exact (accAt1_inner V c ⟨n, hn'⟩ h0 h1).trans (acc1_B_eq ..)

/-- The accumulator after point t at (p, f): the sum of the blocks of row r = 1024 (t / 8) + p visited so far. -/
theorem accAt1_apply (c : Dev nD) (t : Fin cfg1.N) (p : Fin 1024) (f : Fin 16) (r : Fin 16384)
    (hr : r.val = 1024 * (t.val / 8) + p.val) :
    accAt1 V c t.val t.isLt (ix2 p f)
      = part (term (V c main_arg1 : FVec Ideal S16384x16384 .f32)
          (fun k q => (V c main_v3 : FVec Ideal S16384x16 .f32) (ix2 k q)) r f) (t.val % 8 + 1) := by
  have hn : t.val < 128 := lt_of_lt_of_eq t.isLt N1
  have e := k1_scratch_closed (V c main_arg1 : FVec Ideal S16384x16384 .f32)
    (fun k q => (V c main_v3 : FVec Ideal S16384x16 .f32) (ix2 k q)) (accN1 V c) (aN1 V c) (hN1 V c)
    (fun n hn p d r k hr hk => aN1_apply V c n hn p d r k hr hk)
    (fun n hn d f k hk => hN1_apply V c n hn d f k hk)
    (fun n hn h0 => accN1_first V c n hn h0) (fun n hn h0 => accN1_step V c n hn h0) t.val hn p f r hr
  rw [← e]
  unfold accN1
  rw [dif_pos t.isLt]

/-- The result window after the last point t of a row of blocks at (p, f): entry f of the softmax of row r of A h + b,
    r = 1024 (t / 8) + p. -/
theorem resAt1_apply (c : Dev nD) (t : Fin cfg1.N) (h7 : t.val % 8 = 7) (p : Fin 1024) (f : Fin 16) (r : Fin 16384)
    (hr : r.val = 1024 * (t.val / 8) + p.val) :
    resAt1 V c t (ix2 p f)
      = Cert.DenseRows.softmax (fun q => Cert.Gcn.step (V c main_arg1 : FVec Ideal S16384x16384 .f32)
          (fun k q => (V c main_v3 : FVec Ideal S16384x16 .f32) (ix2 k q))
          (fun q => (V c main_v4 : FVec Ideal S1x16 .f32) (ix2 (0 : Fin 1) q)) r q) f := by
  have hn : t.val < 128 := lt_of_lt_of_eq t.isLt N1
  have h0 : ¬t.val % 8 = 0 := by omega
  have hp : t.val - 1 < cfg1.N := Nat.lt_of_le_of_lt (Nat.sub_le _ _) t.isLt
  have eS : accN1 V c t.val = k1_pay2 (F := Ideal) (iblk1 V c 0 t) (iblk1 V c 1 t) (accAt1 V c (t.val - 1) hp) := by
    unfold accN1
    rw [dif_pos t.isLt]
    exact (accAt1_last V c t h0 h7).trans (acc1_C_eq ..)
  rw [resAt1_last V c t h0 h7, res1_C_eq, ← eS]
  have e := k1_block (V c main_arg1 : FVec Ideal S16384x16384 .f32)
    (fun k q => (V c main_v3 : FVec Ideal S16384x16 .f32) (ix2 k q)) (iblk1 V c 2 t) (accN1 V c) (aN1 V c) (hN1 V c)
    (fun n hn p d r k hr hk => aN1_apply V c n hn p d r k hr hk)
    (fun n hn d f k hk => hN1_apply V c n hn d f k hk)
    (fun n hn h0 => accN1_first V c n hn h0) (fun n hn h0 => accN1_step V c n hn h0) t.val hn h7 p f r hr
  refine e.trans ?_
  refine congrArg (fun b => Cert.DenseRows.softmax (fun q => Cert.Gcn.step _ _ b r q) f) (funext fun q => ?_)
  exact iblk1_2_apply V c t q

/-! ## The result array after the step -/

/-- Entry f of the softmax of row r of A h + b, as contents of the result array. -/
def layer1 (c : Dev nD) : FVec Ideal S16384x16 .f32 := fun i =>
  Cert.DenseRows.softmax (fun q => Cert.Gcn.step (V c main_arg1 : FVec Ideal S16384x16384 .f32)
    (fun k q => (V c main_v3 : FVec Ideal S16384x16 .f32) (ix2 k q))
    (fun q => (V c main_v4 : FVec Ideal S1x16 .f32) (ix2 (0 : Fin 1) q)) (i 0) q) (i 1)

/-- An index of the result array is in point t's block iff each coordinate is in the block's range on its axis. -/
theorem mem_blk1_3 (t : Fin cfg1.N) (i : S16384x16.Idx) :
    i ∈ ((cfg1.win 3).blk t).view.set ↔ ∀ a : Fin 2, win1_3.index t a * S1024x16.size a ≤ (i a).val
      ∧ (i a).val < win1_3.index t a * S1024x16.size a + S1024x16.size a := by
  show i ∈ ((View.whole main_v5).slice (win1_3.rect t)).set ↔ _
  rw [View.set_slice_whole, Rect.mem_set_unit]
  exact Iff.rfl

/-- What a point that writes back writes is its block of the row softmax of A h + b. -/
theorem flushed1_3 (c : Dev nD) (t : Fin cfg1.N) (hf : (cfg1.win 3).flush t = true) :
    (dat1 V c).flushed 3 t = ((cfg1.win 3).blk t).view.read (Elt Ideal) (layer1 V c) := by
  have h7 : t.val % 8 = 7 := (flush1_3 t).mp hf
  have hn : t.val < 128 := lt_of_lt_of_eq t.isLt N1
  obtain ⟨-, -, -, -, -, -, e0, e1⟩ := index1 t
  show (cfg1.win 3).cut (grid1.coords t) ((dat1 V c).after 3 t) = _
  rw [after1_3]
  funext y
  obtain ⟨p, f, rfl⟩ : ∃ (p : Fin 1024) (f : Fin 16), y = ix2 p f := ⟨y 0, y 1, eq_ix2 y⟩
  generalize hG : layer1 V c = G
  generalize hR : resAt1 V c t = R
  rw [View.read_apply]
  show R (ix2 p f) = G (((cfg1.win 3).blk t).view.emb (ix2 p f))
  subst hG hR
  have hp := p.isLt
  rw [resAt1_apply V c t h7 p f ⟨1024 * (t.val / 8) + p.val, by omega⟩ rfl]
  unfold layer1
  have ei : ((cfg1.win 3).blk t).view.emb (ix2 p f) = (ix2 (⟨1024 * (t.val / 8) + p.val, by omega⟩ : Fin 16384) f : S16384x16.Idx) := by
    funext a
    apply Fin.ext
    match a with
    | ⟨0, _⟩ => show win1_3.index t (0 : Fin 2) * 1024 + 1 * p.val = 1024 * (t.val / 8) + p.val; rw [e0]; omega
    | ⟨1, _⟩ => show win1_3.index t (1 : Fin 2) * 16 + 1 * f.val = f.val; rw [e1]; omega
  rw [ei]

/-- Every row of the result array is in the block of the last point of its row of blocks. -/
theorem cover1_3 (i : S16384x16.Idx) :
    ∃ t : Fin cfg1.N, (cfg1.win 3).flush t = true ∧ i ∈ ((cfg1.win 3).blk t).view.set := by
  have h0 : (i 0).val < 16384 := (i 0).isLt
  have h1 : (i 1).val < 16 := (i 1).isLt
  have hN : cfg1.N = 128 := N1
  let t : Fin cfg1.N := ⟨8 * ((i 0).val / 1024) + 7, by omega⟩
  have ht : t.val = 8 * ((i 0).val / 1024) + 7 := rfl
  obtain ⟨-, -, -, -, -, -, e0, e1⟩ := index1 t
  refine ⟨t, (flush1_3 t).mpr (by omega), ?_⟩
  rw [mem_blk1_3]
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 16 ≤ (i 1).val ∧ (i 1).val < win1_3.index t (1 : Fin 2) * 16 + 16
    rw [e1]; omega

/-- The result array after the step holds the row softmax of A h + b. -/
theorem final1_3 (c : Dev nD) : (dat1 V c).arrAt 3 cfg1.N = layer1 V c :=
  (dat1 V c).arrAt_eq_of_cover 3 (layer1 V c) (fun t hf => flushed1_3 V c t hf) cover1_3

/-- The result array after the step, entry by entry: the row softmax of the propagation step of the specification over
    the arrays the step is entered with. -/
theorem step2_array (c : Dev nD) (r : Fin 16384) (f : Fin 16) :
    (dat1 V c).arrAt 3 cfg1.N (ix2 r f)
      = Cert.DenseRows.softmax (fun q => Cert.Gcn.step (V c main_arg1) (fun k q => V c main_v3 (ix2 k q))
          (fun q => V c main_v4 (ix2 0 q)) r q) f :=
  congrFun (final1_3 V c) (ix2 r f)

end Values

end Cert.KernelIdeal.Val

end
-- ==== Proof.KI.Result.lean ====
/-
  The program's result array, entry by entry, from what its two propagation steps leave.

  Between the steps the program applies plain array operations: before the first step x W1 and the bias b1 recast to a
  row; between the steps h1 W2 and the bias b2 recast to a row; after the second step h2 Wd plus the bias bd spread over
  the rows. A product of two arrays holds at (r, f) the sum over the contracted index of the products of entries; a
  vector recast to a row [1, n] reads its entry q at (0, q); a bias placed on [1, 1] and spread over the rows reads its
  one entry everywhere. The adjacency matrix and the weights are never written, so every stage reads them as launched.
  Given that the first step leaves max (A h0 + b1) 0 of the arrays it is entered with, and the second the row softmax of
  A g + b2 of those it is entered with, the result array is the function `Cert.Gcn.outArr` of the eight argument arrays:
  at every entry both sides are the same tree of sums, products, maxima and quotients.
-/
import proofs.«141868_j58643483459879_1_alg».proof.Proof.KI.Fold
import proofs.«141868_j58643483459879_1_alg».proof.Proof.GcnSpec
import proofs.«141868_j58643483459879_1_alg».proof.Proof.LibInnerProducts
import proofs.«141868_j58643483459879_1_alg».proof.Proof.LibDenseRows
import Idealize.ShloMosaic.Lib.ValueLayout
import Idealize.ShloMosaic.Lib.StableHlo.Run

noncomputable section

namespace Cert.KernelIdeal.Val

open Idealize.ShloMosaic Idealize.ShloMosaic.TcCoe Idealize.SL.Sem Idealize.ShloMosaic.ValueIdx
open Cert.KernelIdeal Cert.KernelIdeal.Gen Cert.KernelIdeal.Fr
open scoped BigOperators

/-! ## Plain arrays -/

/-- A propagation step depends on its three operands only through their entries. -/
theorem step_congr {A A' : FVec Ideal ⟨2, ![16384, 16384]⟩ .f32} {h h' : Fin 16384 → Fin 16 → EReal} {b b' : Fin 16 → EReal}
    (hA : A = A') (hh : ∀ k q, h k q = h' k q) (hb : ∀ q, b q = b' q) (r : Fin 16384) (f : Fin 16) :
    Cert.Gcn.step A h b r f = Cert.Gcn.step A' h' b' r f := by
  subst hA
  unfold Cert.Gcn.step
  rw [hb f]
  exact congrArg (· + b' f) (Finset.sum_congr rfl fun k _ => congrArg (A (ix2 r k) * ·) (hh k f))

/-- The dense head at (r, 0): row r of h2 against the one column of Wd, plus the one entry of bd. -/
theorem head_apply (h2 : FVec Ideal ⟨2, ![16384, 16]⟩ .f32) (Wd : FVec Ideal ⟨2, ![16, 1]⟩ .f32)
    (bd : FVec Ideal ⟨1, ![1]⟩ .f32) (r : Fin 16384) :
    addf (Host.dotGeneral dot_S16384x16_S16x1_S16384x1_1_0_0_1_n_n (some .fp32) h2 Wd)
        (broadcastInDim S16384x1 ![0, 1] bcast_S1x1_S16384x1_0_1 (broadcastInDim S1x1 ![1] bcast_S1_S1x1_1 bd)) (ix2 r 0)
      = (∑ d : Fin 16, h2 (ix2 r d) * Wd (ix2 d 0)) + bd (ix1 0) := by
  rw [addf_apply, InnerProducts.dotGeneral_apply (M := 16384) (K := 16) (N := 1) dot_S16384x16_S16x1_S16384x1_1_0_0_1_n_n rfl (some .fp32) h2 Wd r 0,
    Cert.DenseRows.biasRowHost_apply (M := 16384) (N := 1) bd bcast_S1_S1x1_1 bcast_S1x1_S16384x1_0_1 r 0]

/-! ## The argument arrays at launch -/

variable (m : (ℓ : Loc nD τ sig) → Buf (Elt Ideal) ℓ) (c : Dev nD)

/-- The features x. -/
abbrev aX : FVec Ideal ⟨2, ![16384, 512]⟩ .f32 := m ((c : Thread nD τ).loc main_arg0)
/-- The adjacency matrix A. -/
abbrev aA : FVec Ideal ⟨2, ![16384, 16384]⟩ .f32 := m ((c : Thread nD τ).loc main_arg1)
/-- The first layer's weights W1. -/
abbrev aW1 : FVec Ideal ⟨2, ![512, 16]⟩ .f32 := m ((c : Thread nD τ).loc main_arg2)
/-- The first layer's bias b1. -/
abbrev ab1 : FVec Ideal ⟨1, ![16]⟩ .f32 := m ((c : Thread nD τ).loc main_arg3)
/-- The second layer's weights W2. -/
abbrev aW2 : FVec Ideal ⟨2, ![16, 16]⟩ .f32 := m ((c : Thread nD τ).loc main_arg4)
/-- The second layer's bias b2. -/
abbrev ab2 : FVec Ideal ⟨1, ![16]⟩ .f32 := m ((c : Thread nD τ).loc main_arg5)
/-- The head's weights Wd. -/
abbrev aWd : FVec Ideal ⟨2, ![16, 1]⟩ .f32 := m ((c : Thread nD τ).loc main_arg6)
/-- The head's bias bd. -/
abbrev abd : FVec Ideal ⟨1, ![1]⟩ .f32 := m ((c : Thread nD τ).loc main_arg7)

/-- The first step's result array, as its write-backs leave it. -/
abbrev out1 : FVec Ideal ⟨2, ![16384, 16]⟩ .f32 := (dat0 (E1 m) c).arrAt 3 cfg0.N
/-- The second step's result array, as its write-backs leave it. -/
abbrev out2 : FVec Ideal ⟨2, ![16384, 16]⟩ .f32 := (dat1 (E3 m) c).arrAt 3 cfg1.N

/-! ## What the first step is entered with -/

/-- The adjacency matrix is as launched. -/
theorem E1_arg1 : (E1 m c main_arg1 : FVec Ideal ⟨2, ![16384, 16384]⟩ .f32) = aA m c :=
  (StableHlo.after_of_writes_sub hostOps0 _ hostOps0_writes (r := main_arg1) (by decide)).trans rfl

/-- h0 is the product x W1. -/
theorem E1_v0 : (E1 m c main_v0 : FVec Ideal ⟨2, ![16384, 16]⟩ .f32)
    = Host.dotGeneral dot_S16384x512_S512x16_S16384x16_1_0_0_1_n_n (some .fp32) (aX m c) (aW1 m c) := by
  show StableHlo.after hostOps0 (W0 m c) (Proc.devRef .tc main_v0) = _
  after_results

/-- h0 at (k, q): row k of x against column q of W1. -/
theorem E1_v0_apply (k : Fin 16384) (q : Fin 16) :
    (E1 m c main_v0 : FVec Ideal ⟨2, ![16384, 16]⟩ .f32) (ix2 k q) = Cert.Gcn.prod (aX m c) (aW1 m c) k q :=
  (congrFun (E1_v0 m c) (ix2 k q)).trans
    (InnerProducts.dotGeneral_apply (M := 16384) (K := 512) (N := 16) _ rfl (some .fp32) (aX m c) (aW1 m c) k q)

/-- The first bias row is b1 recast to [1, 16]. -/
theorem E1_v1 : (E1 m c main_v1 : FVec Ideal ⟨2, ![1, 16]⟩ .f32) = shapeCast S1x16 (ab1 m c) shapeCasts_S16_S1x16 := by
  show StableHlo.after hostOps0 (W0 m c) (Proc.devRef .tc main_v1) = _
  after_results
  rfl

/-- The first bias row at (0, q) is b1 q. -/
theorem E1_v1_apply (q : Fin 16) : (E1 m c main_v1 : FVec Ideal ⟨2, ![1, 16]⟩ .f32) (ix2 0 q) = ab1 m c (ix1 q) :=
  (congrFun (E1_v1 m c) (ix2 0 q)).trans (shapeCast_a_1a_apply (ab1 m c) shapeCasts_S16_S1x16 0 q)

/-! ## What the first step leaves -/

/-- The first step's result array is h1 = max (A h0 + b1) 0. -/
theorem step1_layer1
    (hstep1 : ∀ (r : Fin 16384) (f : Fin 16), out1 m c (ix2 r f)
      = max (Cert.Gcn.step (E1 m c main_arg1) (fun k q => E1 m c main_v0 (ix2 k q)) (fun q => E1 m c main_v1 (ix2 0 q)) r f) 0)
    (r : Fin 16384) (f : Fin 16) :
    (E2 m c main_v2 : FVec Ideal ⟨2, ![16384, 16]⟩ .f32) (ix2 r f)
      = Cert.Gcn.layer1 (aX m c) (aA m c) (aW1 m c) (ab1 m c) r f := by
  have e : (E2 m c main_v2 : FVec Ideal ⟨2, ![16384, 16]⟩ .f32) = out1 m c := W2_arr m c 3
  refine (congrFun e (ix2 r f)).trans ((hstep1 r f).trans ?_)
  unfold Cert.Gcn.layer1
  exact congrArg (max · 0) (step_congr (E1_arg1 m c) (E1_v0_apply m c) (E1_v1_apply m c) r f)

/-! ## What the second step is entered with -/

/-- The adjacency matrix is as launched: the first step only reads it. -/
theorem E3_arg1 : (E3 m c main_arg1 : FVec Ideal ⟨2, ![16384, 16384]⟩ .f32) = aA m c :=
  (StableHlo.after_of_writes_sub hostOps1 _ hostOps1_writes (r := main_arg1) (by decide)).trans <|
  ((W2_arr m c 0).trans (((dat0 (E1 m) c).arrAt_in 0 rfl _).trans (A_eq0 (E1 m) c 0))).trans <|
  (StableHlo.after_of_writes_sub hostOps0 _ hostOps0_writes (r := main_arg1) (by decide)).trans rfl

/-- The second layer's weights are as launched. -/
theorem E2_arg4 : (E2 m c main_arg4 : FVec Ideal ⟨2, ![16, 16]⟩ .f32) = aW2 m c :=
  (W2_of_ne m c main_arg4 (by decide)).trans <|
  (StableHlo.after_of_writes_sub hostOps0 _ hostOps0_writes (r := main_arg4) (by decide)).trans rfl

/-- The second layer's bias is as launched. -/
theorem E2_arg5 : (E2 m c main_arg5 : FVec Ideal ⟨1, ![16]⟩ .f32) = ab2 m c :=
  (W2_of_ne m c main_arg5 (by decide)).trans <|
  (StableHlo.after_of_writes_sub hostOps0 _ hostOps0_writes (r := main_arg5) (by decide)).trans rfl

/-- g is the product of the first step's result with W2. -/
theorem E3_v3 : (E3 m c main_v3 : FVec Ideal ⟨2, ![16384, 16]⟩ .f32)
    = Host.dotGeneral (F := Ideal) (φ₁ := .f32) (φ₂ := .f32) dot_S16384x16_S16x16_S16384x16_1_0_0_1_n_n (some .fp32)
        (E2 m c main_v2 : FVec Ideal ⟨2, ![16384, 16]⟩ .f32) (E2 m c main_arg4 : FVec Ideal ⟨2, ![16, 16]⟩ .f32) := by
  show StableHlo.after hostOps1 (W2 m c) (Proc.devRef .tc main_v3) = _
  after_results

/-- g at (k, q): row k of h1 against column q of W2. -/
theorem E3_v3_apply
    (h1 : ∀ (r : Fin 16384) (f : Fin 16), (E2 m c main_v2 : FVec Ideal ⟨2, ![16384, 16]⟩ .f32) (ix2 r f)
      = Cert.Gcn.layer1 (aX m c) (aA m c) (aW1 m c) (ab1 m c) r f)
    (k : Fin 16384) (q : Fin 16) :
    (E3 m c main_v3 : FVec Ideal ⟨2, ![16384, 16]⟩ .f32) (ix2 k q)
      = ∑ d : Fin 16, Cert.Gcn.layer1 (aX m c) (aA m c) (aW1 m c) (ab1 m c) k d * aW2 m c (ix2 d q) :=
  (congrFun (E3_v3 m c) (ix2 k q)).trans <|
  (InnerProducts.dotGeneral_apply (M := 16384) (K := 16) (N := 16) _ rfl (some .fp32)
    (E2 m c main_v2 : FVec Ideal ⟨2, ![16384, 16]⟩ .f32) (E2 m c main_arg4 : FVec Ideal ⟨2, ![16, 16]⟩ .f32) k q).trans <|
  Finset.sum_congr rfl fun d _ => congrArg₂ (· * ·) (h1 k d) (congrFun (E2_arg4 m c) (ix2 d q))

/-- The second bias row is b2 recast to [1, 16]. -/
theorem E3_v4 : (E3 m c main_v4 : FVec Ideal ⟨2, ![1, 16]⟩ .f32)
    = shapeCast S1x16 (E2 m c main_arg5 : FVec Ideal ⟨1, ![16]⟩ .f32) shapeCasts_S16_S1x16 := by
  show StableHlo.after hostOps1 (W2 m c) (Proc.devRef .tc main_v4) = _
  after_results
  rfl

/-- The second bias row at (0, q) is b2 q. -/
theorem E3_v4_apply (q : Fin 16) : (E3 m c main_v4 : FVec Ideal ⟨2, ![1, 16]⟩ .f32) (ix2 0 q) = ab2 m c (ix1 q) :=
  (congrFun (E3_v4 m c) (ix2 0 q)).trans <|
  (shapeCast_a_1a_apply (E2 m c main_arg5 : FVec Ideal ⟨1, ![16]⟩ .f32) shapeCasts_S16_S1x16 0 q).trans
    (congrFun (E2_arg5 m c) (ix1 q))

/-! ## What the second step leaves -/

/-- The second step's result array is h2, the row softmax of A g + b2. -/
theorem step2_layer2
    (h1 : ∀ (r : Fin 16384) (f : Fin 16), (E2 m c main_v2 : FVec Ideal ⟨2, ![16384, 16]⟩ .f32) (ix2 r f)
      = Cert.Gcn.layer1 (aX m c) (aA m c) (aW1 m c) (ab1 m c) r f)
    (hstep2 : ∀ (r : Fin 16384) (f : Fin 16), out2 m c (ix2 r f)
      = Cert.DenseRows.softmax (fun q => Cert.Gcn.step (E3 m c main_arg1) (fun k q => E3 m c main_v3 (ix2 k q))
          (fun q => E3 m c main_v4 (ix2 0 q)) r q) f)
    (r : Fin 16384) (f : Fin 16) :
    (E4 m c main_v5 : FVec Ideal ⟨2, ![16384, 16]⟩ .f32) (ix2 r f)
      = Cert.Gcn.layer2 (Cert.Gcn.layer1 (aX m c) (aA m c) (aW1 m c) (ab1 m c)) (aA m c) (aW2 m c) (ab2 m c) r f := by
  have e : (E4 m c main_v5 : FVec Ideal ⟨2, ![16384, 16]⟩ .f32) = out2 m c := W4_arr m c 3
  refine (congrFun e (ix2 r f)).trans ((hstep2 r f).trans ?_)
  unfold Cert.Gcn.layer2
  exact congrArg (fun l => Cert.DenseRows.softmax l f)
    (funext fun q => step_congr (E3_arg1 m c) (E3_v3_apply m c h1) (E3_v4_apply m c) r q)

/-! ## The dense head -/

/-- The head's weights are as launched. -/
theorem E4_arg6 : (E4 m c main_arg6 : FVec Ideal ⟨2, ![16, 1]⟩ .f32) = aWd m c :=
  (W4_of_ne m c main_arg6 (by decide)).trans <|
  (StableHlo.after_of_writes_sub hostOps1 _ hostOps1_writes (r := main_arg6) (by decide)).trans <|
  (W2_of_ne m c main_arg6 (by decide)).trans <|
  (StableHlo.after_of_writes_sub hostOps0 _ hostOps0_writes (r := main_arg6) (by decide)).trans rfl

/-- The head's bias is as launched. -/
theorem E4_arg7 : (E4 m c main_arg7 : FVec Ideal ⟨1, ![1]⟩ .f32) = abd m c :=
  (W4_of_ne m c main_arg7 (by decide)).trans <|
  (StableHlo.after_of_writes_sub hostOps1 _ hostOps1_writes (r := main_arg7) (by decide)).trans <|
  (W2_of_ne m c main_arg7 (by decide)).trans <|
  (StableHlo.after_of_writes_sub hostOps0 _ hostOps0_writes (r := main_arg7) (by decide)).trans rfl

/-- The result array is the product of the second step's result with Wd, plus bd spread over the rows. -/
theorem W5_v9 : (W5 m c (Proc.devRef .tc main_v9) : FVec Ideal ⟨2, ![16384, 1]⟩ .f32)
    = addf (F := Ideal) (Host.dotGeneral (F := Ideal) (φ₁ := .f32) (φ₂ := .f32) dot_S16384x16_S16x1_S16384x1_1_0_0_1_n_n (some .fp32)
          (E4 m c main_v5 : FVec Ideal ⟨2, ![16384, 16]⟩ .f32) (E4 m c main_arg6 : FVec Ideal ⟨2, ![16, 1]⟩ .f32))
        (broadcastInDim S16384x1 ![0, 1] bcast_S1x1_S16384x1_0_1
          (broadcastInDim S1x1 ![1] bcast_S1_S1x1_1 (E4 m c main_arg7 : FVec Ideal ⟨1, ![1]⟩ .f32))) := by
  show StableHlo.after hostOps2 (W4 m c) (Proc.devRef .tc main_v9) = _
  after_results

/-! ## The result -/

/-- Given what the two propagation steps leave, the program's result array is the specification's array of the argument
    arrays. -/
theorem kernel_result
    (hstep1 : ∀ (r : Fin 16384) (f : Fin 16), out1 m c (ix2 r f)
      = max (Cert.Gcn.step (E1 m c main_arg1) (fun k q => E1 m c main_v0 (ix2 k q)) (fun q => E1 m c main_v1 (ix2 0 q)) r f) 0)
    (hstep2 : ∀ (r : Fin 16384) (f : Fin 16), out2 m c (ix2 r f)
      = Cert.DenseRows.softmax (fun q => Cert.Gcn.step (E3 m c main_arg1) (fun k q => E3 m c main_v3 (ix2 k q))
          (fun q => E3 m c main_v4 (ix2 0 q)) r q) f) :
    W5 m c (Proc.devRef .tc main_v9)
      = Cert.Gcn.outArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  have h1 := step1_layer1 m c hstep1
  have h2 := step2_layer2 m c h1 hstep2
  refine (W5_v9 m c).trans ?_
  funext j
  obtain ⟨r, u, rfl⟩ : ∃ (r : Fin 16384) (u : Fin 1), j = ix2 r u := ⟨j 0, j 1, eq_ix2 j⟩
  obtain rfl : u = 0 := Subsingleton.elim _ _
  refine (head_apply _ _ _ r).trans ?_
  exact congrArg₂ (· + ·)
    (Finset.sum_congr rfl fun d _ => congrArg₂ (· * ·) (h2 r d) (congrFun (E4_arg6 m c) (ix2 d 0)))
    (congrFun (E4_arg7 m c) (ix1 0))

end Cert.KernelIdeal.Val

end
-- ==== Proof.RefStages.lean ====
/-
  The reference's host program read stage by stage at an index.

  The reference computes, in plain array operations,

    h0 = x W1;   h1 = max (A h0 + b1) 0;   g = h1 W2;   h2 = softmax over each row of (A g + b2);   out = h2 Wd + bd.

  Each stage below says what one array of that chain holds at an entry (r, f), in terms of the stage before it: a
  product of two arrays is the sum over the contracted index of the products of entries; a bias placed on a row [1, n]
  and spread over the rows reads its entry f everywhere in column f; the rectifier is the maximum with a spread scalar
  zero; the softmax chain (row maximum, shift, exponential, row sum, quotient) is the softmax of the row. Composed, the
  last stage is the function `Cert.Gcn.outArr` of the eight argument arrays. No law of arithmetic is used: at every
  entry the two sides are the same tree of sums, products, maxima and quotients.
-/
import proofs.«141868_j58643483459879_1_alg».proof.Defs
import proofs.«141868_j58643483459879_1_alg».proof.Proof.Gen.ReferenceIdeal.Read
import proofs.«141868_j58643483459879_1_alg».proof.Proof.Gen.Pre_finite_inputs
import proofs.«141868_j58643483459879_1_alg».proof.Proof.GcnSpec
import proofs.«141868_j58643483459879_1_alg».proof.Proof.LibInnerProducts
import proofs.«141868_j58643483459879_1_alg».proof.Proof.LibDenseRows
import proofs.«141868_j58643483459879_1_alg».proof.Proof.LibRowSoftmax

noncomputable section

namespace Cert.RefBridge

open Cert.ReferenceIdeal Cert.ReferenceIdeal.Gen Cert.ReferenceIdeal.Read
open Idealize.ShloMosaic Idealize.ShloMosaic.TcCoe Idealize.SL.Sem Idealize.ShloMosaic.ValueIdx
open scoped BigOperators

variable (x : FVec Ideal ⟨2, ![16384, 512]⟩ .f32) (A : FVec Ideal ⟨2, ![16384, 16384]⟩ .f32)
  (W1 : FVec Ideal ⟨2, ![512, 16]⟩ .f32) (b1 : FVec Ideal ⟨1, ![16]⟩ .f32) (W2 : FVec Ideal ⟨2, ![16, 16]⟩ .f32)
  (b2 : FVec Ideal ⟨1, ![16]⟩ .f32) (Wd : FVec Ideal ⟨2, ![16, 1]⟩ .f32) (bd : FVec Ideal ⟨1, ![1]⟩ .f32)

/-! ## The first layer -/

/-- h0 = x W1 at (r, f): row r of x against column f of W1. -/
theorem h0_apply (r : Fin 16384) (f : Fin 16) :
    val_main_v0 (F := Ideal) x W1 (ix2 r f) = Cert.Gcn.prod x W1 r f := by
  unfold val_main_v0
  exact InnerProducts.dotGeneral_apply (M := 16384) (K := 512) (N := 16) _ rfl none x W1 r f

/-- A h0 at (r, f): row r of A against column f of h0. -/
theorem Ah0_apply (r : Fin 16384) (f : Fin 16) :
    val_main_v1 (F := Ideal) x A W1 (ix2 r f) = ∑ k : Fin 16384, A (ix2 r k) * Cert.Gcn.prod x W1 k f := by
  unfold val_main_v1
  refine (InnerProducts.dotGeneral_apply (M := 16384) (K := 16384) (N := 16) _ rfl none A
    (val_main_v0 (F := Ideal) x W1) r f).trans ?_
  exact Finset.sum_congr rfl fun k _ => congrArg (A (ix2 r k) * ·) (h0_apply x W1 k f)

/-- The bias b1 spread over the rows reads b1 f at (r, f). -/
theorem bias1_apply (r : Fin 16384) (f : Fin 16) : val_main_v3 (F := Ideal) b1 (ix2 r f) = b1 (ix1 f) := by
  unfold val_main_v3 val_main_v2
  exact Cert.DenseRows.biasRowHost_apply (M := 16384) (N := 16) b1 bcast_S16_S1x16_1 bcast_S1x16_S16384x16_0_1 r f

/-- A h0 + b1 at (r, f) is the propagation step of h0 with bias b1. -/
theorem pre1_apply (r : Fin 16384) (f : Fin 16) :
    val_main_v4 (F := Ideal) x A W1 b1 (ix2 r f) = Cert.Gcn.step A (Cert.Gcn.prod x W1) (fun f => b1 (ix1 f)) r f := by
  show val_main_v1 (F := Ideal) x A W1 (ix2 r f) + val_main_v3 (F := Ideal) b1 (ix2 r f) = _
  rw [Ah0_apply, bias1_apply]
  rfl

/-- The rectifier's spread scalar zero is 0 everywhere. -/
theorem zero_apply (i : S16384x16.Idx) : val_main_call0_v0 (F := Ideal) i = 0 := by
  rw [val_main_call0_v0_apply, val_main_call0_cst_apply]
  exact Ideal.ofBits_zero_f32

/-- h1 = max (A h0 + b1) 0 at (r, f). -/
theorem h1_apply (r : Fin 16384) (f : Fin 16) :
    val_main_v5 (F := Ideal) x A W1 b1 (ix2 r f) = Cert.Gcn.layer1 x A W1 b1 r f := by
  show max (val_main_v4 (F := Ideal) x A W1 b1 (ix2 r f)) (val_main_call0_v0 (F := Ideal) (ix2 r f)) = _
  rw [pre1_apply, zero_apply]
  rfl

/-! ## The second layer -/

/-- g = h1 W2 at (r, q): row r of h1 against column q of W2. -/
theorem g_apply (r : Fin 16384) (q : Fin 16) :
    val_main_v6 (F := Ideal) x A W1 b1 W2 (ix2 r q) = ∑ d : Fin 16, Cert.Gcn.layer1 x A W1 b1 r d * W2 (ix2 d q) := by
  unfold val_main_v6
  refine (InnerProducts.dotGeneral_apply (M := 16384) (K := 16) (N := 16) _ rfl none
    (val_main_v5 (F := Ideal) x A W1 b1) W2 r q).trans ?_
  exact Finset.sum_congr rfl fun d _ => congrArg (· * W2 (ix2 d q)) (h1_apply x A W1 b1 r d)

/-- A g at (r, q): row r of A against column q of g. -/
theorem Ag_apply (r : Fin 16384) (q : Fin 16) :
    val_main_v7 (F := Ideal) x A W1 b1 W2 (ix2 r q)
      = ∑ k : Fin 16384, A (ix2 r k) * ∑ d : Fin 16, Cert.Gcn.layer1 x A W1 b1 k d * W2 (ix2 d q) := by
  unfold val_main_v7
  refine (InnerProducts.dotGeneral_apply (M := 16384) (K := 16384) (N := 16) _ rfl none A
    (val_main_v6 (F := Ideal) x A W1 b1 W2) r q).trans ?_
  exact Finset.sum_congr rfl fun k _ => congrArg (A (ix2 r k) * ·) (g_apply x A W1 b1 W2 k q)

/-- The bias b2 spread over the rows reads b2 q at (r, q). -/
theorem bias2_apply (r : Fin 16384) (q : Fin 16) : val_main_v9 (F := Ideal) b2 (ix2 r q) = b2 (ix1 q) := by
  unfold val_main_v9 val_main_v8
  exact Cert.DenseRows.biasRowHost_apply (M := 16384) (N := 16) b2 bcast_S16_S1x16_1 bcast_S1x16_S16384x16_0_1 r q

/-- A g + b2 at (r, q) is the propagation step of g with bias b2. -/
theorem pre2_apply (r : Fin 16384) (q : Fin 16) :
    val_main_v10 (F := Ideal) x A W1 b1 W2 b2 (ix2 r q)
      = Cert.Gcn.step A (fun k q => ∑ d : Fin 16, Cert.Gcn.layer1 x A W1 b1 k d * W2 (ix2 d q)) (fun q => b2 (ix1 q)) r q := by
  show val_main_v7 (F := Ideal) x A W1 b1 W2 (ix2 r q) + val_main_v9 (F := Ideal) b2 (ix2 r q) = _
  rw [Ag_apply, bias2_apply]
  rfl

/-- h2 at (r, q): the softmax of row r of A g + b2. -/
theorem h2_apply (r : Fin 16384) (q : Fin 16) :
    val_main_v21 (F := Ideal) x A W1 b1 W2 b2 (ix2 r q) = Cert.Gcn.layer2 (Cert.Gcn.layer1 x A W1 b1) A W2 b2 r q := by
  unfold val_main_v21 val_main_v20 val_main_v19 val_main_v18 val_main_v17 val_main_v16 val_main_v15 val_main_v14
    val_main_v13 val_main_v12 val_main_v11 val_main_cst val_main_cst_0 val_main_cst_1
  refine (Cert.DenseRows.softmax_host_apply (M := 16384) (n := 16) (val_main_v10 (F := Ideal) x A W1 b1 W2 b2)
    reducesTo_S16384x16_S16384_d1 (by decide) h_S_ bcast_S_S16384 bcast_S16384_S16384x1_0
    bcast_S16384x1_S16384x16_0_1 r q).trans ?_
  unfold Cert.Gcn.layer2
  exact congrArg (fun l => Cert.DenseRows.softmax l q) (funext fun k => pre2_apply x A W1 b1 W2 b2 r k)

/-! ## The dense head -/

/-- h2 Wd at (r, 0): row r of h2 against the one column of Wd. -/
theorem h2Wd_apply (r : Fin 16384) :
    val_main_v22 (F := Ideal) x A W1 b1 W2 b2 Wd (ix2 r 0)
      = ∑ d : Fin 16, Cert.Gcn.layer2 (Cert.Gcn.layer1 x A W1 b1) A W2 b2 r d * Wd (ix2 d 0) := by
  unfold val_main_v22
  refine (InnerProducts.dotGeneral_apply (M := 16384) (K := 16) (N := 1) _ rfl none
    (val_main_v21 (F := Ideal) x A W1 b1 W2 b2) Wd r 0).trans ?_
  exact Finset.sum_congr rfl fun d _ => congrArg (· * Wd (ix2 d 0)) (h2_apply x A W1 b1 W2 b2 r d)

/-- The bias bd spread over the rows reads its one entry at (r, 0). -/
theorem biasd_apply (r : Fin 16384) : val_main_v24 (F := Ideal) bd (ix2 r 0) = bd (ix1 0) := by
  unfold val_main_v24 val_main_v23
  exact Cert.DenseRows.biasRowHost_apply (M := 16384) (N := 1) bd bcast_S1_S1x1_1 bcast_S1x1_S16384x1_0_1 r 0

/-- out = h2 Wd + bd at (r, 0). -/
theorem out_apply (r : Fin 16384) :
    val_main_v25 (F := Ideal) x A W1 b1 W2 b2 Wd bd (ix2 r 0) = Cert.Gcn.out x A W1 b1 W2 b2 Wd bd r := by
  show val_main_v22 (F := Ideal) x A W1 b1 W2 b2 Wd (ix2 r 0) + val_main_v24 (F := Ideal) bd (ix2 r 0) = _
  rw [h2Wd_apply, biasd_apply]
  rfl

/-! ## The result array -/

/-- The reference's last stage is the specification's array. -/
theorem stage_eq :
    val_main_v25 (F := Ideal) x A W1 b1 W2 b2 Wd bd = Cert.Gcn.outArr x A W1 b1 W2 b2 Wd bd := by
  funext j
  obtain ⟨r, u, rfl⟩ : ∃ (r : Fin 16384) (u : Fin 1), j = ix2 r u := ⟨j 0, j 1, eq_ix2 j⟩
  obtain rfl : u = 0 := Subsingleton.elim _ _
  exact out_apply x A W1 b1 W2 b2 Wd bd r

/-- The term the reference's run leaves in its result buffer is the specification's array of the argument arrays. -/
theorem result_eq (m : (ℓ : Loc nD τ sig) → Buf (Elt Ideal) ℓ) (c : Dev nD) :
    Cert.ReferenceIdeal.Value.res_main_v25 (F := Ideal) m c
      = Cert.Gcn.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v25_eq (F := Ideal) m c).trans (stage_eq _ _ _ _ _ _ _ _)

/-! ## The reference's run -/

/-- Every weakly fair execution of the reference terminates with its result buffer at the specification's array of the
    argument arrays, and the arguments unchanged. -/
theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v25)
          = Cert.Gcn.outArr (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6)) (m' ((c.tc : Thread nD τ).loc main_arg7))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)) :=
  (θ_run (Cert.ReferenceIdeal.defs (F := Ideal)) _ _).mono
    (fun _ h c => ⟨(h c).1.trans (result_eq m' c), (h c).2⟩)
    (Cert.ReferenceIdeal.Value.run (F := Ideal) m' ρ')

/-- The reference runs and leaves its arguments unchanged. -/
theorem frame : Cert.frame_ReferenceIdeal := fun m ρ _ =>
  (θ_run (Cert.ReferenceIdeal.defs (F := Ideal)) _ _).mono (fun _ h c => (h c).2)
    (Cert.ReferenceIdeal.Value.run (F := Ideal) m ρ)

end Cert.RefBridge

end
-- ==== Proof.lean ====
/-
  A two-layer graph convolution with a dense head, out = softmax (A (max (A (x W1) + b1) 0) W2 + b2) Wd + bd, computed
  two ways: by a program whose two products with the [16384, 16384] matrix A are each a grid of 16 × 8 block products
  accumulated, eight at a time, in a [1024, 16] buffer that is zeroed at the first column block and finished (bias, then the
  rectifier, resp. the row softmax) at the last; and by the plain expression. On the extended reals the two agree entry
  by entry: a sum over 16384 terms is the sum of its eight consecutive runs of 2048 terms started from zero, which uses
  only that addition is commutative and associative with unit 0, so no finiteness of the inputs is needed; rounding the
  blocks to a narrower float format before multiplying is the identity there.

  The three programs run to the end without a fault and leave their arguments as launched: for the blocked program, in
  its word-level and its idealized reading alike, because each block product's body runs at every grid point whatever the
  accumulator holds, the accumulator being carried from point to point in the invariant of its step; for the plain
  expression by reading its host operations one after the other. The idealized blocked program is the word-level one read
  at the extended reals, no operation rewritten.
-/
import proofs.«141868_j58643483459879_1_alg».proof.Defs
import proofs.«141868_j58643483459879_1_alg».proof.Proof.Gen.Kernel
import proofs.«141868_j58643483459879_1_alg».proof.Proof.Gen.KernelIdeal
import proofs.«141868_j58643483459879_1_alg».proof.Proof.Gen.ReferenceIdeal
import proofs.«141868_j58643483459879_1_alg».proof.Proof.Gen.Pre_finite_inputs
import proofs.«141868_j58643483459879_1_alg».proof.Proof.KB.MainRun
import proofs.«141868_j58643483459879_1_alg».proof.Proof.KI.MainRun
import proofs.«141868_j58643483459879_1_alg».proof.Proof.KI.Value0
import proofs.«141868_j58643483459879_1_alg».proof.Proof.KI.Value1
import proofs.«141868_j58643483459879_1_alg».proof.Proof.KI.Result
import proofs.«141868_j58643483459879_1_alg».proof.Proof.RefStages

noncomputable section

namespace Cert.Proof

open Idealize.ShloMosaic Idealize.ShloMosaic.TcCoe Idealize.SL.Sem

/-- The word-level blocked program runs to the end and keeps its arguments. -/
theorem frame_k : Cert.frame_Kernel := fun m ρ _ => Cert.Kernel.Fr.frame (F := Bits) m ρ

/-- So does its reading at the extended reals. -/
theorem frame_ki : Cert.frame_KernelIdeal := fun m ρ _ => Cert.KernelIdeal.Fr.frame (F := Ideal) m ρ

/-- Both programs end with the result array at the entrywise expression of the arguments, and the arguments agree. -/
theorem algebraic : Cert.algebraic_KernelIdeal_ReferenceIdeal := by
  intro m ρ m' ρ' _ hagree
  refine ⟨fun c => Cert.Gcn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c =>
      ⟨(h c).1.trans (Cert.KernelIdeal.Val.kernel_result m c
          (Cert.KernelIdeal.Val.step1_array (Cert.KernelIdeal.Fr.E1 m) c) (Cert.KernelIdeal.Val.step2_array (Cert.KernelIdeal.Fr.E3 m) c)), (h c).2⟩)
      (Cert.KernelIdeal.Fr.runs_result (F := Ideal) m ρ)
  · refine (θ_run Cert.ReferenceIdeal.defs _ _).mono (fun _ h c => ⟨(h c).1.trans ?_, (h c).2⟩) (Cert.RefBridge.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, Cert.RefBridge.frame, trivial, algebraic⟩

end Cert.Proof

end
